-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1x1024 : Shape := ⟨2, ![1, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x16x64 : Shape := ⟨3, ![512, 16, 64]⟩
abbrev S16x512x64 : Shape := ⟨3, ![16, 512, 64]⟩
abbrev S32x2048x64 : Shape := ⟨3, ![32, 2048, 64]⟩
abbrev S1x1024x64 : Shape := ⟨3, ![1, 1024, 64]⟩
abbrev S1x512x64 : Shape := ⟨3, ![1, 512, 64]⟩
abbrev S1024x1 : Shape := ⟨2, ![1024, 1]⟩
abbrev S1024x64 : Shape := ⟨2, ![1024, 64]⟩
abbrev S512x64 : Shape := ⟨2, ![512, 64]⟩
abbrev S64x512 : Shape := ⟨2, ![64, 512]⟩
abbrev S1024x512 : Shape := ⟨2, ![1024, 512]⟩
abbrev S64x1024 : Shape := ⟨2, ![64, 1024]⟩

abbrev nBuf : Space → Nat
  | .hbm => 24
  | .vmem => 37
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x1024, .f32⟩
  | .hbm, ⟨12, _⟩ => ⟨S2x16x2048x64, .f32⟩
  | .hbm, ⟨13, _⟩ => ⟨S32x2048x64, .f32⟩
  | .hbm, ⟨14, _⟩ => ⟨S1x1024, .f32⟩
  | .hbm, ⟨15, _⟩ => ⟨S2x16x2048x64, .f32⟩
  | .hbm, ⟨16, _⟩ => ⟨S32x2048x64, .f32⟩
  | .hbm, ⟨17, _⟩ => ⟨S1x1024, .f32⟩
  | .hbm, ⟨18, _⟩ => ⟨S2x16x2048x64, .f32⟩
  | .hbm, ⟨19, _⟩ => ⟨S32x2048x64, .f32⟩
  | .hbm, ⟨20, _⟩ => ⟨S32x2048x64, .f32⟩
  | .hbm, ⟨21, _⟩ => ⟨S1024x1024, .f32⟩
  | .hbm, ⟨22, _⟩ => ⟨S1x1024, .f32⟩
  | .hbm, ⟨23, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x16x512x64, .f32⟩
  | .local _ .vmem, ⟨5, _⟩ => ⟨S1x16x512x64, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1x1024, .f32⟩
  | .local _ .vmem, ⟨10, _⟩ => ⟨S1x16x512x64, .f32⟩
  | .local _ .vmem, ⟨11, _⟩ => ⟨S1x16x512x64, .f32⟩
  | .local _ .vmem, ⟨12, _⟩ => ⟨S1x512x1024, .f32⟩
  | .local _ .vmem, ⟨13, _⟩ => ⟨S1x512x1024, .f32⟩
  | .local _ .vmem, ⟨14, _⟩ => ⟨S1024x1024, .f32⟩
  | .local _ .vmem, ⟨15, _⟩ => ⟨S1x1024, .f32⟩
  | .local _ .vmem, ⟨16, _⟩ => ⟨S1x16x512x64, .f32⟩
  | .local _ .vmem, ⟨17, _⟩ => ⟨S1x16x512x64, .f32⟩
  | .local _ .vmem, ⟨18, _⟩ => ⟨S1x1024x64, .f32⟩
  | .local _ .vmem, ⟨19, _⟩ => ⟨S1x1024x64, .f32⟩
  | .local _ .vmem, ⟨20, _⟩ => ⟨S1x512x64, .f32⟩
  | .local _ .vmem, ⟨21, _⟩ => ⟨S1x512x64, .f32⟩
  | .local _ .vmem, ⟨22, _⟩ => ⟨S1x512x64, .f32⟩
  | .local _ .vmem, ⟨23, _⟩ => ⟨S1x512x64, .f32⟩
  | .local _ .vmem, ⟨24, _⟩ => ⟨S1x1024x64, .f32⟩
  | .local _ .vmem, ⟨25, _⟩ => ⟨S1x1024x64, .f32⟩
  | .local _ .vmem, ⟨26, _⟩ => ⟨S1024x1, .f32⟩
  | .local _ .vmem, ⟨27, _⟩ => ⟨S1024x1, .f32⟩
  | .local _ .vmem, ⟨28, _⟩ => ⟨S1024x64, .f32⟩
  | .local _ .vmem, ⟨29, _⟩ => ⟨S1x512x64, .f32⟩
  | .local _ .vmem, ⟨30, _⟩ => ⟨S1x512x64, .f32⟩
  | .local _ .vmem, ⟨31, _⟩ => ⟨S64x1024, .f32⟩
  | .local _ .vmem, ⟨32, _⟩ => ⟨S64x1024, .f32⟩
  | .local _ .vmem, ⟨33, _⟩ => ⟨S1x1024, .f32⟩
  | .local _ .vmem, ⟨34, _⟩ => ⟨S1x512x1024, .f32⟩
  | .local _ .vmem, ⟨35, _⟩ => ⟨S1x512x1024, .f32⟩
  | .local _ .vmem, ⟨36, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![32, 2, 4], ![false, false, false]⟩

def k3_cond2 (i : grid3.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_27 : BitVec 32 := 0#32
  let v48 : BitVec 1 := Scalar.cmpi .ne v47 c0_i32_27
  v48

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 16], ![false, false, false]⟩

def k4_cond2 (i : grid4.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_9 : BitVec 32 := 0#32
  let v17 : BitVec 1 := Scalar.cmpi .ne v16 c0_i32_9
  v17

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1x512x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S64x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false, false]

abbrev stage4_3 : Fin 2 → Memref sig .tc .vmem S1x512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  shapeCasts_S2x16x2048x64_S32x2048x64 : S2x16x2048x64.ShapeCasts S32x2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .f32 = 32 ∨ (Rect.block (s := S2x16x2048x64) S1x16x512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .f32 = 32 ∨ (Rect.block (s := S2x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x512x64.size a ≤ S2x16x2048x64.size a
  hwx1_3 : ∀ i : grid1.Coords, EltTy.bits .f32 = 32 ∨ (Rect.block (s := S2x16x2048x64) S1x16x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S2x2048x1024.size a
  hwx2_0 : ∀ i : grid2.Coords, EltTy.bits .f32 = 32 ∨ (Rect.block (s := S2x2048x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x512x64.size a ≤ S2x16x2048x64.size a
  hwx2_3 : ∀ i : grid2.Coords, EltTy.bits .f32 = 32 ∨ (Rect.block (s := S2x16x2048x64) S1x16x512x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S32x2048x64.size a
  hwx3_0 : ∀ i : grid3.Coords, EltTy.bits .f32 = 32 ∨ (Rect.block (s := S32x2048x64) S1x1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x64.size a ≤ S32x2048x64.size a
  hwx3_1 : ∀ i : grid3.Coords, EltTy.bits .f32 = 32 ∨ (Rect.block (s := S32x2048x64) S1x512x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x64.size a ≤ S32x2048x64.size a
  hwx3_2 : ∀ i : grid3.Coords, EltTy.bits .f32 = 32 ∨ (Rect.block (s := S32x2048x64) S1x512x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S32x2048x64.size a
  hwx3_3 : ∀ i : grid3.Coords, EltTy.bits .f32 = 32 ∨ (Rect.block (s := S32x2048x64) S1x1024x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x512x64.size a ≤ S32x2048x64.size a
  hwx4_0 : ∀ i : grid4.Coords, EltTy.bits .f32 = 32 ∨ (Rect.block (s := S32x2048x64) S1x512x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x1024.size a ≤ S1024x1024.size a
  hwx4_1 : ∀ i : grid4.Coords, EltTy.bits .f32 = 32 ∨ (Rect.block (s := S1024x1024) S64x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x512x1024.size a ≤ S2x2048x1024.size a
  hwx4_3 : ∀ i : grid4.Coords, EltTy.bits .f32 = 32 ∨ (Rect.block (s := S2x2048x1024) S1x512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x512x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v9) S1x512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S64x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1x512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KBody0.lean ====
/-
  Region 0 (the query projection): what one grid point's body does to its staging buffers.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 0: one grid point's body

The body loads a 512-row slab of the activations, the whole weight matrix and the bias row, and stores
one value: the slab times the transposed weights plus the bias, split into 16 heads of 64 columns and
laid out head-major. -/

/-- The rectangles the body touches: each is its buffer whole. -/
abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rO0 : Rect S1x16x512x64 := Rect.unit (s := S1x16x512x64) ![0, 0, 0, 0] S1x16x512x64.size inb_S1x16x512x64_S1x16x512x64_0_0_0_0

/-- What the body leaves in the output block, from the three input blocks: its one store. -/
def out0_3 (x0 : Vec F S1x512x1024 .f32) (x1 : Vec F S1024x1024 .f32) (x2 : Vec F S1x1024 .f32) : Vec F S1x16x512x64 .f32 :=
  View.canon [⟨rO0, k0_pay1 (View.ld x0 rX0) (View.ld x1 rW0) (View.ld x2 rB0)⟩]

/-- The one store covers the whole output block. -/
theorem cover0_3 (p0 : Vec F S1x16x512x64 .f32) (y : S1x16x512x64.Idx) :
    ∃ pc ∈ ([⟨rO0, p0⟩] : List (View.Piece (Elt F) S1x16x512x64 .f32)), y ∈ pc.1.set :=
  View.cover_of_tiled [⟨rO0, p0⟩] S1x16x512x64.size (by rfl) y

set_option maxHeartbeats 1000000 in
/-- The body on whole staging buffers, the inputs at given contents and the output at anything, runs to a
    state with the inputs unchanged and the output block at `out0_3` of them. -/
theorem sound_kernel0 (c : Dev nD) (E : Set ℕ) (i : grid0.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Frame

end
-- ==== Proof.KRegion0.lean ====
/-
  Region 0 (the query projection): the pipeline's proof data at the buffer contents the region is entered with,
  and the body obligation at every grid point.
-/
import proofs.«130128_j25795573580066_2_alg».proof.Proof.KBody0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's slab at every point: the slab is fetched at every point,
    the window is uncut and never idle, and the body leaves the slab in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point. It is fetched at the first point
    only; at a later point the block index has not moved (the index map is constant), the body left the block in
    place, and the buffer still holds what the first point fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the whole bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core `c`: the arrays as the region finds them; after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.KRegion1.lean ====
/-
  Region 1 (the key projection): one grid point's body, the pipeline's proof data at the buffer contents the region is entered with,
  and the body obligation at every grid point.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 1: one grid point's body

The body loads a 512-row slab of the activations, the whole weight matrix and the bias row, and stores
one value: the slab times the transposed weights plus the bias, split into 16 heads of 64 columns and
laid out head-major. -/

/-- The rectangles the body touches: each is its buffer whole. -/
abbrev rX1 : Rect S1x512x1024 := Rect.unit (s := S1x512x1024) ![0, 0, 0] S1x512x1024.size inb_S1x512x1024_S1x512x1024_0_0_0
abbrev rW1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0
abbrev rO1 : Rect S1x16x512x64 := Rect.unit (s := S1x16x512x64) ![0, 0, 0, 0] S1x16x512x64.size inb_S1x16x512x64_S1x16x512x64_0_0_0_0

/-- What the body leaves in the output block, from the three input blocks: its one store. -/
def out1_3 (x0 : Vec F S1x512x1024 .f32) (x1 : Vec F S1024x1024 .f32) (x2 : Vec F S1x1024 .f32) : Vec F S1x16x512x64 .f32 :=
  View.canon [⟨rO1, k1_pay1 (View.ld x0 rX1) (View.ld x1 rW1) (View.ld x2 rB1)⟩]

/-- The one store covers the whole output block. -/
theorem cover1_3 (p0 : Vec F S1x16x512x64 .f32) (y : S1x16x512x64.Idx) :
    ∃ pc ∈ ([⟨rO1, p0⟩] : List (View.Piece (Elt F) S1x16x512x64 .f32)), y ∈ pc.1.set :=
  View.cover_of_tiled [⟨rO1, p0⟩] S1x16x512x64.size (by rfl) y

set_option maxHeartbeats 1000000 in
/-- The body on whole staging buffers, the inputs at given contents and the output at anything, runs to a
    state with the inputs unchanged and the output block at `out1_3` of them. -/
theorem sound_kernel1 (c : Dev nD) (E : Set ℕ) (i : grid1.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

section Region1

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's slab at every point: the slab is fetched at every point,
    the window is uncut and never idle, and the body leaves the slab in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point. It is fetched at the first point
    only; at a later point the block index has not moved (the index map is constant), the body left the block in
    place, and the buffer still holds what the first point fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the region on core `c`: the arrays as the region finds them; after the body at point `t`
    each input's buffer at its block and the output's at `out1_3` of the three input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frame

end
-- ==== Proof.KRegion2.lean ====
/-
  Region 2 (the value projection): one grid point's body, the pipeline's proof data at the buffer contents the region is entered with,
  and the body obligation at every grid point.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 2: one grid point's body

The body loads a 512-row slab of the activations, the whole weight matrix and the bias row, and stores
one value: the slab times the transposed weights plus the bias, split into 16 heads of 64 columns and
laid out head-major. -/

/-- The rectangles the body touches: each is its buffer whole. -/
abbrev rX2 : Rect S1x512x1024 := Rect.unit (s := S1x512x1024) ![0, 0, 0] S1x512x1024.size inb_S1x512x1024_S1x512x1024_0_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S1x16x512x64 := Rect.unit (s := S1x16x512x64) ![0, 0, 0, 0] S1x16x512x64.size inb_S1x16x512x64_S1x16x512x64_0_0_0_0

/-- What the body leaves in the output block, from the three input blocks: its one store. -/
def out2_3 (x0 : Vec F S1x512x1024 .f32) (x1 : Vec F S1024x1024 .f32) (x2 : Vec F S1x1024 .f32) : Vec F S1x16x512x64 .f32 :=
  View.canon [⟨rO2, k2_pay1 (View.ld x0 rX2) (View.ld x1 rW2) (View.ld x2 rB2)⟩]

/-- The one store covers the whole output block. -/
theorem cover2_3 (p0 : Vec F S1x16x512x64 .f32) (y : S1x16x512x64.Idx) :
    ∃ pc ∈ ([⟨rO2, p0⟩] : List (View.Piece (Elt F) S1x16x512x64 .f32)), y ∈ pc.1.set :=
  View.cover_of_tiled [⟨rO2, p0⟩] S1x16x512x64.size (by rfl) y

set_option maxHeartbeats 1000000 in
/-- The body on whole staging buffers, the inputs at given contents and the output at anything, runs to a
    state with the inputs unchanged and the output block at `out2_3` of them. -/
theorem sound_kernel2 (c : Dev nD) (E : Set ℕ) (i : grid2.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

section Region2

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's slab at every point: the slab is fetched at every point,
    the window is uncut and never idle, and the body leaves the slab in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point. It is fetched at the first point
    only; at a later point the block index has not moved (the index map is constant), the body left the block in
    place, and the buffer still holds what the first point fetched. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the whole bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the region on core `c`: the arrays as the region finds them; after the body at point `t`
    each input's buffer at its block and the output's at `out2_3` of the three input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Frame

end
-- ==== Proof.KR3Runs.lean ====
/-
  Region 3 (attention with a running softmax over four blocks of 512 keys): the three shapes one grid
  point's body can take, each run on whole staging buffers.  The grid is (batch·head pair, query block,
  key block); the key block is the innermost coordinate.  Three buffers are carried from one key block to
  the next: the running row maximum, the running row sum and the running weighted sum of value rows.  At
  key block 0 the body first resets them (−∞, 0, 0); at every key block it rescales and updates them; at
  key block 3 it also stores the weighted sum divided by the row sum.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which shape a point has -/

/-- The body's first conditional: the key-block coordinate is 0. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The body's second conditional: the key-block coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## The three runs -/

set_option maxHeartbeats 2000000 in
/-- KEY BLOCK 0: the three carried buffers, found at anything, are reset and then updated with the block;
    the output block is not touched and is handed back as found. -/
noncomputable def kernelRun3_A (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨[], ?_, ?_, ?_, fun xi3 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 2000000 in
/-- KEY BLOCKS 1 AND 2: the carried buffers, found at what the block before left, are rescaled and updated;
    the output block is handed back as found. -/
noncomputable def kernelRun3_B (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨[], ?_, ?_, ?_, fun xi3 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 2000000 in
/-- KEY BLOCK 3: the carried buffers are updated a last time, and the output block, found at anything, is
    stored with the weighted sum over the row sum. -/
noncomputable def kernelRun3_C (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Frame

end
-- ==== Proof.KRegion3.lean ====
/-
  Region 3 (attention with a running softmax): what the output block and the three carried buffers hold
  after every grid point, the invariant that carries them from one key block to the next, and the
  pipeline's proof data.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import proofs.«130128_j25795573580066_2_alg».proof.Proof.KR3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Before key block 3 the output block is idle: the body stores nothing into it, -/
theorem idleAt3_3 : ∀ t : Fin cfg3.N, ¬cond3_1 (grid3.coords t) → cfg3.idle 3 (grid3.coords t) = true := by decide +kernel
/-- and the pipeline does not write it back; -/
theorem noFlush3_3 : ∀ t : Fin cfg3.N, ¬cond3_1 (grid3.coords t) → (cfg3.win 3).flush t = false := by decide +kernel
/-- at key block 3 it is live. -/
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1x1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x64 .f32 := win3_3.stage (cfg3.slots t 3)
abbrev hs3_3 (t : Fin cfg3.N) : (ms3_3 t).IsWhole := hstage3_3 ((cfg3.slots t 3).cast nbuf3_3)
/-- The carried buffers: whole scoped buffers of the kernel's own (running maximum, running sum, running weighted sum). -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x64 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x64 .f32 := scM3_2.view
abbrev VO3_3 : View sig .tc .vmem S1x1024x64 .f32 := (Memref.whole cc3_stg3_0 : Memref sig .tc .vmem S1x1024x64 .f32).view

/-- The region's entry invariant with the three carried buffers split out of the scoped buffers, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end

/-! ## What each case leaves -/

/-- What case A leaves in the output block (nothing: a placeholder nothing consults). -/
def out3_A_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1x1024x64 .f32 :=
  VO3_3.read (Elt F) (VO3_3.writes (Elt F) VO3_3.junk (kernelRun3_A c i arg3 harg3 arg4 harg4 arg5 harg5 arg6 harg6 arg7 harg7 arg8 harg8 arg9 harg9 hc0 hc1 x0 x1 x2).1)
theorem scover3_A_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x1.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S1024x1.size (by sl_kernel_rfl) y
/-- What case A leaves in the running maximum. -/
def sout3_A_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).2.1)
theorem scover3_A_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x1.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S1024x1.size (by sl_kernel_rfl) y
/-- What case A leaves in the running sum. -/
def sout3_A_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.2.1)
theorem scover3_A_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x64.Idx) :
    ∃ pc ∈ (kernelRun3_A c i arg3 harg3 arg4 harg4 arg5 harg5 arg6 harg6 arg7 harg7 arg8 harg8 arg9 harg9 hc0 hc1 x0 x1 x2).2.2.2.1, y ∈ pc.1.set :=
  View.cover_of_tiledL (kernelRun3_A c i arg3 harg3 arg4 harg4 arg5 harg5 arg6 harg6 arg7 harg7 arg8 harg8 arg9 harg9 hc0 hc1 x0 x1 x2).2.2.2.1 S1024x64.size (by sl_kernel_rfl) y
/-- What case A leaves in the running weighted sum. -/
def sout3_A_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x64 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.2.1)

/-- What case B leaves in the output block (nothing: a placeholder nothing consults). -/
def out3_B_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1x1024x64 .f32 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)
theorem scover3_B_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in the running maximum. -/
def sout3_B_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)
theorem scover3_B_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in the running sum. -/
def sout3_B_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)
theorem scover3_B_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x64.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S1024x64.size (by sl_kernel_rfl) y
/-- What case B leaves in the running weighted sum. -/
def sout3_B_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x64 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

/-- Key block 3's one store into the output block covers it. -/
theorem cover3_C_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1x1024x64.Idx) :
    ∃ pc ∈ (kernelRun3_C c i arg3 harg3 arg4 harg4 arg5 harg5 arg6 harg6 arg7 harg7 arg8 harg8 arg9 harg9 hc0 hc1 x0 x1 x2 xs0 xs1 xs2).1, y ∈ pc.1.set :=
  View.cover_of_tiledL (kernelRun3_C c i arg3 harg3 arg4 harg4 arg5 harg5 arg6 harg6 arg7 harg7 arg8 harg8 arg9 harg9 hc0 hc1 x0 x1 x2 xs0 xs1 xs2).1 S1x1024x64.size (by sl_kernel_rfl) y

/-- What case C leaves in the output block. -/
def out3_C_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1x1024x64 .f32 :=
  VO3_3.read (Elt F) (VO3_3.writes (Elt F) VO3_3.junk (kernelRun3_C c i arg3 harg3 arg4 harg4 arg5 harg5 arg6 harg6 arg7 harg7 arg8 harg8 arg9 harg9 hc0 hc1 x0 x1 x2 xs0 xs1 xs2).1)
theorem scover3_C_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.1 S1024x1.size (by sl_kernel_rfl) y
/-- What case C leaves in the running maximum. -/
def sout3_C_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_0.read (Elt F) (VS3_0.writes (Elt F) VS3_0.junk (kernelRun3_C c i arg3 harg3 arg4 harg4 arg5 harg5 arg6 harg6 arg7 harg7 arg8 harg8 arg9 harg9 hc0 hc1 x0 x1 x2 xs0 xs1 xs2).2.1)
theorem scover3_C_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.2.1 S1024x1.size (by sl_kernel_rfl) y
/-- What case C leaves in the running sum. -/
def sout3_C_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_1.read (Elt F) (VS3_1.writes (Elt F) VS3_1.junk (kernelRun3_C c i arg3 harg3 arg4 harg4 arg5 harg5 arg6 harg6 arg7 harg7 arg8 harg8 arg9 harg9 hc0 hc1 x0 x1 x2 xs0 xs1 xs2).2.2.1)
theorem scover3_C_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x64.Idx) :
    ∃ pc ∈ (kernelRun3_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.2.2.1 S1024x64.size (by sl_kernel_rfl) y
/-- What case C leaves in the running weighted sum. -/
def sout3_C_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x64 .f32 :=
  VS3_2.read (Elt F) (VS3_2.writes (Elt F) VS3_2.junk (kernelRun3_C c i arg3 harg3 arg4 harg4 arg5 harg5 arg6 harg6 arg7 harg7 arg8 harg8 arg9 harg9 hc0 hc1 x0 x1 x2 xs0 xs1 xs2).2.2.2.1)

section
variable (V : (c : Dev nD) → (b : Ref sig .tc) → Buf (Elt F) ((c : Thread nD τ).loc b))

/-! ## What the output block and the carried buffers hold after each point -/

/-- A point of key block 0: the tuple (output block, maximum, sum, weighted sum) it leaves. -/
def ptA3 (c : Dev nD) (t : Fin cfg3.N) (h0 : t.val % 4 = 0) (h1 : ¬t.val % 4 = 3) : Vec F S1x1024x64 .f32 × Vec F S1024x1 .f32 × Vec F S1024x1 .f32 × Vec F S1024x64 .f32 :=
  (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t))
/-- A point of key block 1 or 2, over what the point before left in the carried buffers. -/
def ptB3 (c : Dev nD) (t : Fin cfg3.N) (h0 : ¬t.val % 4 = 0) (h1 : ¬t.val % 4 = 3) (xs0 : Vec F S1024x1 .f32) (xs1 : Vec F S1024x1 .f32) (xs2 : Vec F S1024x64 .f32) : Vec F S1x1024x64 .f32 × Vec F S1024x1 .f32 × Vec F S1024x1 .f32 × Vec F S1024x64 .f32 :=
  (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2)
/-- A point of key block 3, over what the point before left in the carried buffers. -/
def ptC3 (c : Dev nD) (t : Fin cfg3.N) (h0 : ¬t.val % 4 = 0) (h1 : t.val % 4 = 3) (xs0 : Vec F S1024x1 .f32) (xs1 : Vec F S1024x1 .f32) (xs2 : Vec F S1024x64 .f32) : Vec F S1x1024x64 .f32 × Vec F S1024x1 .f32 × Vec F S1024x1 .f32 × Vec F S1024x64 .f32 :=
  (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2)

/-- THE RECURRENCE: the tuple after the body at position `n`, the carried buffers taken from position `n - 1`
    except at a key block 0, where they start afresh. -/
def outsAt3 (c : Dev nD) : (n : ℕ) → n < cfg3.N → Vec F S1x1024x64 .f32 × Vec F S1024x1 .f32 × Vec F S1024x1 .f32 × Vec F S1024x64 .f32
  | 0, hn => ptA3 V c ⟨0, hn⟩ (Nat.zero_mod _) (by show ¬(0 : ℕ) % 4 = 3; decide)
  | n + 1, hn =>
    if h0 : (n + 1) % 4 = 0 then
      if h1 : (n + 1) % 4 = 3 then False.elim (by omega)
      else ptA3 V c ⟨n + 1, hn⟩ h0 h1
    else
      if h1 : (n + 1) % 4 = 3 then ptC3 V c ⟨n + 1, hn⟩ h0 h1 (outsAt3 c n (Nat.lt_of_succ_lt hn)).2.1 (outsAt3 c n (Nat.lt_of_succ_lt hn)).2.2.1 (outsAt3 c n (Nat.lt_of_succ_lt hn)).2.2.2
      else ptB3 V c ⟨n + 1, hn⟩ h0 h1 (outsAt3 c n (Nat.lt_of_succ_lt hn)).2.1 (outsAt3 c n (Nat.lt_of_succ_lt hn)).2.2.1 (outsAt3 c n (Nat.lt_of_succ_lt hn)).2.2.2

theorem outsAt3_A (c : Dev nD) (t : Fin cfg3.N) (h0 : t.val % 4 = 0) (h1 : ¬t.val % 4 = 3) :
    outsAt3 V c t.val t.isLt = ptA3 V c t h0 h1 := by
  obtain ⟨n, hn⟩ := t
  cases n with
  | zero => exact rfl
  | succ n => exact (dif_pos h0).trans ((dif_neg h1).trans rfl)
theorem outsAt3_B (c : Dev nD) (t : Fin cfg3.N) (h0 : ¬t.val % 4 = 0) (h1 : ¬t.val % 4 = 3) :
    outsAt3 V c t.val t.isLt = ptB3 V c t h0 h1 (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt3_C (c : Dev nD) (t : Fin cfg3.N) (h0 : ¬t.val % 4 = 0) (h1 : t.val % 4 = 3) :
    outsAt3 V c t.val t.isLt = ptC3 V c t h0 h1 (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The carried buffers at the contents `o` holds for them, the other scoped buffers unopened, the generator
    register at some state. -/
def carried3 (c : Dev nD) (o : Vec F S1x1024x64 .f32 × Vec F S1024x1 .f32 × Vec F S1024x1 .f32 × Vec F S1024x64 .f32) : sProp 𝕄 :=
  iprop(iprop(iprop(owns (c : Thread nD τ) scM3_0 fullShare o.2.1 ∗ owns (c : Thread nD τ) scM3_1 fullShare o.2.2.1 ∗ owns (c : Thread nD τ) scM3_2 fullShare o.2.2.2) ∗ Pipeline.scopedRestBut (Ix := Unit) (Name := ℕ) (U := UR sig nD τ) (Lvl := ℕ) (Val := Elt F) spec3 c [cc3_scratch0, cc3_scratch1, cc3_scratch2]) ∗ (∃ r, prngReg c r))

/-- The region's invariant before position `n`: before the first point the entry invariant; afterwards the
    carried buffers at what the point before left. -/
def PhiS3 (c : Dev nD) : (n : ℕ) → n ≤ cfg3.N → sProp 𝕄
  | 0, _ => Pipeline.ΦA spec3 c
  | n + 1, hn => carried3 c (outsAt3 V c n hn)

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) : PhiS3 V c (n + 1) hn = carried3 c (outsAt3 V c n hn) := rfl
theorem PhiS3_pos (c : Dev nD) (n : ℕ) (h : n ≤ cfg3.N) (hz : n ≠ 0) :
    PhiS3 V c n h = carried3 c (outsAt3 V c (n - 1) (by omega)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end

end Cert.Kernel.Frame

end
-- ==== Proof.KR3Body.lean ====
/-
  Region 3 (attention with a running softmax): at every grid point the body, called with the windows'
  staging buffers and the three carried buffers as the invariant holds them, leaves them as the proof data
  says.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import proofs.«130128_j25795573580066_2_alg».proof.Proof.KRegion3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the position modulo 4 says which case the
    point is in; the invariant hands over the carried buffers at what the point before left (at anything
    before the very first point) and takes them back at this point's contents; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  unfold carried3
  have hN : t.val < 256 := lt_of_lt_of_eq t.isLt (show cfg3.N = 256 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold ptA3 sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, HR⟩, Hg⟩, Ho, ⟨%d0, H0⟩, ⟨%d1, H1⟩, ⟨%d2, H2⟩, ⟨%d3, H3⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]; unfold carried3
        iintro ⟨⟨⟨⟨HS0, HS1, HS2⟩, HR⟩, Hg⟩, Ho, ⟨%d0, H0⟩, ⟨%d1, H1⟩, ⟨%d2, H2⟩, ⟨%d3, H3⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold ptC3 out3_C_3 sout3_C_0 sout3_C_1 sout3_C_2; (try dsimp only)
      rw [PhiS3_castSucc V c t, PhiS3_pos V c _ _ hz]; unfold carried3
      iintro ⟨⟨⟨⟨HS0, HS1, HS2⟩, HR⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold ptB3 sout3_B_0 sout3_B_1 sout3_B_2; (try dsimp only)
      rw [PhiS3_castSucc V c t, PhiS3_pos V c _ _ hz]; unfold carried3
      iintro ⟨⟨⟨⟨HS0, HS1, HS2⟩, HR⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point but the first the invariant gives the entry invariant back: what the carried buffers hold is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold carried3
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  Phi3_out V c _ (by rw [Fin.val_last]; have : cfg3.N = 256 := N_3; omega)

end

end Cert.Kernel.Frame

end
-- ==== Proof.KR4Runs.lean ====
/-
  Region 4 (the output projection, accumulated over the 16 heads): the three shapes one grid point's
  body can take, each run on whole staging buffers.  The grid is (batch, row block, head); the head is
  the innermost coordinate.  At head 0 the body first zeroes its accumulator; at every head it adds the
  head's 512×64 slab times the matching 64 rows of the transposed output weights; at head 15 it also
  adds the bias row and stores the block.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which shape a point has -/

/-- The body's first conditional: the head coordinate is 0. -/
abbrev cond4_0 (i : grid4.Coords) : Prop := (Scalar.cmpi .ne (Scalar.extui (Scalar.cmpi .eq (BitVec.ofNat 32 (i 2).val) 0#32)) 0#32) = 1#1
/-- It holds exactly at the points whose position is a multiple of 16. -/
theorem hcond4_0 : ∀ t : Fin cfg4.N, cond4_0 (grid4.coords t) ↔ t.val % 16 = 0 :=
  (by decide +kernel : ∀ t : Fin grid4.N, cond4_0 (grid4.coords t) ↔ t.val % 16 = 0)
/-- The body's second conditional: the head coordinate is 15. -/
abbrev cond4_1 (i : grid4.Coords) : Prop := k4_cond2 i = 1#1
/-- It holds exactly at the points whose position is 15 modulo 16. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## The three runs -/

set_option maxHeartbeats 1000000 in
/-- HEAD 0: the accumulator, found at anything, is zeroed and then receives the head's product; the
    output block is not touched and is handed back as found. -/
noncomputable def kernelRun4_A (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨[], ?_, fun xi3 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- HEADS 1 … 14: the accumulator, found at what the head before left, receives the head's product; the
    output block is handed back as found. -/
noncomputable def kernelRun4_B (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨[], ?_, fun xi3 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- HEAD 15: the accumulator receives the last head's product, and the output block, found at anything,
    is stored with the accumulator plus the bias row. -/
noncomputable def kernelRun4_C (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.KRegion4.lean ====
/-
  Region 4 (the output projection, accumulated over the 16 heads): what the output block and the
  accumulator hold after every grid point, the invariant that carries the accumulator from one point
  to the next, and the body's obligation at every point.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import proofs.«130128_j25795573580066_2_alg».proof.Proof.KR4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter, fixed when the regions are put together
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
/-- Before head 15 the output block is idle: the body stores nothing into it, -/
theorem idleAt4_3 : ∀ t : Fin cfg4.N, ¬cond4_1 (grid4.coords t) → cfg4.idle 3 (grid4.coords t) = true := by decide +kernel
/-- and the pipeline does not write it back; -/
theorem noFlush4_3 : ∀ t : Fin cfg4.N, ¬cond4_1 (grid4.coords t) → (cfg4.win 3).flush t = false := by decide +kernel
/-- at head 15 it is live. -/
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S1x512x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512x1024 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S512x1024 .f32 := Memref.whole cc4_scratch0
abbrev VS4_0 : View sig .tc .vmem S512x1024 .f32 := scM4_0.view
/-- One staging buffer of the output window, through which its contents are stated. -/
abbrev VO4_3 : View sig .tc .vmem S1x512x1024 .f32 := (Memref.whole cc4_stg3_0 : Memref sig .tc .vmem S1x512x1024 .f32).view

/-- The region's entry invariant with the accumulator split out of the scoped buffers, at some contents. -/
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end

/-! ## What each case leaves -/

/-- Head 0 stores nothing into the output block: a placeholder nothing consults. -/
def out4_A_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) : Vec F S1x512x1024 .f32 :=
  VO4_3.read (Elt F) (VO4_3.writes (Elt F) VO4_3.junk (kernelRun4_A c i arg3 harg3 arg4 harg4 arg5 harg5 arg6 harg6 arg7 harg7 hc0 hc1 x0 x1 x2).1)
/-- Head 0's stores into the accumulator cover it. -/
theorem scover4_A_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) (y : S512x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S512x1024.size (by sl_kernel_rfl) y
/-- What head 0 leaves in the accumulator. -/
def sout4_A_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) : Vec F S512x1024 .f32 :=
  VS4_0.read (Elt F) (VS4_0.writes (Elt F) VS4_0.junk (kernelRun4_A c i arg3 harg3 arg4 harg4 arg5 harg5 arg6 harg6 arg7 harg7 hc0 hc1 x0 x1 x2).2.1)

/-- Heads 1 … 14 store nothing into the output block either. -/
def out4_B_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) : Vec F S1x512x1024 .f32 :=
  VO4_3.read (Elt F) (VO4_3.writes (Elt F) VO4_3.junk (kernelRun4_B c i arg3 harg3 arg4 harg4 arg5 harg5 arg6 harg6 arg7 harg7 hc0 hc1 x0 x1 x2 xs0).1)
theorem scover4_B_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) (y : S512x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S512x1024.size (by sl_kernel_rfl) y
/-- What a middle head leaves in the accumulator, from what the head before left. -/
def sout4_B_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) : Vec F S512x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- Head 15's one store into the output block covers it. -/
theorem cover4_C_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) (y : S1x512x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1x512x1024.size (by sl_kernel_rfl) y
/-- What head 15 leaves in the output block. -/
def out4_C_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) : Vec F S1x512x1024 .f32 :=
  VO4_3.read (Elt F) (VO4_3.writes (Elt F) VO4_3.junk (kernelRun4_C c i arg3 harg3 arg4 harg4 arg5 harg5 arg6 harg6 arg7 harg7 hc0 hc1 x0 x1 x2 xs0).1)
theorem scover4_C_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) (y : S512x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S512x1024.size (by sl_kernel_rfl) y
/-- What head 15 leaves in the accumulator. -/
def sout4_C_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) : Vec F S512x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-! ## What the output block and the accumulator hold after each point -/

/-- A point of head 0: the pair (output block, accumulator) it leaves. -/
def ptA4 (c : Dev nD) (t : Fin cfg4.N) (h0 : t.val % 16 = 0) (h1 : ¬t.val % 16 = 15) : Vec F S1x512x1024 .f32 × Vec F S512x1024 .f32 :=
  (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t),
   sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t))
/-- A point of a middle head, over the accumulator `xs` the point before left. -/
def ptB4 (c : Dev nD) (t : Fin cfg4.N) (h0 : ¬t.val % 16 = 0) (h1 : ¬t.val % 16 = 15) (xs : Vec F S512x1024 .f32) : Vec F S1x512x1024 .f32 × Vec F S512x1024 .f32 :=
  (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) xs,
   sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) xs)
/-- A point of head 15, over the accumulator `xs` the point before left. -/
def ptC4 (c : Dev nD) (t : Fin cfg4.N) (h0 : ¬t.val % 16 = 0) (h1 : t.val % 16 = 15) (xs : Vec F S512x1024 .f32) : Vec F S1x512x1024 .f32 × Vec F S512x1024 .f32 :=
  (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) xs,
   sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) xs)

/-- THE ACCUMULATION: the pair (output block, accumulator) after the body at position `n`, the accumulator
    carried from position `n - 1` except at a head 0, where it starts afresh. -/
def outsAt4 (c : Dev nD) : (n : ℕ) → n < cfg4.N → Vec F S1x512x1024 .f32 × Vec F S512x1024 .f32
  | 0, hn => ptA4 V c ⟨0, hn⟩ (Nat.zero_mod _) (by show ¬(0 : ℕ) % 16 = 15; decide)
  | n + 1, hn =>
    if h0 : (n + 1) % 16 = 0 then
      if h1 : (n + 1) % 16 = 15 then False.elim (by omega)
      else ptA4 V c ⟨n + 1, hn⟩ h0 h1
    else
      if h1 : (n + 1) % 16 = 15 then ptC4 V c ⟨n + 1, hn⟩ h0 h1 (outsAt4 c n (Nat.lt_of_succ_lt hn)).2
      else ptB4 V c ⟨n + 1, hn⟩ h0 h1 (outsAt4 c n (Nat.lt_of_succ_lt hn)).2

theorem outsAt4_A (c : Dev nD) (t : Fin cfg4.N) (h0 : t.val % 16 = 0) (h1 : ¬t.val % 16 = 15) :
    outsAt4 V c t.val t.isLt = ptA4 V c t h0 h1 := by
  obtain ⟨n, hn⟩ := t
  cases n with
  | zero => exact rfl
  | succ n => exact (dif_pos h0).trans ((dif_neg h1).trans rfl)
theorem outsAt4_B (c : Dev nD) (t : Fin cfg4.N) (h0 : ¬t.val % 16 = 0) (h1 : ¬t.val % 16 = 15) :
    outsAt4 V c t.val t.isLt = ptB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt4_C (c : Dev nD) (t : Fin cfg4.N) (h0 : ¬t.val % 16 = 0) (h1 : t.val % 16 = 15) :
    outsAt4 V c t.val t.isLt = ptC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the entry invariant; afterwards the
    accumulator at what the point before left, the other scoped buffers unopened, the generator register
    at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body at point `t` each input's buffer at its block and the
    output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end

end Cert.Kernel.Frame

end
-- ==== Proof.KR4Body.lean ====
/-
  Region 4 (the output projection): at every grid point the body, called with the windows' staging
  buffers and the accumulator as the invariant holds them, leaves them as the proof data says.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import proofs.«130128_j25795573580066_2_alg».proof.Proof.KRegion4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the position modulo 16 says which case the
    point is in; the invariant hands over the accumulator at what the point before left (at anything before
    the very first point) and takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_A V c t h0 h1]
      unfold ptA4 sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold ptC4 out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold ptB4 sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-- After any point but the first the invariant gives the entry invariant back: what the accumulator holds is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  Phi4_out V c _ (by rw [Fin.val_last]; have : cfg4.N = 128 := N_4; omega)

end

end Cert.Kernel.Frame

end
-- ==== Proof.KAssembly.lean ====
/-
  The whole program: five kernel regions among five stretches of host operations.  The buffer contents at each of
  the ten boundaries, from the launch memory; each region as a segment of the run; and the run itself: every weakly
  fair execution terminates, faults nowhere, and ends with every unscoped buffer at the last boundary's contents —
  in particular every argument as launched, and the result array at what the last region's pipeline leaves.
-/
import proofs.«130128_j25795573580066_2_alg».proof.Proof.Gen.Kernel.Launch
import proofs.«130128_j25795573580066_2_alg».proof.Proof.Gen.Kernel.Skeleton
import proofs.«130128_j25795573580066_2_alg».proof.Proof.Gen.Kernel.Points
import proofs.«130128_j25795573580066_2_alg».proof.Proof.Gen.Kernel.Regions
import proofs.«130128_j25795573580066_2_alg».proof.Proof.KRegion0
import proofs.«130128_j25795573580066_2_alg».proof.Proof.KRegion1
import proofs.«130128_j25795573580066_2_alg».proof.Proof.KRegion2
import proofs.«130128_j25795573580066_2_alg».proof.Proof.KR3Body
import proofs.«130128_j25795573580066_2_alg».proof.Proof.KR4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host operations before region 0 (its entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: every other buffer leaves as it entered (an input window's array by the
    pipeline's own account of inputs, any other buffer because no window stages it). -/
theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b fun w e => h ⟨w, e⟩
/-- The host operations before region 0 write only their own results. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- After the host operations before region 1 (its entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: every other buffer leaves as it entered (an input window's array by the
    pipeline's own account of inputs, any other buffer because no window stages it). -/
theorem W4_keep (c : Dev nD) (b : Ref sig .tc) (hb : b ≠ main_v4) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b fun w e => h ⟨w, e⟩
/-- The host operations before region 1 write only their own results. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- After the host operations before region 2 (its entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: every other buffer leaves as it entered (an input window's array by the
    pipeline's own account of inputs, any other buffer because no window stages it). -/
theorem W6_keep (c : Dev nD) (b : Ref sig .tc) (hb : b ≠ main_v7) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl hb
  · exact W6_of_ne m ρ c b fun w e => h ⟨w, e⟩
/-- The host operations before region 2 write only their own results. -/
theorem W5_keep (c : Dev nD) (b : Ref sig .tc) (hb : b ∉ hostOps2_W) :
    W5 m ρ c (Proc.devRef .tc b) = W4 m ρ c (Proc.devRef .tc b) :=
  StableHlo.after_of_writes_sub hostOps2 _ hostOps2_writes hb

/-- After the host operations before region 3 (its entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 changes only its output array: every other buffer leaves as it entered (an input window's array by the
    pipeline's own account of inputs, any other buffer because no window stages it). -/
theorem W8_keep (c : Dev nD) (b : Ref sig .tc) (hb : b ≠ main_v9) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl hb
  · exact W8_of_ne m ρ c b fun w e => h ⟨w, e⟩
/-- The host operations before region 3 write only their own results. -/
theorem W7_keep (c : Dev nD) (b : Ref sig .tc) (hb : b ∉ hostOps3_W) :
    W7 m ρ c (Proc.devRef .tc b) = W6 m ρ c (Proc.devRef .tc b) :=
  StableHlo.after_of_writes_sub hostOps3 _ hostOps3_writes hb

/-- After the host operations before region 4 (its entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 changes only its output array: every other buffer leaves as it entered (an input window's array by the
    pipeline's own account of inputs, any other buffer because no window stages it). -/
theorem W10_keep (c : Dev nD) (b : Ref sig .tc) (hb : b ≠ main_v12) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact absurd rfl hb
  · exact W10_of_ne m ρ c b fun w e => h ⟨w, e⟩
/-- The host operations before region 4 write only their own results. -/
theorem W9_keep (c : Dev nD) (b : Ref sig .tc) (hb : b ∉ hostOps4_W) :
    W9 m ρ c (Proc.devRef .tc b) = W8 m ρ c (Proc.devRef .tc b) :=
  StableHlo.after_of_writes_sub hostOps4 _ hostOps4_writes hb

/-- A buffer that no host operation and no region writes ends as launched. -/
theorem W10_keep_all (c : Dev nD) (b : Ref sig .tc) (hb : b ∉ ([main_v0, main_v1, main_v2, main_v3, main_v4, main_v5, main_v6, main_v7, main_v8, main_v9, main_v10, main_v11, main_v12] : List (Ref sig .tc))) :
    W10 m ρ c (Proc.devRef .tc b) = m ((c : Thread nD τ).loc b) :=
  (W10_keep m ρ c b (fun e => hb (by subst e; decide))).trans <|
    (W9_keep m ρ c b (fun hm => hb ((by decide : (hostOps4_W : List (Ref sig .tc)) ⊆ ([main_v0, main_v1, main_v2, main_v3, main_v4, main_v5, main_v6, main_v7, main_v8, main_v9, main_v10, main_v11, main_v12] : List (Ref sig .tc))) hm))).trans <|
    (W8_keep m ρ c b (fun e => hb (by subst e; decide))).trans <|
    (W7_keep m ρ c b (fun hm => hb ((by decide : (hostOps3_W : List (Ref sig .tc)) ⊆ ([main_v0, main_v1, main_v2, main_v3, main_v4, main_v5, main_v6, main_v7, main_v8, main_v9, main_v10, main_v11, main_v12] : List (Ref sig .tc))) hm))).trans <|
    (W6_keep m ρ c b (fun e => hb (by subst e; decide))).trans <|
    (W5_keep m ρ c b (fun hm => hb ((by decide : (hostOps2_W : List (Ref sig .tc)) ⊆ ([main_v0, main_v1, main_v2, main_v3, main_v4, main_v5, main_v6, main_v7, main_v8, main_v9, main_v10, main_v11, main_v12] : List (Ref sig .tc))) hm))).trans <|
    (W4_keep m ρ c b (fun e => hb (by subst e; decide))).trans <|
    (W3_keep m ρ c b (fun hm => hb ((by decide : (hostOps1_W : List (Ref sig .tc)) ⊆ ([main_v0, main_v1, main_v2, main_v3, main_v4, main_v5, main_v6, main_v7, main_v8, main_v9, main_v10, main_v11, main_v12] : List (Ref sig .tc))) hm))).trans <|
    (W2_keep m ρ c b (fun e => hb (by subst e; decide))).trans <|
    (W1_keep m ρ c b (fun hm => hb ((by decide : (hostOps0_W : List (Ref sig .tc)) ⊆ ([main_v0, main_v1, main_v2, main_v3, main_v4, main_v5, main_v6, main_v7, main_v8, main_v9, main_v10, main_v11, main_v12] : List (Ref sig .tc))) hm))).trans rfl

/-- The result array ends at what the last region's pipeline leaves in it. -/
theorem W10_result (c : Dev nD) : W10 m ρ c (Proc.devRef .tc main_v12) = (dat4 (V9 m ρ) c).arrAt 3 cfg4.N :=
  W10_arr m ρ c 3

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

/-- Region 3's invariant after its last point gives back the generator register and the scoped buffers. -/
theorem hexitInv3 (V : (c : Dev nD) → (b : Ref sig .tc) → Buf (Elt F) ((c : Thread nD τ).loc b)) (c : Dev nD) :
    (dat3 V c).Φ (Fin.last cfg3.N) ⊢
      (iprop((∃ r, prngReg c r) ∗ BI.emp ∗ Pipeline.scopedRest (Ix := Unit) (Name := ℕ) (U := UR sig nD τ) (Lvl := ℕ) (Val := Elt F) spec3 c) : sProp 𝕄) :=
  (hout3 V c).trans (by
    unfold Pipeline.ΦA
    iintro ⟨Hr, Hp⟩
    isplitl [Hp]; · iexact Hp
    isplitr; · iempintro
    iexact Hr)

/-- Region 4's invariant after its last point gives back the generator register and the scoped buffers. -/
theorem hexitInv4 (V : (c : Dev nD) → (b : Ref sig .tc) → Buf (Elt F) ((c : Thread nD τ).loc b)) (c : Dev nD) :
    (dat4 V c).Φ (Fin.last cfg4.N) ⊢
      (iprop((∃ r, prngReg c r) ∗ BI.emp ∗ Pipeline.scopedRest (Ix := Unit) (Name := ℕ) (U := UR sig nD τ) (Lvl := ℕ) (Val := Elt F) spec4 c) : sProp 𝕄) :=
  (hout4 V c).trans (by
    unfold Pipeline.ΦA
    iintro ⟨Hr, Hp⟩
    isplitl [Hp]; · iexact Hp
    isplitr; · iempintro
    iexact Hr)

set_option backward.isDefEq.respectTransparency.types false in
/-- REGION 0 over the thread state: entered from every unscoped buffer at the contents before it, left at the contents
    after it; its arrays split out of the unscoped buffers and put back at their exit contents; the generator register
    into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it; its arrays split out of the unscoped buffers and put back at their exit contents; the generator register
    into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left at the contents
    after it; its arrays split out of the unscoped buffers and put back at their exit contents; the generator register
    into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents before it, left at the contents
    after it; its arrays split out of the unscoped buffers and put back at their exit contents; the generator register
    into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hexitInv3 (V7 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents before it, left at the contents
    after it; its arrays split out of the unscoped buffers and put back at their exit contents; the generator register
    into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    exact hexitInv4 (V9 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W10_keep_all m ρ c main_arg0 (by decide)),
    (h c _ (mem_uc main_arg1 (by decide))).trans (W10_keep_all m ρ c main_arg1 (by decide)),
    (h c _ (mem_uc main_arg2 (by decide))).trans (W10_keep_all m ρ c main_arg2 (by decide)),
    (h c _ (mem_uc main_arg3 (by decide))).trans (W10_keep_all m ρ c main_arg3 (by decide)),
    (h c _ (mem_uc main_arg4 (by decide))).trans (W10_keep_all m ρ c main_arg4 (by decide)),
    (h c _ (mem_uc main_arg5 (by decide))).trans (W10_keep_all m ρ c main_arg5 (by decide)),
    (h c _ (mem_uc main_arg6 (by decide))).trans (W10_keep_all m ρ c main_arg6 (by decide)),
    (h c _ (mem_uc main_arg7 (by decide))).trans (W10_keep_all m ρ c main_arg7 (by decide)),
    (h c _ (mem_uc main_arg8 (by decide))).trans (W10_keep_all m ρ c main_arg8 (by decide)),
    (h c _ (mem_uc main_arg9 (by decide))).trans (W10_keep_all m ρ c main_arg9 (by decide)),
    (h c _ (mem_uc main_arg10 (by decide))).trans (W10_keep_all m ρ c main_arg10 (by decide))⟩) (run_all m ρ)

end Cert.Kernel.Frame

end
-- ==== Proof.Body0.lean ====
/-
  Region 0 (the query projection): what one grid point's body does to its staging buffers.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 0: one grid point's body

The body loads a 512-row slab of the activations, the whole weight matrix and the bias row, and stores
one value: the slab times the transposed weights plus the bias, split into 16 heads of 64 columns and
laid out head-major. -/

/-- The rectangles the body touches: each is its buffer whole. -/
abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rO0 : Rect S1x16x512x64 := Rect.unit (s := S1x16x512x64) ![0, 0, 0, 0] S1x16x512x64.size inb_S1x16x512x64_S1x16x512x64_0_0_0_0

/-- What the body leaves in the output block, from the three input blocks: its one store. -/
def out0_3 (x0 : Vec F S1x512x1024 .f32) (x1 : Vec F S1024x1024 .f32) (x2 : Vec F S1x1024 .f32) : Vec F S1x16x512x64 .f32 :=
  View.canon [⟨rO0, k0_pay1 (View.ld x0 rX0) (View.ld x1 rW0) (View.ld x2 rB0)⟩]

/-- The one store covers the whole output block. -/
theorem cover0_3 (p0 : Vec F S1x16x512x64 .f32) (y : S1x16x512x64.Idx) :
    ∃ pc ∈ ([⟨rO0, p0⟩] : List (View.Piece (Elt F) S1x16x512x64 .f32)), y ∈ pc.1.set :=
  View.cover_of_tiled [⟨rO0, p0⟩] S1x16x512x64.size (by rfl) y

set_option maxHeartbeats 1000000 in
/-- The body on whole staging buffers, the inputs at given contents and the output at anything, runs to a
    state with the inputs unchanged and the output block at `out0_3` of them. -/
theorem sound_kernel0 (c : Dev nD) (E : Set ℕ) (i : grid0.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Frame

end
-- ==== Proof.Region0.lean ====
/-
  Region 0 (the query projection): the pipeline's proof data at the buffer contents the region is entered with,
  and the body obligation at every grid point.
-/
import proofs.«130128_j25795573580066_2_alg».proof.Proof.Body0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's slab at every point: the slab is fetched at every point,
    the window is uncut and never idle, and the body leaves the slab in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point. It is fetched at the first point
    only; at a later point the block index has not moved (the index map is constant), the body left the block in
    place, and the buffer still holds what the first point fetched. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the whole bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core `c`: the arrays as the region finds them; after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.Region1.lean ====
/-
  Region 1 (the key projection): one grid point's body, the pipeline's proof data at the buffer contents the region is entered with,
  and the body obligation at every grid point.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 1: one grid point's body

The body loads a 512-row slab of the activations, the whole weight matrix and the bias row, and stores
one value: the slab times the transposed weights plus the bias, split into 16 heads of 64 columns and
laid out head-major. -/

/-- The rectangles the body touches: each is its buffer whole. -/
abbrev rX1 : Rect S1x512x1024 := Rect.unit (s := S1x512x1024) ![0, 0, 0] S1x512x1024.size inb_S1x512x1024_S1x512x1024_0_0_0
abbrev rW1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0
abbrev rO1 : Rect S1x16x512x64 := Rect.unit (s := S1x16x512x64) ![0, 0, 0, 0] S1x16x512x64.size inb_S1x16x512x64_S1x16x512x64_0_0_0_0

/-- What the body leaves in the output block, from the three input blocks: its one store. -/
def out1_3 (x0 : Vec F S1x512x1024 .f32) (x1 : Vec F S1024x1024 .f32) (x2 : Vec F S1x1024 .f32) : Vec F S1x16x512x64 .f32 :=
  View.canon [⟨rO1, k1_pay1 (View.ld x0 rX1) (View.ld x1 rW1) (View.ld x2 rB1)⟩]

/-- The one store covers the whole output block. -/
theorem cover1_3 (p0 : Vec F S1x16x512x64 .f32) (y : S1x16x512x64.Idx) :
    ∃ pc ∈ ([⟨rO1, p0⟩] : List (View.Piece (Elt F) S1x16x512x64 .f32)), y ∈ pc.1.set :=
  View.cover_of_tiled [⟨rO1, p0⟩] S1x16x512x64.size (by rfl) y

set_option maxHeartbeats 1000000 in
/-- The body on whole staging buffers, the inputs at given contents and the output at anything, runs to a
    state with the inputs unchanged and the output block at `out1_3` of them. -/
theorem sound_kernel1 (c : Dev nD) (E : Set ℕ) (i : grid1.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

section Region1

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's slab at every point: the slab is fetched at every point,
    the window is uncut and never idle, and the body leaves the slab in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point. It is fetched at the first point
    only; at a later point the block index has not moved (the index map is constant), the body left the block in
    place, and the buffer still holds what the first point fetched. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the whole bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the region on core `c`: the arrays as the region finds them; after the body at point `t`
    each input's buffer at its block and the output's at `out1_3` of the three input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.Region2.lean ====
/-
  Region 2 (the value projection): one grid point's body, the pipeline's proof data at the buffer contents the region is entered with,
  and the body obligation at every grid point.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The projection kernel of region 2: one grid point's body

The body loads a 512-row slab of the activations, the whole weight matrix and the bias row, and stores
one value: the slab times the transposed weights plus the bias, split into 16 heads of 64 columns and
laid out head-major. -/

/-- The rectangles the body touches: each is its buffer whole. -/
abbrev rX2 : Rect S1x512x1024 := Rect.unit (s := S1x512x1024) ![0, 0, 0] S1x512x1024.size inb_S1x512x1024_S1x512x1024_0_0_0
abbrev rW2 : Rect S1024x1024 := Rect.unit (s := S1024x1024) ![0, 0] S1024x1024.size inb_S1024x1024_S1024x1024_0_0
abbrev rB2 : Rect S1x1024 := Rect.unit (s := S1x1024) ![0, 0] S1x1024.size inb_S1x1024_S1x1024_0_0
abbrev rO2 : Rect S1x16x512x64 := Rect.unit (s := S1x16x512x64) ![0, 0, 0, 0] S1x16x512x64.size inb_S1x16x512x64_S1x16x512x64_0_0_0_0

/-- What the body leaves in the output block, from the three input blocks: its one store. -/
def out2_3 (x0 : Vec F S1x512x1024 .f32) (x1 : Vec F S1024x1024 .f32) (x2 : Vec F S1x1024 .f32) : Vec F S1x16x512x64 .f32 :=
  View.canon [⟨rO2, k2_pay1 (View.ld x0 rX2) (View.ld x1 rW2) (View.ld x2 rB2)⟩]

/-- The one store covers the whole output block. -/
theorem cover2_3 (p0 : Vec F S1x16x512x64 .f32) (y : S1x16x512x64.Idx) :
    ∃ pc ∈ ([⟨rO2, p0⟩] : List (View.Piece (Elt F) S1x16x512x64 .f32)), y ∈ pc.1.set :=
  View.cover_of_tiled [⟨rO2, p0⟩] S1x16x512x64.size (by rfl) y

set_option maxHeartbeats 1000000 in
/-- The body on whole staging buffers, the inputs at given contents and the output at anything, runs to a
    state with the inputs unchanged and the output block at `out2_3` of them. -/
theorem sound_kernel2 (c : Dev nD) (E : Set ℕ) (i : grid2.Coords)
    (arg2 : Memref sig .tc .vmem S1x512x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x16x512x64 .f32) (harg5 : arg5.IsWhole)
    (x0 : Vec F S1x512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2_kernel i arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

section Region2

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's slab at every point: the slab is fetched at every point,
    the window is uncut and never idle, and the body leaves the slab in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point. It is fetched at the first point
    only; at a later point the block index has not moved (the index map is constant), the body left the block in
    place, and the buffer still holds what the first point fetched. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer holds the whole bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the region on core `c`: the arrays as the region finds them; after the body at point `t`
    each input's buffer at its block and the output's at `out2_3` of the three input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frame

end
-- ==== Proof.R3Runs.lean ====
/-
  Region 3 (attention with a running softmax over four blocks of 512 keys): the three shapes one grid
  point's body can take, each run on whole staging buffers.  The grid is (batch·head pair, query block,
  key block); the key block is the innermost coordinate.  Three buffers are carried from one key block to
  the next: the running row maximum, the running row sum and the running weighted sum of value rows.  At
  key block 0 the body first resets them (−∞, 0, 0); at every key block it rescales and updates them; at
  key block 3 it also stores the weighted sum divided by the row sum.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which shape a point has -/

/-- The body's first conditional: the key-block coordinate is 0. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- The body's second conditional: the key-block coordinate is 3. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## The three runs -/

set_option maxHeartbeats 2000000 in
/-- KEY BLOCK 0: the three carried buffers, found at anything, are reset and then updated with the block;
    the output block is not touched and is handed back as found. -/
noncomputable def kernelRun3_A (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨[], ?_, ?_, ?_, fun xi3 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 2000000 in
/-- KEY BLOCKS 1 AND 2: the carried buffers, found at what the block before left, are rescaled and updated;
    the output block is handed back as found. -/
noncomputable def kernelRun3_B (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨[], ?_, ?_, ?_, fun xi3 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 2000000 in
/-- KEY BLOCK 3: the carried buffers are updated a last time, and the output block, found at anything, is
    stored with the weighted sum over the row sum. -/
noncomputable def kernelRun3_C (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32)
    (xs0 : Vec F S1024x1 .f32) (xs1 : Vec F S1024x1 .f32) (xs2 : Vec F S1024x64 .f32) :
    Σ' (L3 : List (View.Piece (Elt F) S1x1024x64 .f32)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3_kernel i arg3 harg3 arg4 harg4 arg5 harg5 arg6 harg6 arg7 harg7 arg8 harg8 arg9 harg9) K } := by
  refine ⟨?_, ?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Frame

end
-- ==== Proof.Region3.lean ====
/-
  Region 3 (attention with a running softmax): what the output block and the three carried buffers hold
  after every grid point, the invariant that carries them from one key block to the next, and the
  pipeline's proof data.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import proofs.«130128_j25795573580066_2_alg».proof.Proof.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Before key block 3 the output block is idle: the body stores nothing into it, -/
theorem idleAt3_3 : ∀ t : Fin cfg3.N, ¬cond3_1 (grid3.coords t) → cfg3.idle 3 (grid3.coords t) = true := by decide +kernel
/-- and the pipeline does not write it back; -/
theorem noFlush3_3 : ∀ t : Fin cfg3.N, ¬cond3_1 (grid3.coords t) → (cfg3.win 3).flush t = false := by decide +kernel
/-- at key block 3 it is live. -/
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1x1024x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x64 .f32 := win3_3.stage (cfg3.slots t 3)
abbrev hs3_3 (t : Fin cfg3.N) : (ms3_3 t).IsWhole := hstage3_3 ((cfg3.slots t 3).cast nbuf3_3)
/-- The carried buffers: whole scoped buffers of the kernel's own (running maximum, running sum, running weighted sum). -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x64 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x64 .f32 := scM3_2.view
abbrev VO3_3 : View sig .tc .vmem S1x1024x64 .f32 := (Memref.whole cc3_stg3_0 : Memref sig .tc .vmem S1x1024x64 .f32).view

/-- The region's entry invariant with the three carried buffers split out of the scoped buffers, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end

/-! ## What each case leaves -/

/-- What case A leaves in the output block (nothing: a placeholder nothing consults). -/
def out3_A_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1x1024x64 .f32 :=
  VO3_3.read (Elt F) (VO3_3.writes (Elt F) VO3_3.junk (kernelRun3_A c i arg3 harg3 arg4 harg4 arg5 harg5 arg6 harg6 arg7 harg7 arg8 harg8 arg9 harg9 hc0 hc1 x0 x1 x2).1)
theorem scover3_A_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x1.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S1024x1.size (by sl_kernel_rfl) y
/-- What case A leaves in the running maximum. -/
def sout3_A_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).2.1)
theorem scover3_A_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x1.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S1024x1.size (by sl_kernel_rfl) y
/-- What case A leaves in the running sum. -/
def sout3_A_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.2.1)
theorem scover3_A_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) (y : S1024x64.Idx) :
    ∃ pc ∈ (kernelRun3_A c i arg3 harg3 arg4 harg4 arg5 harg5 arg6 harg6 arg7 harg7 arg8 harg8 arg9 harg9 hc0 hc1 x0 x1 x2).2.2.2.1, y ∈ pc.1.set :=
  View.cover_of_tiledL (kernelRun3_A c i arg3 harg3 arg4 harg4 arg5 harg5 arg6 harg6 arg7 harg7 arg8 harg8 arg9 harg9 hc0 hc1 x0 x1 x2).2.2.2.1 S1024x64.size (by sl_kernel_rfl) y
/-- What case A leaves in the running weighted sum. -/
def sout3_A_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i)
    (x0 : Vec F S1x1024x64 .f32) (x1 : Vec F S1x512x64 .f32) (x2 : Vec F S1x512x64 .f32) : Vec F S1024x64 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.2.1)

/-- What case B leaves in the output block (nothing: a placeholder nothing consults). -/
def out3_B_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1x1024x64 .f32 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)
theorem scover3_B_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in the running maximum. -/
def sout3_B_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)
theorem scover3_B_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in the running sum. -/
def sout3_B_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)
theorem scover3_B_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x64.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S1024x64.size (by sl_kernel_rfl) y
/-- What case B leaves in the running weighted sum. -/
def sout3_B_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x64 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

/-- Key block 3's one store into the output block covers it. -/
theorem cover3_C_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1x1024x64.Idx) :
    ∃ pc ∈ (kernelRun3_C c i arg3 harg3 arg4 harg4 arg5 harg5 arg6 harg6 arg7 harg7 arg8 harg8 arg9 harg9 hc0 hc1 x0 x1 x2 xs0 xs1 xs2).1, y ∈ pc.1.set :=
  View.cover_of_tiledL (kernelRun3_C c i arg3 harg3 arg4 harg4 arg5 harg5 arg6 harg6 arg7 harg7 arg8 harg8 arg9 harg9 hc0 hc1 x0 x1 x2 xs0 xs1 xs2).1 S1x1024x64.size (by sl_kernel_rfl) y

/-- What case C leaves in the output block. -/
def out3_C_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1x1024x64 .f32 :=
  VO3_3.read (Elt F) (VO3_3.writes (Elt F) VO3_3.junk (kernelRun3_C c i arg3 harg3 arg4 harg4 arg5 harg5 arg6 harg6 arg7 harg7 arg8 harg8 arg9 harg9 hc0 hc1 x0 x1 x2 xs0 xs1 xs2).1)
theorem scover3_C_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.1 S1024x1.size (by sl_kernel_rfl) y
/-- What case C leaves in the running maximum. -/
def sout3_C_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_0.read (Elt F) (VS3_0.writes (Elt F) VS3_0.junk (kernelRun3_C c i arg3 harg3 arg4 harg4 arg5 harg5 arg6 harg6 arg7 harg7 arg8 harg8 arg9 harg9 hc0 hc1 x0 x1 x2 xs0 xs1 xs2).2.1)
theorem scover3_C_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x1.Idx) :
    ∃ pc ∈ (kernelRun3_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.2.1 S1024x1.size (by sl_kernel_rfl) y
/-- What case C leaves in the running sum. -/
def sout3_C_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x1 .f32 :=
  VS3_1.read (Elt F) (VS3_1.writes (Elt F) VS3_1.junk (kernelRun3_C c i arg3 harg3 arg4 harg4 arg5 harg5 arg6 harg6 arg7 harg7 arg8 harg8 arg9 harg9 hc0 hc1 x0 x1 x2 xs0 xs1 xs2).2.2.1)
theorem scover3_C_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) (y : S1024x64.Idx) :
    ∃ pc ∈ (kernelRun3_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_C c i arg3 harg3 arg4 harg4 arg5 harg5 arg6 harg6 arg7 harg7 arg8 harg8 arg9 harg9 hc0 hc1 x0 x1 x2 xs0 xs1 xs2).2.2.2.1 S1024x64.size (by sl_kernel_rfl) y
/-- What case C leaves in the running weighted sum. -/
def sout3_C_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i)
    (x0 : Vec F S1x1024x64 .f32) (x1 : Vec F S1x512x64 .f32) (x2 : Vec F S1x512x64 .f32) (xs0 : Vec F S1024x1 .f32) (xs1 : Vec F S1024x1 .f32) (xs2 : Vec F S1024x64 .f32) : Vec F S1024x64 .f32 :=
  VS3_2.read (Elt F) (VS3_2.writes (Elt F) VS3_2.junk (kernelRun3_C c i arg3 harg3 arg4 harg4 arg5 harg5 arg6 harg6 arg7 harg7 arg8 harg8 arg9 harg9 hc0 hc1 x0 x1 x2 xs0 xs1 xs2).2.2.2.1)

section
variable (V : (c : Dev nD) → (b : Ref sig .tc) → Buf (Elt F) ((c : Thread nD τ).loc b))

/-! ## What the output block and the carried buffers hold after each point -/

/-- A point of key block 0: the tuple (output block, maximum, sum, weighted sum) it leaves. -/
def ptA3 (c : Dev nD) (t : Fin cfg3.N) (h0 : t.val % 4 = 0) (h1 : ¬t.val % 4 = 3) : Vec F S1x1024x64 .f32 × Vec F S1024x1 .f32 × Vec F S1024x1 .f32 × Vec F S1024x64 .f32 :=
  (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t),
   sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t))
/-- A point of key block 1 or 2, over what the point before left in the carried buffers. -/
def ptB3 (c : Dev nD) (t : Fin cfg3.N) (h0 : ¬t.val % 4 = 0) (h1 : ¬t.val % 4 = 3) (xs0 : Vec F S1024x1 .f32) (xs1 : Vec F S1024x1 .f32) (xs2 : Vec F S1024x64 .f32) : Vec F S1x1024x64 .f32 × Vec F S1024x1 .f32 × Vec F S1024x1 .f32 × Vec F S1024x64 .f32 :=
  (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2,
   sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) xs0 xs1 xs2)
/-- A point of key block 3, over what the point before left in the carried buffers. -/
def ptC3 (c : Dev nD) (t : Fin cfg3.N) (h0 : ¬t.val % 4 = 0) (h1 : t.val % 4 = 3) (xs0 : Vec F S1024x1 .f32) (xs1 : Vec F S1024x1 .f32) (xs2 : Vec F S1024x64 .f32) : Vec F S1x1024x64 .f32 × Vec F S1024x1 .f32 × Vec F S1024x1 .f32 × Vec F S1024x64 .f32 :=
  (out3_C_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2,
   sout3_C_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) xs0 xs1 xs2)

/-- THE RECURRENCE: the tuple after the body at position `n`, the carried buffers taken from position `n - 1`
    except at a key block 0, where they start afresh. -/
def outsAt3 (c : Dev nD) : (n : ℕ) → n < cfg3.N → Vec F S1x1024x64 .f32 × Vec F S1024x1 .f32 × Vec F S1024x1 .f32 × Vec F S1024x64 .f32
  | 0, hn => ptA3 V c ⟨0, hn⟩ (Nat.zero_mod _) (by show ¬(0 : ℕ) % 4 = 3; decide)
  | n + 1, hn =>
    if h0 : (n + 1) % 4 = 0 then
      if h1 : (n + 1) % 4 = 3 then False.elim (by omega)
      else ptA3 V c ⟨n + 1, hn⟩ h0 h1
    else
      if h1 : (n + 1) % 4 = 3 then ptC3 V c ⟨n + 1, hn⟩ h0 h1 (outsAt3 c n (Nat.lt_of_succ_lt hn)).2.1 (outsAt3 c n (Nat.lt_of_succ_lt hn)).2.2.1 (outsAt3 c n (Nat.lt_of_succ_lt hn)).2.2.2
      else ptB3 V c ⟨n + 1, hn⟩ h0 h1 (outsAt3 c n (Nat.lt_of_succ_lt hn)).2.1 (outsAt3 c n (Nat.lt_of_succ_lt hn)).2.2.1 (outsAt3 c n (Nat.lt_of_succ_lt hn)).2.2.2

theorem outsAt3_A (c : Dev nD) (t : Fin cfg3.N) (h0 : t.val % 4 = 0) (h1 : ¬t.val % 4 = 3) :
    outsAt3 V c t.val t.isLt = ptA3 V c t h0 h1 := by
  obtain ⟨n, hn⟩ := t
  cases n with
  | zero => exact rfl
  | succ n => exact (dif_pos h0).trans ((dif_neg h1).trans rfl)
theorem outsAt3_B (c : Dev nD) (t : Fin cfg3.N) (h0 : ¬t.val % 4 = 0) (h1 : ¬t.val % 4 = 3) :
    outsAt3 V c t.val t.isLt = ptB3 V c t h0 h1 (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)
theorem outsAt3_C (c : Dev nD) (t : Fin cfg3.N) (h0 : ¬t.val % 4 = 0) (h1 : t.val % 4 = 3) :
    outsAt3 V c t.val t.isLt = ptC3 V c t h0 h1 (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The carried buffers at the contents `o` holds for them, the other scoped buffers unopened, the generator
    register at some state. -/
def carried3 (c : Dev nD) (o : Vec F S1x1024x64 .f32 × Vec F S1024x1 .f32 × Vec F S1024x1 .f32 × Vec F S1024x64 .f32) : sProp 𝕄 :=
  iprop(iprop(iprop(owns (c : Thread nD τ) scM3_0 fullShare o.2.1 ∗ owns (c : Thread nD τ) scM3_1 fullShare o.2.2.1 ∗ owns (c : Thread nD τ) scM3_2 fullShare o.2.2.2) ∗ Pipeline.scopedRestBut (Ix := Unit) (Name := ℕ) (U := UR sig nD τ) (Lvl := ℕ) (Val := Elt F) spec3 c [cc3_scratch0, cc3_scratch1, cc3_scratch2]) ∗ (∃ r, prngReg c r))

/-- The region's invariant before position `n`: before the first point the entry invariant; afterwards the
    carried buffers at what the point before left. -/
def PhiS3 (c : Dev nD) : (n : ℕ) → n ≤ cfg3.N → sProp 𝕄
  | 0, _ => Pipeline.ΦA spec3 c
  | n + 1, hn => carried3 c (outsAt3 V c n hn)

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) : PhiS3 V c (n + 1) hn = carried3 c (outsAt3 V c n hn) := rfl
theorem PhiS3_pos (c : Dev nD) (n : ℕ) (h : n ≤ cfg3.N) (hz : n ≠ 0) :
    PhiS3 V c n h = carried3 c (outsAt3 V c (n - 1) (by omega)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end

end Cert.KernelIdeal.Frame

end
-- ==== Proof.R3Body.lean ====
/-
  Region 3 (attention with a running softmax): at every grid point the body, called with the windows'
  staging buffers and the three carried buffers as the invariant holds them, leaves them as the proof data
  says.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import proofs.«130128_j25795573580066_2_alg».proof.Proof.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the position modulo 4 says which case the
    point is in; the invariant hands over the carried buffers at what the point before left (at anything
    before the very first point) and takes them back at this point's contents; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  unfold carried3
  have hN : t.val < 256 := lt_of_lt_of_eq t.isLt (show cfg3.N = 256 from N_3)
  by_cases h0 : t.val % 4 = 0
  · by_cases h1 : t.val % 4 = 3
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold ptA3 sout3_A_0 sout3_A_1 sout3_A_2; (try dsimp only)
      by_cases hz : t.val = 0
      · rw [PhiS3_castSucc V c t, PhiS3_zero V c _ _ hz, PhiA3_eq]
        iintro ⟨⟨⟨⟨HS0, HS1, HS2⟩, HR⟩, Hg⟩, Ho, ⟨%d0, H0⟩, ⟨%d1, H1⟩, ⟨%d2, H2⟩, ⟨%d3, H3⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]; unfold carried3
        iintro ⟨⟨⟨⟨HS0, HS1, HS2⟩, HR⟩, Hg⟩, Ho, ⟨%d0, H0⟩, ⟨%d1, H1⟩, ⟨%d2, H2⟩, ⟨%d3, H3⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover3_A_0 c _ _ _ _ _ _ _ _ _ _ _ _ _ _ _ _ _ _ _ _)
              isplitl [HS1]
              · unfold owns; iexists _; isplitr
                swap; · iexact HS1
                ipureintro; exact View.read_writes_of_cover _ _ _ _ _ (scover3_A_1 c _ _ _ _ _ _ _ _ _ _ _ _ _ _ _ _ _ _ _ _)
              unfold owns; iexists _; isplitr
              swap; · iexact HS2
              ipureintro; exact View.read_writes_of_cover _ _ _ _ _ (scover3_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold ptC3 out3_C_3 sout3_C_0 sout3_C_1 sout3_C_2; (try dsimp only)
      rw [PhiS3_castSucc V c t, PhiS3_pos V c _ _ hz]; unfold carried3
      iintro ⟨⟨⟨⟨HS0, HS1, HS2⟩, HR⟩, Hg⟩, Ho, ⟨%d0, H0⟩, ⟨%d1, H1⟩, ⟨%d2, H2⟩, ⟨%d3, H3⟩⟩
      iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _)
            unfold owns; iexists _; isplitr
            swap; · iexact HS2
            ipureintro; exact View.read_writes_of_cover _ _ _ _ _ (scover3_C_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold ptB3 sout3_B_0 sout3_B_1 sout3_B_2; (try dsimp only)
      rw [PhiS3_castSucc V c t, PhiS3_pos V c _ _ hz]; unfold carried3
      iintro ⟨⟨⟨⟨HS0, HS1, HS2⟩, HR⟩, Hg⟩, Ho, ⟨%d0, H0⟩, ⟨%d1, H1⟩, ⟨%d2, H2⟩, ⟨%d3, H3⟩⟩
      iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _)
            unfold owns; iexists _; isplitr
            swap; · iexact HS2
            ipureintro; exact View.read_writes_of_cover _ _ _ _ _ (scover3_B_2 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point but the first the invariant gives the entry invariant back: what the carried buffers hold is forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold carried3
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  Phi3_out V c _ (by rw [Fin.val_last]; have : cfg3.N = 256 := N_3; omega)

end

end Cert.KernelIdeal.Frame

end
-- ==== Proof.R4Runs.lean ====
/-
  Region 4 (the output projection, accumulated over the 16 heads): the three shapes one grid point's
  body can take, each run on whole staging buffers.  The grid is (batch, row block, head); the head is
  the innermost coordinate.  At head 0 the body first zeroes its accumulator; at every head it adds the
  head's 512×64 slab times the matching 64 rows of the transposed output weights; at head 15 it also
  adds the bias row and stores the block.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which shape a point has -/

/-- The body's first conditional: the head coordinate is 0. -/
abbrev cond4_0 (i : grid4.Coords) : Prop := (Scalar.cmpi .ne (Scalar.extui (Scalar.cmpi .eq (BitVec.ofNat 32 (i 2).val) 0#32)) 0#32) = 1#1
/-- It holds exactly at the points whose position is a multiple of 16. -/
theorem hcond4_0 : ∀ t : Fin cfg4.N, cond4_0 (grid4.coords t) ↔ t.val % 16 = 0 :=
  (by decide +kernel : ∀ t : Fin grid4.N, cond4_0 (grid4.coords t) ↔ t.val % 16 = 0)
/-- The body's second conditional: the head coordinate is 15. -/
abbrev cond4_1 (i : grid4.Coords) : Prop := k4_cond2 i = 1#1
/-- It holds exactly at the points whose position is 15 modulo 16. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## The three runs -/

set_option maxHeartbeats 1000000 in
/-- HEAD 0: the accumulator, found at anything, is zeroed and then receives the head's product; the
    output block is not touched and is handed back as found. -/
noncomputable def kernelRun4_A (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨[], ?_, fun xi3 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- HEADS 1 … 14: the accumulator, found at what the head before left, receives the head's product; the
    output block is handed back as found. -/
noncomputable def kernelRun4_B (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨[], ?_, fun xi3 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- HEAD 15: the accumulator receives the last head's product, and the output block, found at anything,
    is stored with the accumulator plus the bias row. -/
noncomputable def kernelRun4_C (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.Region4.lean ====
/-
  Region 4 (the output projection, accumulated over the 16 heads): what the output block and the
  accumulator hold after every grid point, the invariant that carries the accumulator from one point
  to the next, and the body's obligation at every point.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import proofs.«130128_j25795573580066_2_alg».proof.Proof.R4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter, fixed when the regions are put together
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle -/

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
/-- Before head 15 the output block is idle: the body stores nothing into it, -/
theorem idleAt4_3 : ∀ t : Fin cfg4.N, ¬cond4_1 (grid4.coords t) → cfg4.idle 3 (grid4.coords t) = true := by decide +kernel
/-- and the pipeline does not write it back; -/
theorem noFlush4_3 : ∀ t : Fin cfg4.N, ¬cond4_1 (grid4.coords t) → (cfg4.win 3).flush t = false := by decide +kernel
/-- at head 15 it is live. -/
theorem liveAt4_3 : ∀ t : Fin cfg4.N, cond4_1 (grid4.coords t) → cfg4.idle 3 (grid4.coords t) = false := by decide +kernel

/-! ## The memrefs the body is called with -/

abbrev ms4_0 (t : Fin cfg4.N) : Memref sig .tc .vmem S1x512x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x512x1024 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S512x1024 .f32 := Memref.whole cc4_scratch0
abbrev VS4_0 : View sig .tc .vmem S512x1024 .f32 := scM4_0.view
/-- One staging buffer of the output window, through which its contents are stated. -/
abbrev VO4_3 : View sig .tc .vmem S1x512x1024 .f32 := (Memref.whole cc4_stg3_0 : Memref sig .tc .vmem S1x512x1024 .f32).view

/-- The region's entry invariant with the accumulator split out of the scoped buffers, at some contents. -/
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end

/-! ## What each case leaves -/

/-- Head 0 stores nothing into the output block: a placeholder nothing consults. -/
def out4_A_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) : Vec F S1x512x1024 .f32 :=
  VO4_3.read (Elt F) (VO4_3.writes (Elt F) VO4_3.junk (kernelRun4_A c i arg3 harg3 arg4 harg4 arg5 harg5 arg6 harg6 arg7 harg7 hc0 hc1 x0 x1 x2).1)
/-- Head 0's stores into the accumulator cover it. -/
theorem scover4_A_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) (y : S512x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S512x1024.size (by sl_kernel_rfl) y
/-- What head 0 leaves in the accumulator. -/
def sout4_A_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) : Vec F S512x1024 .f32 :=
  VS4_0.read (Elt F) (VS4_0.writes (Elt F) VS4_0.junk (kernelRun4_A c i arg3 harg3 arg4 harg4 arg5 harg5 arg6 harg6 arg7 harg7 hc0 hc1 x0 x1 x2).2.1)

/-- Heads 1 … 14 store nothing into the output block either. -/
def out4_B_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) : Vec F S1x512x1024 .f32 :=
  VO4_3.read (Elt F) (VO4_3.writes (Elt F) VO4_3.junk (kernelRun4_B c i arg3 harg3 arg4 harg4 arg5 harg5 arg6 harg6 arg7 harg7 hc0 hc1 x0 x1 x2 xs0).1)
theorem scover4_B_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) (y : S512x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S512x1024.size (by sl_kernel_rfl) y
/-- What a middle head leaves in the accumulator, from what the head before left. -/
def sout4_B_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) : Vec F S512x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- Head 15's one store into the output block covers it. -/
theorem cover4_C_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) (y : S1x512x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1x512x1024.size (by sl_kernel_rfl) y
/-- What head 15 leaves in the output block. -/
def out4_C_3 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) : Vec F S1x512x1024 .f32 :=
  VO4_3.read (Elt F) (VO4_3.writes (Elt F) VO4_3.junk (kernelRun4_C c i arg3 harg3 arg4 harg4 arg5 harg5 arg6 harg6 arg7 harg7 hc0 hc1 x0 x1 x2 xs0).1)
theorem scover4_C_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) (y : S512x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S512x1024.size (by sl_kernel_rfl) y
/-- What head 15 leaves in the accumulator. -/
def sout4_C_0 (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) : Vec F S512x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-! ## What the output block and the accumulator hold after each point -/

/-- A point of head 0: the pair (output block, accumulator) it leaves. -/
def ptA4 (c : Dev nD) (t : Fin cfg4.N) (h0 : t.val % 16 = 0) (h1 : ¬t.val % 16 = 15) : Vec F S1x512x1024 .f32 × Vec F S512x1024 .f32 :=
  (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t),
   sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t))
/-- A point of a middle head, over the accumulator `xs` the point before left. -/
def ptB4 (c : Dev nD) (t : Fin cfg4.N) (h0 : ¬t.val % 16 = 0) (h1 : ¬t.val % 16 = 15) (xs : Vec F S512x1024 .f32) : Vec F S1x512x1024 .f32 × Vec F S512x1024 .f32 :=
  (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) xs,
   sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) xs)
/-- A point of head 15, over the accumulator `xs` the point before left. -/
def ptC4 (c : Dev nD) (t : Fin cfg4.N) (h0 : ¬t.val % 16 = 0) (h1 : t.val % 16 = 15) (xs : Vec F S512x1024 .f32) : Vec F S1x512x1024 .f32 × Vec F S512x1024 .f32 :=
  (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) xs,
   sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) xs)

/-- THE ACCUMULATION: the pair (output block, accumulator) after the body at position `n`, the accumulator
    carried from position `n - 1` except at a head 0, where it starts afresh. -/
def outsAt4 (c : Dev nD) : (n : ℕ) → n < cfg4.N → Vec F S1x512x1024 .f32 × Vec F S512x1024 .f32
  | 0, hn => ptA4 V c ⟨0, hn⟩ (Nat.zero_mod _) (by show ¬(0 : ℕ) % 16 = 15; decide)
  | n + 1, hn =>
    if h0 : (n + 1) % 16 = 0 then
      if h1 : (n + 1) % 16 = 15 then False.elim (by omega)
      else ptA4 V c ⟨n + 1, hn⟩ h0 h1
    else
      if h1 : (n + 1) % 16 = 15 then ptC4 V c ⟨n + 1, hn⟩ h0 h1 (outsAt4 c n (Nat.lt_of_succ_lt hn)).2
      else ptB4 V c ⟨n + 1, hn⟩ h0 h1 (outsAt4 c n (Nat.lt_of_succ_lt hn)).2

theorem outsAt4_A (c : Dev nD) (t : Fin cfg4.N) (h0 : t.val % 16 = 0) (h1 : ¬t.val % 16 = 15) :
    outsAt4 V c t.val t.isLt = ptA4 V c t h0 h1 := by
  obtain ⟨n, hn⟩ := t
  cases n with
  | zero => exact rfl
  | succ n => exact (dif_pos h0).trans ((dif_neg h1).trans rfl)
theorem outsAt4_B (c : Dev nD) (t : Fin cfg4.N) (h0 : ¬t.val % 16 = 0) (h1 : ¬t.val % 16 = 15) :
    outsAt4 V c t.val t.isLt = ptB4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt4_C (c : Dev nD) (t : Fin cfg4.N) (h0 : ¬t.val % 16 = 0) (h1 : t.val % 16 = 15) :
    outsAt4 V c t.val t.isLt = ptC4 V c t h0 h1 (outsAt4 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point the entry invariant; afterwards the
    accumulator at what the point before left, the other scoped buffers unopened, the generator register
    at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body at point `t` each input's buffer at its block and the
    output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

end

end Cert.KernelIdeal.Frame

end
-- ==== Proof.R4Body.lean ====
/-
  Region 4 (the output projection): at every grid point the body, called with the windows' staging
  buffers and the accumulator as the invariant holds them, leaves them as the proof data says.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import proofs.«130128_j25795573580066_2_alg».proof.Proof.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the position modulo 16 says which case the
    point is in; the invariant hands over the accumulator at what the point before left (at anything before
    the very first point) and takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 16 = 0
  · by_cases h1 : t.val % 16 = 15
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_A V c t h0 h1]
      unfold ptA4 sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 16 = 15
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold ptC4 out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [Dat.leavesExact_idle (dat4 V c) 3 t (idleAt4_3 t (fun h => h1 ((hcond4_1 t).mp h))) (noFlush4_3 t (fun h => h1 ((hcond4_1 t).mp h)))]
      rw [outsAt4_B V c t h0 h1]
      unfold ptB4 sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-- After any point but the first the invariant gives the entry invariant back: what the accumulator holds is forgotten. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c :=
  Phi4_out V c _ (by rw [Fin.val_last]; have : cfg4.N = 128 := N_4; omega)

end

end Cert.KernelIdeal.Frame

end
-- ==== Proof.Assembly.lean ====
/-
  The whole program: five kernel regions among five stretches of host operations.  The buffer contents at each of
  the ten boundaries, from the launch memory; each region as a segment of the run; and the run itself: every weakly
  fair execution terminates, faults nowhere, and ends with every unscoped buffer at the last boundary's contents —
  in particular every argument as launched, and the result array at what the last region's pipeline leaves.
-/
import proofs.«130128_j25795573580066_2_alg».proof.Proof.Gen.KernelIdeal.Launch
import proofs.«130128_j25795573580066_2_alg».proof.Proof.Gen.KernelIdeal.Skeleton
import proofs.«130128_j25795573580066_2_alg».proof.Proof.Gen.KernelIdeal.Points
import proofs.«130128_j25795573580066_2_alg».proof.Proof.Gen.KernelIdeal.Regions
import proofs.«130128_j25795573580066_2_alg».proof.Proof.Region0
import proofs.«130128_j25795573580066_2_alg».proof.Proof.Region1
import proofs.«130128_j25795573580066_2_alg».proof.Proof.Region2
import proofs.«130128_j25795573580066_2_alg».proof.Proof.R3Body
import proofs.«130128_j25795573580066_2_alg».proof.Proof.R4Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host operations before region 0 (its entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: every other buffer leaves as it entered (an input window's array by the
    pipeline's own account of inputs, any other buffer because no window stages it). -/
theorem W2_keep (c : Dev nD) (b : Ref sig .tc) (hb : b ≠ main_v1) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b fun w e => h ⟨w, e⟩
/-- The host operations before region 0 write only their own results. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- After the host operations before region 1 (its entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: every other buffer leaves as it entered (an input window's array by the
    pipeline's own account of inputs, any other buffer because no window stages it). -/
theorem W4_keep (c : Dev nD) (b : Ref sig .tc) (hb : b ≠ main_v4) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb
  · exact W4_of_ne m ρ c b fun w e => h ⟨w, e⟩
/-- The host operations before region 1 write only their own results. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- After the host operations before region 2 (its entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: every other buffer leaves as it entered (an input window's array by the
    pipeline's own account of inputs, any other buffer because no window stages it). -/
theorem W6_keep (c : Dev nD) (b : Ref sig .tc) (hb : b ≠ main_v7) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl hb
  · exact W6_of_ne m ρ c b fun w e => h ⟨w, e⟩
/-- The host operations before region 2 write only their own results. -/
theorem W5_keep (c : Dev nD) (b : Ref sig .tc) (hb : b ∉ hostOps2_W) :
    W5 m ρ c (Proc.devRef .tc b) = W4 m ρ c (Proc.devRef .tc b) :=
  StableHlo.after_of_writes_sub hostOps2 _ hostOps2_writes hb

/-- After the host operations before region 3 (its entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 changes only its output array: every other buffer leaves as it entered (an input window's array by the
    pipeline's own account of inputs, any other buffer because no window stages it). -/
theorem W8_keep (c : Dev nD) (b : Ref sig .tc) (hb : b ≠ main_v9) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl hb
  · exact W8_of_ne m ρ c b fun w e => h ⟨w, e⟩
/-- The host operations before region 3 write only their own results. -/
theorem W7_keep (c : Dev nD) (b : Ref sig .tc) (hb : b ∉ hostOps3_W) :
    W7 m ρ c (Proc.devRef .tc b) = W6 m ρ c (Proc.devRef .tc b) :=
  StableHlo.after_of_writes_sub hostOps3 _ hostOps3_writes hb

/-- After the host operations before region 4 (its entry). -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 changes only its output array: every other buffer leaves as it entered (an input window's array by the
    pipeline's own account of inputs, any other buffer because no window stages it). -/
theorem W10_keep (c : Dev nD) (b : Ref sig .tc) (hb : b ≠ main_v12) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact absurd rfl hb
  · exact W10_of_ne m ρ c b fun w e => h ⟨w, e⟩
/-- The host operations before region 4 write only their own results. -/
theorem W9_keep (c : Dev nD) (b : Ref sig .tc) (hb : b ∉ hostOps4_W) :
    W9 m ρ c (Proc.devRef .tc b) = W8 m ρ c (Proc.devRef .tc b) :=
  StableHlo.after_of_writes_sub hostOps4 _ hostOps4_writes hb

/-- A buffer that no host operation and no region writes ends as launched. -/
theorem W10_keep_all (c : Dev nD) (b : Ref sig .tc) (hb : b ∉ ([main_v0, main_v1, main_v2, main_v3, main_v4, main_v5, main_v6, main_v7, main_v8, main_v9, main_v10, main_v11, main_v12] : List (Ref sig .tc))) :
    W10 m ρ c (Proc.devRef .tc b) = m ((c : Thread nD τ).loc b) :=
  (W10_keep m ρ c b (fun e => hb (by subst e; decide))).trans <|
    (W9_keep m ρ c b (fun hm => hb ((by decide : (hostOps4_W : List (Ref sig .tc)) ⊆ ([main_v0, main_v1, main_v2, main_v3, main_v4, main_v5, main_v6, main_v7, main_v8, main_v9, main_v10, main_v11, main_v12] : List (Ref sig .tc))) hm))).trans <|
    (W8_keep m ρ c b (fun e => hb (by subst e; decide))).trans <|
    (W7_keep m ρ c b (fun hm => hb ((by decide : (hostOps3_W : List (Ref sig .tc)) ⊆ ([main_v0, main_v1, main_v2, main_v3, main_v4, main_v5, main_v6, main_v7, main_v8, main_v9, main_v10, main_v11, main_v12] : List (Ref sig .tc))) hm))).trans <|
    (W6_keep m ρ c b (fun e => hb (by subst e; decide))).trans <|
    (W5_keep m ρ c b (fun hm => hb ((by decide : (hostOps2_W : List (Ref sig .tc)) ⊆ ([main_v0, main_v1, main_v2, main_v3, main_v4, main_v5, main_v6, main_v7, main_v8, main_v9, main_v10, main_v11, main_v12] : List (Ref sig .tc))) hm))).trans <|
    (W4_keep m ρ c b (fun e => hb (by subst e; decide))).trans <|
    (W3_keep m ρ c b (fun hm => hb ((by decide : (hostOps1_W : List (Ref sig .tc)) ⊆ ([main_v0, main_v1, main_v2, main_v3, main_v4, main_v5, main_v6, main_v7, main_v8, main_v9, main_v10, main_v11, main_v12] : List (Ref sig .tc))) hm))).trans <|
    (W2_keep m ρ c b (fun e => hb (by subst e; decide))).trans <|
    (W1_keep m ρ c b (fun hm => hb ((by decide : (hostOps0_W : List (Ref sig .tc)) ⊆ ([main_v0, main_v1, main_v2, main_v3, main_v4, main_v5, main_v6, main_v7, main_v8, main_v9, main_v10, main_v11, main_v12] : List (Ref sig .tc))) hm))).trans rfl

/-- The result array ends at what the last region's pipeline leaves in it. -/
theorem W10_result (c : Dev nD) : W10 m ρ c (Proc.devRef .tc main_v12) = (dat4 (V9 m ρ) c).arrAt 3 cfg4.N :=
  W10_arr m ρ c 3

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The regions as segments -/

/-- Region 3's invariant after its last point gives back the generator register and the scoped buffers. -/
theorem hexitInv3 (V : (c : Dev nD) → (b : Ref sig .tc) → Buf (Elt F) ((c : Thread nD τ).loc b)) (c : Dev nD) :
    (dat3 V c).Φ (Fin.last cfg3.N) ⊢
      (iprop((∃ r, prngReg c r) ∗ BI.emp ∗ Pipeline.scopedRest (Ix := Unit) (Name := ℕ) (U := UR sig nD τ) (Lvl := ℕ) (Val := Elt F) spec3 c) : sProp 𝕄) :=
  (hout3 V c).trans (by
    unfold Pipeline.ΦA
    iintro ⟨Hr, Hp⟩
    isplitl [Hp]; · iexact Hp
    isplitr; · iempintro
    iexact Hr)

/-- Region 4's invariant after its last point gives back the generator register and the scoped buffers. -/
theorem hexitInv4 (V : (c : Dev nD) → (b : Ref sig .tc) → Buf (Elt F) ((c : Thread nD τ).loc b)) (c : Dev nD) :
    (dat4 V c).Φ (Fin.last cfg4.N) ⊢
      (iprop((∃ r, prngReg c r) ∗ BI.emp ∗ Pipeline.scopedRest (Ix := Unit) (Name := ℕ) (U := UR sig nD τ) (Lvl := ℕ) (Val := Elt F) spec4 c) : sProp 𝕄) :=
  (hout4 V c).trans (by
    unfold Pipeline.ΦA
    iintro ⟨Hr, Hp⟩
    isplitl [Hp]; · iexact Hp
    isplitr; · iempintro
    iexact Hr)

set_option backward.isDefEq.respectTransparency.types false in
/-- REGION 0 over the thread state: entered from every unscoped buffer at the contents before it, left at the contents
    after it; its arrays split out of the unscoped buffers and put back at their exit contents; the generator register
    into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left at the contents
    after it; its arrays split out of the unscoped buffers and put back at their exit contents; the generator register
    into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left at the contents
    after it; its arrays split out of the unscoped buffers and put back at their exit contents; the generator register
    into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents before it, left at the contents
    after it; its arrays split out of the unscoped buffers and put back at their exit contents; the generator register
    into the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hexitInv3 (V7 m ρ) c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents before it, left at the contents
    after it; its arrays split out of the unscoped buffers and put back at their exit contents; the generator register
    into the region's invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    exact hexitInv4 (V9 m ρ) c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W10_keep_all m ρ c main_arg0 (by decide)),
    (h c _ (mem_uc main_arg1 (by decide))).trans (W10_keep_all m ρ c main_arg1 (by decide)),
    (h c _ (mem_uc main_arg2 (by decide))).trans (W10_keep_all m ρ c main_arg2 (by decide)),
    (h c _ (mem_uc main_arg3 (by decide))).trans (W10_keep_all m ρ c main_arg3 (by decide)),
    (h c _ (mem_uc main_arg4 (by decide))).trans (W10_keep_all m ρ c main_arg4 (by decide)),
    (h c _ (mem_uc main_arg5 (by decide))).trans (W10_keep_all m ρ c main_arg5 (by decide)),
    (h c _ (mem_uc main_arg6 (by decide))).trans (W10_keep_all m ρ c main_arg6 (by decide)),
    (h c _ (mem_uc main_arg7 (by decide))).trans (W10_keep_all m ρ c main_arg7 (by decide)),
    (h c _ (mem_uc main_arg8 (by decide))).trans (W10_keep_all m ρ c main_arg8 (by decide)),
    (h c _ (mem_uc main_arg9 (by decide))).trans (W10_keep_all m ρ c main_arg9 (by decide)),
    (h c _ (mem_uc main_arg10 (by decide))).trans (W10_keep_all m ρ c main_arg10 (by decide))⟩) (run_all m ρ)

end Cert.KernelIdeal.Frame

end
-- ==== Proof.BridgeKeep.lean ====
/-
  The program's arguments at every boundary.  No host operation and no kernel region writes an argument array, so
  at each of the boundaries between the launch and the last region an argument array holds what it was launched with.
-/
import proofs.«130128_j25795573580066_2_alg».proof.Proof.Assembly

set_option maxRecDepth 16384

noncomputable section

namespace Cert.KernelIdeal.Bridge

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The arrays some host operation or some region writes: every array that is not an argument. -/
abbrev written : List (Ref sig .tc) :=
  [main_v0, main_v1, main_v2, main_v3, main_v4, main_v5, main_v6, main_v7, main_v8, main_v9, main_v10, main_v11, main_v12]

/-- An array nothing writes holds its launch contents at each boundary, one boundary after the other. -/
theorem W1_arg (b : Ref sig .tc) (hb : b ∉ written) : Frame.W1 m ρ c (Proc.devRef .tc b) = m ((c.tc : Thread nD τ).loc b) :=
  (Frame.W1_keep m ρ c b (fun hm => hb ((by decide : (hostOps0_W : List (Ref sig .tc)) ⊆ written) hm))).trans rfl
theorem W2_arg (b : Ref sig .tc) (hb : b ∉ written) : Frame.W2 m ρ c (Proc.devRef .tc b) = m ((c.tc : Thread nD τ).loc b) :=
  (Frame.W2_keep m ρ c b (fun e => hb (by subst e; decide))).trans (W1_arg m ρ c b hb)
theorem W3_arg (b : Ref sig .tc) (hb : b ∉ written) : Frame.W3 m ρ c (Proc.devRef .tc b) = m ((c.tc : Thread nD τ).loc b) :=
  (Frame.W3_keep m ρ c b (fun hm => hb ((by decide : (hostOps1_W : List (Ref sig .tc)) ⊆ written) hm))).trans (W2_arg m ρ c b hb)
theorem W4_arg (b : Ref sig .tc) (hb : b ∉ written) : Frame.W4 m ρ c (Proc.devRef .tc b) = m ((c.tc : Thread nD τ).loc b) :=
  (Frame.W4_keep m ρ c b (fun e => hb (by subst e; decide))).trans (W3_arg m ρ c b hb)
theorem W5_arg (b : Ref sig .tc) (hb : b ∉ written) : Frame.W5 m ρ c (Proc.devRef .tc b) = m ((c.tc : Thread nD τ).loc b) :=
  (Frame.W5_keep m ρ c b (fun hm => hb ((by decide : (hostOps2_W : List (Ref sig .tc)) ⊆ written) hm))).trans (W4_arg m ρ c b hb)
theorem W6_arg (b : Ref sig .tc) (hb : b ∉ written) : Frame.W6 m ρ c (Proc.devRef .tc b) = m ((c.tc : Thread nD τ).loc b) :=
  (Frame.W6_keep m ρ c b (fun e => hb (by subst e; decide))).trans (W5_arg m ρ c b hb)
theorem W7_arg (b : Ref sig .tc) (hb : b ∉ written) : Frame.W7 m ρ c (Proc.devRef .tc b) = m ((c.tc : Thread nD τ).loc b) :=
  (Frame.W7_keep m ρ c b (fun hm => hb ((by decide : (hostOps3_W : List (Ref sig .tc)) ⊆ written) hm))).trans (W6_arg m ρ c b hb)
theorem W8_arg (b : Ref sig .tc) (hb : b ∉ written) : Frame.W8 m ρ c (Proc.devRef .tc b) = m ((c.tc : Thread nD τ).loc b) :=
  (Frame.W8_keep m ρ c b (fun e => hb (by subst e; decide))).trans (W7_arg m ρ c b hb)
theorem W9_arg (b : Ref sig .tc) (hb : b ∉ written) : Frame.W9 m ρ c (Proc.devRef .tc b) = m ((c.tc : Thread nD τ).loc b) :=
  (Frame.W9_keep m ρ c b (fun hm => hb ((by decide : (hostOps4_W : List (Ref sig .tc)) ⊆ written) hm))).trans (W8_arg m ρ c b hb)

/-! The projected arrays between the region that writes them and the attention region. -/

/-- The queries' pair view, written before the key projection, is untouched up to the attention region's entry. -/
theorem W7_v2 : Frame.W7 m ρ c (Proc.devRef .tc main_v2) = Frame.W3 m ρ c (Proc.devRef .tc main_v2) :=
  (Frame.W7_keep m ρ c main_v2 (by decide)).trans <| (Frame.W6_keep m ρ c main_v2 (by decide)).trans <|
    (Frame.W5_keep m ρ c main_v2 (by decide)).trans (Frame.W4_keep m ρ c main_v2 (by decide))
/-- The keys' pair view, written before the value projection, likewise. -/
theorem W7_v5 : Frame.W7 m ρ c (Proc.devRef .tc main_v5) = Frame.W5 m ρ c (Proc.devRef .tc main_v5) :=
  (Frame.W7_keep m ρ c main_v5 (by decide)).trans (Frame.W6_keep m ρ c main_v5 (by decide))
/-- The attention output is untouched by the host operations before the last region. -/
theorem W9_v9 : Frame.W9 m ρ c (Proc.devRef .tc main_v9) = Frame.W8 m ρ c (Proc.devRef .tc main_v9) :=
  Frame.W9_keep m ρ c main_v9 (by decide)

end Cert.KernelIdeal.Bridge

end
-- ==== Proof.SpecAttn.lean ====
/-
  The mathematics both programs compute, index by index, on the extended reals.

  A batch of 2 sequences of 2048 rows of 1024 features is projected three times (queries, keys,
  values): `y = x Wᵀ + b`, the 1024 output features read as 16 heads of 64.  Per (batch, head) —
  32 pairs — each query row's scores against the 2048 key rows are the dot products over the 64
  features, divided by 8 (the square root of 64); the scores' softmax weights average the value rows.
  The heads are laid side by side again and projected once more.
-/
import Idealize.ShloMosaic.PureOps.Ideal
import Mathlib

noncomputable section

namespace Attn

open Idealize.ShloMosaic

/-- Feature `h * 64 + d` of 1024: column `d` of head `h`. -/
def col (h : Fin 16) (d : Fin 64) : Fin 1024 := ⟨h.val * 64 + d.val, by have := h.isLt; have := d.isLt; omega⟩
/-- Pair `b * 16 + h` of 32: head `h` of batch `b`. -/
def pair (b : Fin 2) (h : Fin 16) : Fin 32 := ⟨b.val * 16 + h.val, by have := b.isLt; have := h.isLt; omega⟩

/-- A linear layer read per head: `(x Wᵀ + bias)` at row `(b, s)`, head `h`, column `d`. -/
def proj (x : Fin 2 → Fin 2048 → Fin 1024 → EReal) (W : Fin 1024 → Fin 1024 → EReal) (bias : Fin 1024 → EReal) :
    Fin 2 → Fin 16 → Fin 2048 → Fin 64 → EReal :=
  fun b h s d => (∑ e : Fin 1024, x b s e * W (col h d) e) + bias (col h d)

/-- The same array with (batch, head) read as one of 32 pairs. -/
def heads (p : Fin 2 → Fin 16 → Fin 2048 → Fin 64 → EReal) : Fin 32 → Fin 2048 → Fin 64 → EReal :=
  fun bh s d => p ⟨bh.val / 16, by have := bh.isLt; omega⟩ ⟨bh.val % 16, Nat.mod_lt _ (by decide)⟩ s d

/-- The score of query row `s` against key row `t`: their dot product over the 64 columns, over 8. -/
def score (q k : Fin 32 → Fin 2048 → Fin 64 → EReal) (bh : Fin 32) (s t : Fin 2048) : EReal :=
  (∑ d : Fin 64, q bh s d * k bh t d) * (((1 / 8 : ℝ) : ℝ) : EReal)

/-- The largest score of a query row (from `-∞`). -/
def rowMax (q k : Fin 32 → Fin 2048 → Fin 64 → EReal) (bh : Fin 32) (s : Fin 2048) : EReal :=
  Finset.univ.fold max ⊥ (fun t : Fin 2048 => score q k bh s t)

/-- Softmax attention: the value rows averaged with the weights `exp (score − max) / Σ exp (score − max)`. -/
def attend (q k v : Fin 32 → Fin 2048 → Fin 64 → EReal) : Fin 32 → Fin 2048 → Fin 64 → EReal :=
  fun bh s d => ∑ t : Fin 2048,
    Ideal.div (Ideal.exp (score q k bh s t - rowMax q k bh s)) (∑ t' : Fin 2048, Ideal.exp (score q k bh s t' - rowMax q k bh s))
      * v bh t d

/-- The output layer over the heads laid side by side: feature `e` of 1024 is column `e % 64` of head `e / 64`. -/
def oproj (a : Fin 32 → Fin 2048 → Fin 64 → EReal) (Wo : Fin 1024 → Fin 1024 → EReal) (bo : Fin 1024 → EReal) :
    Fin 2 → Fin 2048 → Fin 1024 → EReal :=
  fun b s f => (∑ e : Fin 1024,
      a (pair b ⟨e.val / 64, by have := e.isLt; omega⟩) s ⟨e.val % 64, Nat.mod_lt _ (by decide)⟩ * Wo f e) + bo f

/-- The whole layer as one function of the eleven arguments. -/
def mha (query key value : Fin 2 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 2 → Fin 2048 → Fin 1024 → EReal :=
  oproj (attend (heads (proj query Wq bq)) (heads (proj key Wk bk)) (heads (proj value Wv bv))) Wo bo

end Attn

end
-- ==== Proof.ValProjPay.lean ====
/-
  The projection kernel's payload read at an index, on the extended reals.

  The body of each of the three projection regions stores one value: the 512-row slab of activations times the
  transposed weight matrix, plus the bias row, the 1024 output features split into 16 heads of 64 columns and laid
  out head-major. Read at head `h`, row `r`, column `d` it is the dot product of the slab's row `r` with the weight
  matrix's row `h * 64 + d`, plus the bias at `h * 64 + d`.
-/
import proofs.«130128_j25795573580066_2_alg».proof.Proof.Gen.KernelIdeal.Skeleton
import proofs.«130128_j25795573580066_2_alg».proof.Proof.SpecAttn
import Idealize.ShloMosaic.Lib.Pipeline.Value
import Idealize.ShloMosaic.Lib.ValueIdx
import Idealize.ShloMosaic.PureOps.Ideal.Laws

set_option maxRecDepth 16384

noncomputable section

namespace Cert.KernelIdeal.Value0

open Cert.KernelIdeal Cert.KernelIdeal.Gen
open Idealize.ShloMosaic Idealize.ShloMosaic.ValueIdx
open scoped BigOperators

/-- The dot's operand indices at an output index and a contraction index, coordinate by coordinate: the left operand
    is read at (output row, contraction index), the right at (output feature, contraction index). -/
theorem lhs_dot_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_dot_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_dot_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_dot_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The matrix product of the body read at row `r`, feature `c`: the sum over the 1024 input features of the slab's
    row `r` times the weight matrix's row `c` (the weights enter transposed). -/
theorem matmul_at (a : FVec Ideal S512x1024 .bf16) (w : FVec Ideal S1024x1024 .bf16) (r : Fin 512) (c : Fin 1024) :
    matmul (F := Ideal) dot_S512x1024_S1024x1024_S512x1024_1_1_0_0_n_n none a w (constant (F := Ideal) S512x1024 .f32 0x00000000#32) (ix2 r c)
      = ∑ e : Fin 1024, a (ix2 r e) * w (ix2 c e) := by
  refine (Ideal.matmul_constant_zero_apply dot_S512x1024_S1024x1024_S512x1024_1_1_0_0_n_n none a w (ix2 r c)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r c) ((ValueIdx.contrEquiv1 dot_S512x1024_S1024x1024_S512x1024_1_1_0_0_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_1_0_0_n_n.rhsIdx (ix2 r c) ((ValueIdx.contrEquiv1 dot_S512x1024_S1024x1024_S512x1024_1_1_0_0_n_n 1024 rfl rfl).symm k) = ix2 c k := funext fun a => Fin.ext (by
    match a with
    | ⟨0, _⟩ => exact rhs_dot_0 _ _
    | ⟨1, _⟩ => exact (rhs_dot_1 _ _).trans hk)
  rw [el, er]

/-- The payload at head `h`, row `r`, column `d`. -/
theorem pay0_apply (x0 : Vec Ideal S1x512x1024 .f32) (x1 : Vec Ideal S1024x1024 .f32) (x2 : Vec Ideal S1x1024 .f32)
    (h : Fin 16) (r : Fin 512) (d : Fin 64) :
    (k0_pay1 (F := Ideal) x0 x1 x2 : S1x16x512x64.Idx → EReal) (ix4 (0 : Fin 1) h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) := by
  have hh : h.val < 16 := h.isLt
  have hr : r.val < 512 := r.isLt
  have hd : d.val < 64 := d.isLt
  unfold k0_pay1
  -- the outer shape cast: [1,16,512,64] at (0, h, r, d) reads [16,512,64] at (h, r, d)
  refine (shapeCast_apply _ _ (ix4 (0 : Fin 1) h r d) (ix3 h r d)
    (by rw [Shape.rowMajor_val_three, Shape.rowMajor_val_four]
        show (h.val * 512 + r.val) * 64 + d.val = ((0 * 16 + h.val) * 512 + r.val) * 64 + d.val
        omega)).trans ?_
  -- the transpose [1,0,2]: [16,512,64] at (h, r, d) reads [512,16,64] at (r, h, d)
  refine (transpose_apply _ _ _ (ix3 h r d) (ix3 r h d)
    (fun b => match b with | ⟨0, _⟩ => rfl | ⟨1, _⟩ => rfl | ⟨2, _⟩ => rfl)).trans ?_
  -- the shape cast splitting the features: [512,16,64] at (r, h, d) reads [512,1024] at (r, h * 64 + d)
  refine (shapeCast_apply _ _ (ix3 r h d) (ix2 r (Attn.col h d))
    (by rw [Shape.rowMajor_val_two, Shape.rowMajor_val_three]
        show r.val * 1024 + (h.val * 64 + d.val) = (r.val * 16 + h.val) * 64 + d.val
        omega)).trans ?_
  -- the sum of the product and the broadcast bias
  refine (addf_apply _ _ (ix2 r (Attn.col h d))).trans ?_
  refine congrArg₂ (· + ·) ?_ ?_
  · -- the product; the two format changes are the identity, the slab is read through its unit leading axis
    refine (matmul_at _ _ r (Attn.col h d)).trans ?_
    refine Finset.sum_congr rfl fun e _ => ?_
    refine congrArg₂ (· * ·) ?_ rfl
    refine (truncf_apply (φ := .f32) (ψ := .bf16) (shapeCast S512x1024 x0 shapeCasts_S1x512x1024_S512x1024) bitsLt_bf16_f32 (ix2 r e)).trans ?_
    exact shapeCast_apply _ _ (ix2 r e) (ix3 (0 : Fin 1) r e)
      (by rw [Shape.rowMajor_val_three, Shape.rowMajor_val_two]
          show (0 * 512 + r.val) * 1024 + e.val = r.val * 1024 + e.val
          omega)
  · -- the bias row broadcast down the rows
    refine (broadcastTo_apply _ _ (ix2 r (Attn.col h d)) (ix2 (0 : Fin 1) (Attn.col h d))
      (fun a => match a with | ⟨0, _⟩ => rfl | ⟨1, _⟩ => rfl)).trans ?_
    exact congrFun (shapeCast_self _ _) _

/-- The other two projection regions' payloads are the same term. -/
theorem pay1_apply (x0 : Vec Ideal S1x512x1024 .f32) (x1 : Vec Ideal S1024x1024 .f32) (x2 : Vec Ideal S1x1024 .f32)
    (h : Fin 16) (r : Fin 512) (d : Fin 64) :
    (k1_pay1 (F := Ideal) x0 x1 x2 : S1x16x512x64.Idx → EReal) (ix4 (0 : Fin 1) h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) :=
  pay0_apply x0 x1 x2 h r d
theorem pay2_apply (x0 : Vec Ideal S1x512x1024 .f32) (x1 : Vec Ideal S1024x1024 .f32) (x2 : Vec Ideal S1x1024 .f32)
    (h : Fin 16) (r : Fin 512) (d : Fin 64) :
    (k2_pay1 (F := Ideal) x0 x1 x2 : S1x16x512x64.Idx → EReal) (ix4 (0 : Fin 1) h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) :=
  pay0_apply x0 x1 x2 h r d

end Cert.KernelIdeal.Value0

end
-- ==== Proof.ValProj0.lean ====
/-
  Region 0 (a projection): what its output array holds when the region ends, index by index.

  Every grid point (batch, row block) writes back one block of the output: 16 heads × 512 rows × 64 columns of
  one batch. That block is the body's one store over the point's slab of activations, the whole weight matrix and
  the bias row, and the payload read at an index is a dot product plus a bias; so the block is the restriction of
  ONE function of the three arrays the region reads, the blocks tile the output, and the array ends holding that
  function: the linear layer read per head.
-/
import proofs.«130128_j25795573580066_2_alg».proof.Proof.Region0
import proofs.«130128_j25795573580066_2_alg».proof.Proof.ValProjPay
import Idealize.ShloMosaic.Lib.Pipeline.Value

set_option maxRecDepth 16384

noncomputable section

namespace Cert.KernelIdeal.Value0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2_0 : (![0, 0] : Fin 2 → Nat) = fun _ => 0 := funext fun a => by fin_cases a <;> rfl
theorem hz3_0 : (![0, 0, 0] : Fin 3 → Nat) = fun _ => 0 := funext fun a => by fin_cases a <;> rfl
theorem hz4_0 : (![0, 0, 0, 0] : Fin 4 → Nat) = fun _ => 0 := funext fun a => by fin_cases a <;> rfl

/-- The projected array as ONE function of the three arrays the region reads: the linear layer per head. -/
def G0 (c : Dev nD) : S2x16x2048x64.Idx → EReal := fun i =>
  Attn.proj (fun b s e => (V c main_arg0 : S2x2048x1024.Idx → EReal) (ix3 b s e))
    (fun f e => (V c main_arg3 : S1024x1024.Idx → EReal) (ix2 f e))
    (fun f => (V c main_v0 : S1x1024.Idx → EReal) (ix2 0 f))
    ⟨(i 0).val, (i 0).isLt⟩ ⟨(i 1).val, (i 1).isLt⟩ ⟨(i 2).val, (i 2).isLt⟩ ⟨(i 3).val, (i 3).isLt⟩

/-- What the body leaves in the output block, read at head `h`, row `r`, column `d`: its one store covers the
    block, its loads read the three staging buffers whole. -/
theorem out0_3_apply (x0 : Vec Ideal S1x512x1024 .f32) (x1 : Vec Ideal S1024x1024 .f32) (x2 : Vec Ideal S1x1024 .f32)
    (j0 : Fin 1) (h : Fin 16) (r : Fin 512) (d : Fin 64) :
    (Frame.out0_3 (F := Ideal) x0 x1 x2 : S1x16x512x64.Idx → EReal) (ix4 j0 h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) := by
  obtain rfl : j0 = 0 := Subsingleton.elim _ _
  unfold Frame.out0_3
  rw [View.canon_unit_zero hz4_0]
  simp only [View.ld_unit_zero (S := S1x512x1024) hz3_0, View.ld_unit_zero (S := S1024x1024) hz2_0, View.ld_unit_zero (S := S1x1024) hz2_0]
  exact pay0_apply x0 x1 x2 h r d

/-- The printed index maps, decided over the 8 grid points: the slab moves with the output block (batch with batch,
    row block with row block), the weights and the bias never move, and the output's block indices stay in range. -/
theorem idx_facts0 : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 1 ∧ win0_3.index t (1 : Fin 4) = 0
    ∧ win0_3.index t (2 : Fin 4) ≤ 3 ∧ win0_3.index t (3 : Fin 4) = 0 :=
  (by decide +kernel : ∀ t : Fin grid0.N, _)

/-- Every (batch, row block) is some point's output block. -/
theorem idx_onto0 : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- The slab at point `t` is rows `512 q … 512 q + 511` of batch `p` of the activations, `(p, q)` the output's block index. -/
theorem iblk0_0_apply (c : Dev nD) (t : Fin cfg0.N) (x : S1x512x1024.Idx) (k : S2x2048x1024.Idx)
    (hk0 : (k 0).val = win0_3.index t (0 : Fin 4)) (hk1 : (k 1).val = win0_3.index t (2 : Fin 4) * 512 + (x 1).val)
    (hk2 : (k 2).val = (x 2).val) :
    (Frame.iblk0 V c 0 t : Vec Ideal S1x512x1024 .f32) x = (V c main_arg0 : S2x2048x1024.Idx → EReal) k := by
  obtain ⟨e0, e1, e2, -⟩ := idx_facts0 t
  have hx0 : (x 0).val < 1 := (x 0).isLt
  unfold Frame.iblk0
  rw [View.read_apply]
  show V c main_arg0 _ = V c main_arg0 _
  congr 1
  funext a
  apply Fin.ext
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 1024 + 1 * (x 2).val = (k 2).val; omega

/-- The weights' block at every point is the whole weight matrix. -/
theorem iblk0_1_apply (c : Dev nD) (t : Fin cfg0.N) (x : S1024x1024.Idx) (k : S1024x1024.Idx)
    (hk0 : (k 0).val = (x 0).val) (hk1 : (k 1).val = (x 1).val) :
    (Frame.iblk0 V c 1 t : Vec Ideal S1024x1024 .f32) x = (V c main_arg3 : S1024x1024.Idx → EReal) k := by
  obtain ⟨-, -, -, e3, e4, -⟩ := idx_facts0 t
  unfold Frame.iblk0
  rw [View.read_apply]
  show V c main_arg3 _ = V c main_arg3 _
  congr 1
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- The bias' block at every point is the whole bias row. -/
theorem iblk0_2_apply (c : Dev nD) (t : Fin cfg0.N) (x : S1x1024.Idx) (k : S1x1024.Idx)
    (hk0 : (k 0).val = (x 0).val) (hk1 : (k 1).val = (x 1).val) :
    (Frame.iblk0 V c 2 t : Vec Ideal S1x1024 .f32) x = (V c main_v0 : S1x1024.Idx → EReal) k := by
  obtain ⟨-, -, -, -, -, e5, e6, -⟩ := idx_facts0 t
  unfold Frame.iblk0
  rw [View.read_apply]
  show V c main_v0 _ = V c main_v0 _
  congr 1
  funext a
  apply Fin.ext
  match a with
  | ⟨0, _⟩ => show win0_2.index t (0 : Fin 2) * 1 + 1 * (x 0).val = (k 0).val; omega
  | ⟨1, _⟩ => show win0_2.index t (1 : Fin 2) * 1024 + 1 * (x 1).val = (k 1).val; omega

/-- What point `t` leaves in its output block at `j` is the layer at the array index under `j`: batch and row block from
    the point's block index, head and column from `j`. -/
theorem point0_eq (c : Dev nD) (t : Fin cfg0.N) (j : S1x16x512x64.Idx) (i : S2x16x2048x64.Idx)
    (hi0 : (i 0).val = win0_3.index t (0 : Fin 4)) (hi1 : (i 1).val = (j 1).val)
    (hi2 : (i 2).val = win0_3.index t (2 : Fin 4) * 512 + (j 2).val) (hi3 : (i 3).val = (j 3).val) :
    (Frame.out0_3 (F := Ideal) (Frame.iblk0 V c 0 t) (Frame.iblk0 V c 1 t) (Frame.iblk0 V c 2 t) : S1x16x512x64.Idx → EReal) j
      = G0 V c i := by
  obtain ⟨j0, h, r, d, rfl⟩ : ∃ (j0 : Fin 1) (h : Fin 16) (r : Fin 512) (d : Fin 64), j = ix4 j0 h r d :=
    ⟨j 0, j 1, j 2, j 3, eq_ix4 j⟩
  obtain ⟨b, h', s, d', rfl⟩ : ∃ (b : Fin 2) (h' : Fin 16) (s : Fin 2048) (d' : Fin 64), i = ix4 b h' s d' :=
    ⟨i 0, i 1, i 2, i 3, eq_ix4 i⟩
  obtain rfl : h' = h := Fin.ext hi1
  obtain rfl : d' = d := Fin.ext hi3
  refine (out0_3_apply (Frame.iblk0 V c 0 t) (Frame.iblk0 V c 1 t) (Frame.iblk0 V c 2 t) j0 h' r d').trans ?_
  show _ = Attn.proj (fun b s e => (V c main_arg0 : S2x2048x1024.Idx → EReal) (ix3 b s e)) (fun f e => (V c main_arg3 : S1024x1024.Idx → EReal) (ix2 f e))
      (fun f => (V c main_v0 : S1x1024.Idx → EReal) (ix2 0 f)) b h' s d'
  unfold Attn.proj
  refine congrArg₂ (· + ·) (Finset.sum_congr rfl fun e _ => congrArg₂ (· * ·) ?_ ?_) ?_
  · exact iblk0_0_apply V c t (ix3 (0 : Fin 1) r e) (ix3 b s e) hi0 hi2 rfl
  · exact iblk0_1_apply V c t (ix2 (Attn.col h' d') e) (ix2 (Attn.col h' d') e) rfl rfl
  · exact iblk0_2_apply V c t (ix2 (0 : Fin 1) (Attn.col h' d')) (ix2 (0 : Fin 1) (Attn.col h' d')) rfl rfl

/-- What point `t` writes back is block `t` of the layer. -/
theorem flushed0_eq (c : Dev nD) (t : Fin cfg0.N) :
    (Frame.dat0 (F := Ideal) V c).flushed 3 t = ((cfg0.win 3).blk t).view.read (Elt Ideal) (G0 V c) := by
  show (cfg0.win 3).cut (grid0.coords t) ((Frame.dat0 (F := Ideal) V c).after 3 t) = _
  rw [Frame.after0_3]
  obtain ⟨-, -, -, -, -, -, -, -, q1, -, q3⟩ := idx_facts0 t
  funext j
  show (Frame.out0_3 (F := Ideal) (Frame.iblk0 V c 0 t) (Frame.iblk0 V c 1 t) (Frame.iblk0 V c 2 t) : S1x16x512x64.Idx → EReal) j
      = G0 V c (((cfg0.win 3).blk t).view.emb j)
  have hj0 : (j 0).val < 1 := (j 0).isLt
  refine point0_eq V c t j _ ?_ ?_ ?_ ?_
  · show win0_3.index t (0 : Fin 4) * 1 + 1 * (j 0).val = win0_3.index t (0 : Fin 4); omega
  · show win0_3.index t (1 : Fin 4) * 16 + 1 * (j 1).val = (j 1).val; omega
  · show win0_3.index t (2 : Fin 4) * 512 + 1 * (j 2).val = win0_3.index t (2 : Fin 4) * 512 + (j 2).val; omega
  · show win0_3.index t (3 : Fin 4) * 64 + 1 * (j 3).val = (j 3).val; omega

/-- An index of the array is in point `t`'s block iff each coordinate is in the block's range on its axis. -/
theorem mem_blk0 (t : Fin cfg0.N) (i : S2x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v1).slice (win0_3.rect t)).set ↔ _
  rw [View.set_slice_whole, Rect.mem_set_unit]
  exact Iff.rfl

/-- The blocks tile the array: row `s` of batch `b` is in the block of the point with block index `(b, s / 512)`. -/
theorem cover0 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk0]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The output array when the region ends is the layer, whole. -/
theorem arr0_eq (c : Dev nD) : (Frame.dat0 (F := Ideal) V c).arrAt 3 cfg0.N = G0 V c :=
  (Frame.dat0 (F := Ideal) V c).arrAt_eq_of_cover 3 (G0 V c) (fun t _ => flushed0_eq V c t) (cover0)

/-- The output array when the region ends, index by index: the linear layer read per head. -/
theorem final0 (c : Dev nD) (b : Fin 2) (h : Fin 16) (s : Fin 2048) (d : Fin 64) :
    ((Frame.dat0 (F := Ideal) V c).arrAt 3 cfg0.N : S2x16x2048x64.Idx → EReal) (ix4 b h s d)
      = Attn.proj (fun b s e => (V c main_arg0 : S2x2048x1024.Idx → EReal) (ix3 b s e)) (fun f e => (V c main_arg3 : S1024x1024.Idx → EReal) (ix2 f e))
          (fun f => (V c main_v0 : S1x1024.Idx → EReal) (ix2 0 f)) b h s d := by
  rw [arr0_eq]
  rfl

end Cert.KernelIdeal.Value0

end
-- ==== Proof.ValProj1.lean ====
/-
  Region 1 (a projection): what its output array holds when the region ends, index by index.

  Every grid point (batch, row block) writes back one block of the output: 16 heads × 512 rows × 64 columns of
  one batch. That block is the body's one store over the point's slab of activations, the whole weight matrix and
  the bias row, and the payload read at an index is a dot product plus a bias; so the block is the restriction of
  ONE function of the three arrays the region reads, the blocks tile the output, and the array ends holding that
  function: the linear layer read per head.
-/
import proofs.«130128_j25795573580066_2_alg».proof.Proof.Region1
import proofs.«130128_j25795573580066_2_alg».proof.Proof.ValProjPay
import Idealize.ShloMosaic.Lib.Pipeline.Value

set_option maxRecDepth 16384

noncomputable section

namespace Cert.KernelIdeal.Value0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2_1 : (![0, 0] : Fin 2 → Nat) = fun _ => 0 := funext fun a => by fin_cases a <;> rfl
theorem hz3_1 : (![0, 0, 0] : Fin 3 → Nat) = fun _ => 0 := funext fun a => by fin_cases a <;> rfl
theorem hz4_1 : (![0, 0, 0, 0] : Fin 4 → Nat) = fun _ => 0 := funext fun a => by fin_cases a <;> rfl

/-- The projected array as ONE function of the three arrays the region reads: the linear layer per head. -/
def G1 (c : Dev nD) : S2x16x2048x64.Idx → EReal := fun i =>
  Attn.proj (fun b s e => (V c main_arg1 : S2x2048x1024.Idx → EReal) (ix3 b s e))
    (fun f e => (V c main_arg5 : S1024x1024.Idx → EReal) (ix2 f e))
    (fun f => (V c main_v3 : S1x1024.Idx → EReal) (ix2 0 f))
    ⟨(i 0).val, (i 0).isLt⟩ ⟨(i 1).val, (i 1).isLt⟩ ⟨(i 2).val, (i 2).isLt⟩ ⟨(i 3).val, (i 3).isLt⟩

/-- What the body leaves in the output block, read at head `h`, row `r`, column `d`: its one store covers the
    block, its loads read the three staging buffers whole. -/
theorem out1_3_apply (x0 : Vec Ideal S1x512x1024 .f32) (x1 : Vec Ideal S1024x1024 .f32) (x2 : Vec Ideal S1x1024 .f32)
    (j0 : Fin 1) (h : Fin 16) (r : Fin 512) (d : Fin 64) :
    (Frame.out1_3 (F := Ideal) x0 x1 x2 : S1x16x512x64.Idx → EReal) (ix4 j0 h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) := by
  obtain rfl : j0 = 0 := Subsingleton.elim _ _
  unfold Frame.out1_3
  rw [View.canon_unit_zero hz4_1]
  simp only [View.ld_unit_zero (S := S1x512x1024) hz3_1, View.ld_unit_zero (S := S1024x1024) hz2_1, View.ld_unit_zero (S := S1x1024) hz2_1]
  exact pay1_apply x0 x1 x2 h r d

/-- The printed index maps, decided over the 8 grid points: the slab moves with the output block (batch with batch,
    row block with row block), the weights and the bias never move, and the output's block indices stay in range. -/
theorem idx_facts1 : ∀ t : Fin cfg1.N,
    win1_0.index t (0 : Fin 3) = win1_3.index t (0 : Fin 4)
    ∧ win1_0.index t (1 : Fin 3) = win1_3.index t (2 : Fin 4)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) ≤ 1 ∧ win1_3.index t (1 : Fin 4) = 0
    ∧ win1_3.index t (2 : Fin 4) ≤ 3 ∧ win1_3.index t (3 : Fin 4) = 0 :=
  (by decide +kernel : ∀ t : Fin grid1.N, _)

/-- Every (batch, row block) is some point's output block. -/
theorem idx_onto1 : ∀ (q0 : Fin 2) (q2 : Fin 4), ∃ t : Fin cfg1.N, win1_3.index t = ![q0.val, 0, q2.val, 0] :=
  (by decide +kernel : ∀ (q0 : Fin 2) (q2 : Fin 4), ∃ t : Fin grid1.N, win1_3.index t = ![q0.val, 0, q2.val, 0])

/-- The slab at point `t` is rows `512 q … 512 q + 511` of batch `p` of the activations, `(p, q)` the output's block index. -/
theorem iblk1_0_apply (c : Dev nD) (t : Fin cfg1.N) (x : S1x512x1024.Idx) (k : S2x2048x1024.Idx)
    (hk0 : (k 0).val = win1_3.index t (0 : Fin 4)) (hk1 : (k 1).val = win1_3.index t (2 : Fin 4) * 512 + (x 1).val)
    (hk2 : (k 2).val = (x 2).val) :
    (Frame.iblk1 V c 0 t : Vec Ideal S1x512x1024 .f32) x = (V c main_arg1 : S2x2048x1024.Idx → EReal) k := by
  obtain ⟨e0, e1, e2, -⟩ := idx_facts1 t
  have hx0 : (x 0).val < 1 := (x 0).isLt
  unfold Frame.iblk1
  rw [View.read_apply]
  show V c main_arg1 _ = V c main_arg1 _
  congr 1
  funext a
  apply Fin.ext
  match a with
  | ⟨0, _⟩ => show win1_0.index t (0 : Fin 3) * 1 + 1 * (x 0).val = (k 0).val; omega
  | ⟨1, _⟩ => show win1_0.index t (1 : Fin 3) * 512 + 1 * (x 1).val = (k 1).val; omega
  | ⟨2, _⟩ => show win1_0.index t (2 : Fin 3) * 1024 + 1 * (x 2).val = (k 2).val; omega

/-- The weights' block at every point is the whole weight matrix. -/
theorem iblk1_1_apply (c : Dev nD) (t : Fin cfg1.N) (x : S1024x1024.Idx) (k : S1024x1024.Idx)
    (hk0 : (k 0).val = (x 0).val) (hk1 : (k 1).val = (x 1).val) :
    (Frame.iblk1 V c 1 t : Vec Ideal S1024x1024 .f32) x = (V c main_arg5 : S1024x1024.Idx → EReal) k := by
  obtain ⟨-, -, -, e3, e4, -⟩ := idx_facts1 t
  unfold Frame.iblk1
  rw [View.read_apply]
  show V c main_arg5 _ = V c main_arg5 _
  congr 1
  funext a
  apply Fin.ext
  match a with
  | ⟨0, _⟩ => show win1_1.index t (0 : Fin 2) * 1024 + 1 * (x 0).val = (k 0).val; omega
  | ⟨1, _⟩ => show win1_1.index t (1 : Fin 2) * 1024 + 1 * (x 1).val = (k 1).val; omega

/-- The bias' block at every point is the whole bias row. -/
theorem iblk1_2_apply (c : Dev nD) (t : Fin cfg1.N) (x : S1x1024.Idx) (k : S1x1024.Idx)
    (hk0 : (k 0).val = (x 0).val) (hk1 : (k 1).val = (x 1).val) :
    (Frame.iblk1 V c 2 t : Vec Ideal S1x1024 .f32) x = (V c main_v3 : S1x1024.Idx → EReal) k := by
  obtain ⟨-, -, -, -, -, e5, e6, -⟩ := idx_facts1 t
  unfold Frame.iblk1
  rw [View.read_apply]
  show V c main_v3 _ = V c main_v3 _
  congr 1
  funext a
  apply Fin.ext
  match a with
  | ⟨0, _⟩ => show win1_2.index t (0 : Fin 2) * 1 + 1 * (x 0).val = (k 0).val; omega
  | ⟨1, _⟩ => show win1_2.index t (1 : Fin 2) * 1024 + 1 * (x 1).val = (k 1).val; omega

/-- What point `t` leaves in its output block at `j` is the layer at the array index under `j`: batch and row block from
    the point's block index, head and column from `j`. -/
theorem point1_eq (c : Dev nD) (t : Fin cfg1.N) (j : S1x16x512x64.Idx) (i : S2x16x2048x64.Idx)
    (hi0 : (i 0).val = win1_3.index t (0 : Fin 4)) (hi1 : (i 1).val = (j 1).val)
    (hi2 : (i 2).val = win1_3.index t (2 : Fin 4) * 512 + (j 2).val) (hi3 : (i 3).val = (j 3).val) :
    (Frame.out1_3 (F := Ideal) (Frame.iblk1 V c 0 t) (Frame.iblk1 V c 1 t) (Frame.iblk1 V c 2 t) : S1x16x512x64.Idx → EReal) j
      = G1 V c i := by
  obtain ⟨j0, h, r, d, rfl⟩ : ∃ (j0 : Fin 1) (h : Fin 16) (r : Fin 512) (d : Fin 64), j = ix4 j0 h r d :=
    ⟨j 0, j 1, j 2, j 3, eq_ix4 j⟩
  obtain ⟨b, h', s, d', rfl⟩ : ∃ (b : Fin 2) (h' : Fin 16) (s : Fin 2048) (d' : Fin 64), i = ix4 b h' s d' :=
    ⟨i 0, i 1, i 2, i 3, eq_ix4 i⟩
  obtain rfl : h' = h := Fin.ext hi1
  obtain rfl : d' = d := Fin.ext hi3
  refine (out1_3_apply (Frame.iblk1 V c 0 t) (Frame.iblk1 V c 1 t) (Frame.iblk1 V c 2 t) j0 h' r d').trans ?_
  show _ = Attn.proj (fun b s e => (V c main_arg1 : S2x2048x1024.Idx → EReal) (ix3 b s e)) (fun f e => (V c main_arg5 : S1024x1024.Idx → EReal) (ix2 f e))
      (fun f => (V c main_v3 : S1x1024.Idx → EReal) (ix2 0 f)) b h' s d'
  unfold Attn.proj
  refine congrArg₂ (· + ·) (Finset.sum_congr rfl fun e _ => congrArg₂ (· * ·) ?_ ?_) ?_
  · exact iblk1_0_apply V c t (ix3 (0 : Fin 1) r e) (ix3 b s e) hi0 hi2 rfl
  · exact iblk1_1_apply V c t (ix2 (Attn.col h' d') e) (ix2 (Attn.col h' d') e) rfl rfl
  · exact iblk1_2_apply V c t (ix2 (0 : Fin 1) (Attn.col h' d')) (ix2 (0 : Fin 1) (Attn.col h' d')) rfl rfl

/-- What point `t` writes back is block `t` of the layer. -/
theorem flushed1_eq (c : Dev nD) (t : Fin cfg1.N) :
    (Frame.dat1 (F := Ideal) V c).flushed 3 t = ((cfg1.win 3).blk t).view.read (Elt Ideal) (G1 V c) := by
  show (cfg1.win 3).cut (grid1.coords t) ((Frame.dat1 (F := Ideal) V c).after 3 t) = _
  rw [Frame.after1_3]
  obtain ⟨-, -, -, -, -, -, -, -, q1, -, q3⟩ := idx_facts1 t
  funext j
  show (Frame.out1_3 (F := Ideal) (Frame.iblk1 V c 0 t) (Frame.iblk1 V c 1 t) (Frame.iblk1 V c 2 t) : S1x16x512x64.Idx → EReal) j
      = G1 V c (((cfg1.win 3).blk t).view.emb j)
  have hj0 : (j 0).val < 1 := (j 0).isLt
  refine point1_eq V c t j _ ?_ ?_ ?_ ?_
  · show win1_3.index t (0 : Fin 4) * 1 + 1 * (j 0).val = win1_3.index t (0 : Fin 4); omega
  · show win1_3.index t (1 : Fin 4) * 16 + 1 * (j 1).val = (j 1).val; omega
  · show win1_3.index t (2 : Fin 4) * 512 + 1 * (j 2).val = win1_3.index t (2 : Fin 4) * 512 + (j 2).val; omega
  · show win1_3.index t (3 : Fin 4) * 64 + 1 * (j 3).val = (j 3).val; omega

/-- An index of the array is in point `t`'s block iff each coordinate is in the block's range on its axis. -/
theorem mem_blk1 (t : Fin cfg1.N) (i : S2x16x2048x64.Idx) :
    i ∈ ((cfg1.win 3).blk t).view.set ↔ ∀ a : Fin 4, win1_3.index t a * S1x16x512x64.size a ≤ (i a).val ∧ (i a).val < win1_3.index t a * S1x16x512x64.size a + S1x16x512x64.size a := by
  show i ∈ ((View.whole main_v4).slice (win1_3.rect t)).set ↔ _
  rw [View.set_slice_whole, Rect.mem_set_unit]
  exact Iff.rfl

/-- The blocks tile the array: row `s` of batch `b` is in the block of the point with block index `(b, s / 512)`. -/
theorem cover1 (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto1 ⟨(i 0).val, hi0⟩ ⟨(i 2).val / 512, by omega⟩
  have q0 : win1_3.index t (0 : Fin 4) = (i 0).val := congrFun ht 0
  have q1 : win1_3.index t (1 : Fin 4) = 0 := congrFun ht 1
  have q2 : win1_3.index t (2 : Fin 4) = (i 2).val / 512 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The output array when the region ends is the layer, whole. -/
theorem arr1_eq (c : Dev nD) : (Frame.dat1 (F := Ideal) V c).arrAt 3 cfg1.N = G1 V c :=
  (Frame.dat1 (F := Ideal) V c).arrAt_eq_of_cover 3 (G1 V c) (fun t _ => flushed1_eq V c t) (cover1)

/-- The output array when the region ends, index by index: the linear layer read per head. -/
theorem final1 (c : Dev nD) (b : Fin 2) (h : Fin 16) (s : Fin 2048) (d : Fin 64) :
    ((Frame.dat1 (F := Ideal) V c).arrAt 3 cfg1.N : S2x16x2048x64.Idx → EReal) (ix4 b h s d)
      = Attn.proj (fun b s e => (V c main_arg1 : S2x2048x1024.Idx → EReal) (ix3 b s e)) (fun f e => (V c main_arg5 : S1024x1024.Idx → EReal) (ix2 f e))
          (fun f => (V c main_v3 : S1x1024.Idx → EReal) (ix2 0 f)) b h s d := by
  rw [arr1_eq]
  rfl

end Cert.KernelIdeal.Value0

end
-- ==== Proof.ValProj2.lean ====
/-
  Region 2 (a projection): what its output array holds when the region ends, index by index.

  Every grid point (batch, row block) writes back one block of the output: 16 heads × 512 rows × 64 columns of
  one batch. That block is the body's one store over the point's slab of activations, the whole weight matrix and
  the bias row, and the payload read at an index is a dot product plus a bias; so the block is the restriction of
  ONE function of the three arrays the region reads, the blocks tile the output, and the array ends holding that
  function: the linear layer read per head.
-/
import proofs.«130128_j25795573580066_2_alg».proof.Proof.Region2
import proofs.«130128_j25795573580066_2_alg».proof.Proof.ValProjPay
import Idealize.ShloMosaic.Lib.Pipeline.Value

set_option maxRecDepth 16384

noncomputable section

namespace Cert.KernelIdeal.Value0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2_2 : (![0, 0] : Fin 2 → Nat) = fun _ => 0 := funext fun a => by fin_cases a <;> rfl
theorem hz3_2 : (![0, 0, 0] : Fin 3 → Nat) = fun _ => 0 := funext fun a => by fin_cases a <;> rfl
theorem hz4_2 : (![0, 0, 0, 0] : Fin 4 → Nat) = fun _ => 0 := funext fun a => by fin_cases a <;> rfl

/-- The projected array as ONE function of the three arrays the region reads: the linear layer per head. -/
def G2 (c : Dev nD) : S2x16x2048x64.Idx → EReal := fun i =>
  Attn.proj (fun b s e => (V c main_arg2 : S2x2048x1024.Idx → EReal) (ix3 b s e))
    (fun f e => (V c main_arg7 : S1024x1024.Idx → EReal) (ix2 f e))
    (fun f => (V c main_v6 : S1x1024.Idx → EReal) (ix2 0 f))
    ⟨(i 0).val, (i 0).isLt⟩ ⟨(i 1).val, (i 1).isLt⟩ ⟨(i 2).val, (i 2).isLt⟩ ⟨(i 3).val, (i 3).isLt⟩

/-- What the body leaves in the output block, read at head `h`, row `r`, column `d`: its one store covers the
    block, its loads read the three staging buffers whole. -/
theorem out2_3_apply (x0 : Vec Ideal S1x512x1024 .f32) (x1 : Vec Ideal S1024x1024 .f32) (x2 : Vec Ideal S1x1024 .f32)
    (j0 : Fin 1) (h : Fin 16) (r : Fin 512) (d : Fin 64) :
    (Frame.out2_3 (F := Ideal) x0 x1 x2 : S1x16x512x64.Idx → EReal) (ix4 j0 h r d)
      = (∑ e : Fin 1024, (x0 : S1x512x1024.Idx → EReal) (ix3 (0 : Fin 1) r e) * (x1 : S1024x1024.Idx → EReal) (ix2 (Attn.col h d) e))
          + (x2 : S1x1024.Idx → EReal) (ix2 (0 : Fin 1) (Attn.col h d)) := by
  obtain rfl : j0 = 0 := Subsingleton.elim _ _
  unfold Frame.out2_3
  rw [View.canon_unit_zero hz4_2]
  simp only [View.ld_unit_zero (S := S1x512x1024) hz3_2, View.ld_unit_zero (S := S1024x1024) hz2_2, View.ld_unit_zero (S := S1x1024) hz2_2]
  exact pay2_apply x0 x1 x2 h r d

/-- The printed index maps, decided over the 8 grid points: the slab moves with the output block (batch with batch,
    row block with row block), the weights and the bias never move, and the output's block indices stay in range. -/
theorem idx_facts2 : ∀ t : Fin cfg2.N,
    win2_0.index t (0 : Fin 3) = win2_3.index t (0 : Fin 4)
    ∧ win2_0.index t (1 : Fin 3) = win2_3.index t (2 : Fin 4)
    ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 4) ≤ 1 ∧ win2_3.index t (1 : Fin 4) = 0
    ∧ win2_3.index t (2 : Fin 4) ≤ 3 ∧ win2_3.index t (3 : Fin 4) = 0 :=
  (by decide +kernel : ∀ t : Fin grid2.N, _)

/-- Every (batch, row block) is some point's output block. -/
theorem idx_onto2 : ∀ (q0 : Fin 2) (q2 : Fin 4), ∃ t : Fin cfg2.N, win2_3.index t = ![q0.val, 0, q2.val, 0] :=
  (by decide +kernel : ∀ (q0 : Fin 2) (q2 : Fin 4), ∃ t : Fin grid2.N, win2_3.index t = ![q0.val, 0, q2.val, 0])

/-- The slab at point `t` is rows `512 q … 512 q + 511` of batch `p` of the activations, `(p, q)` the output's block index. -/
theorem iblk2_0_apply (c : Dev nD) (t : Fin cfg2.N) (x : S1x512x1024.Idx) (k : S2x2048x1024.Idx)
    (hk0 : (k 0).val = win2_3.index t (0 : Fin 4)) (hk1 : (k 1).val = win2_3.index t (2 : Fin 4) * 512 + (x 1).val)
    (hk2 : (k 2).val = (x 2).val) :
    (Frame.iblk2 V c 0 t : Vec Ideal S1x512x1024 .f32) x = (V c main_arg2 : S2x2048x1024.Idx → EReal) k := by
  obtain ⟨e0, e1, e2, -⟩ := idx_facts2 t
  have hx0 : (x 0).val < 1 := (x 0).isLt
  unfold Frame.iblk2
  rw [View.read_apply]
  show V c main_arg2 _ = V c main_arg2 _
  congr 1
  funext a
  apply Fin.ext
  match a with
  | ⟨0, _⟩ => show win2_0.index t (0 : Fin 3) * 1 + 1 * (x 0).val = (k 0).val; omega
  | ⟨1, _⟩ => show win2_0.index t (1 : Fin 3) * 512 + 1 * (x 1).val = (k 1).val; omega
  | ⟨2, _⟩ => show win2_0.index t (2 : Fin 3) * 1024 + 1 * (x 2).val = (k 2).val; omega

/-- The weights' block at every point is the whole weight matrix. -/
theorem iblk2_1_apply (c : Dev nD) (t : Fin cfg2.N) (x : S1024x1024.Idx) (k : S1024x1024.Idx)
    (hk0 : (k 0).val = (x 0).val) (hk1 : (k 1).val = (x 1).val) :
    (Frame.iblk2 V c 1 t : Vec Ideal S1024x1024 .f32) x = (V c main_arg7 : S1024x1024.Idx → EReal) k := by
  obtain ⟨-, -, -, e3, e4, -⟩ := idx_facts2 t
  unfold Frame.iblk2
  rw [View.read_apply]
  show V c main_arg7 _ = V c main_arg7 _
  congr 1
  funext a
  apply Fin.ext
  match a with
  | ⟨0, _⟩ => show win2_1.index t (0 : Fin 2) * 1024 + 1 * (x 0).val = (k 0).val; omega
  | ⟨1, _⟩ => show win2_1.index t (1 : Fin 2) * 1024 + 1 * (x 1).val = (k 1).val; omega

/-- The bias' block at every point is the whole bias row. -/
theorem iblk2_2_apply (c : Dev nD) (t : Fin cfg2.N) (x : S1x1024.Idx) (k : S1x1024.Idx)
    (hk0 : (k 0).val = (x 0).val) (hk1 : (k 1).val = (x 1).val) :
    (Frame.iblk2 V c 2 t : Vec Ideal S1x1024 .f32) x = (V c main_v6 : S1x1024.Idx → EReal) k := by
  obtain ⟨-, -, -, -, -, e5, e6, -⟩ := idx_facts2 t
  unfold Frame.iblk2
  rw [View.read_apply]
  show V c main_v6 _ = V c main_v6 _
  congr 1
  funext a
  apply Fin.ext
  match a with
  | ⟨0, _⟩ => show win2_2.index t (0 : Fin 2) * 1 + 1 * (x 0).val = (k 0).val; omega
  | ⟨1, _⟩ => show win2_2.index t (1 : Fin 2) * 1024 + 1 * (x 1).val = (k 1).val; omega

/-- What point `t` leaves in its output block at `j` is the layer at the array index under `j`: batch and row block from
    the point's block index, head and column from `j`. -/
theorem point2_eq (c : Dev nD) (t : Fin cfg2.N) (j : S1x16x512x64.Idx) (i : S2x16x2048x64.Idx)
    (hi0 : (i 0).val = win2_3.index t (0 : Fin 4)) (hi1 : (i 1).val = (j 1).val)
    (hi2 : (i 2).val = win2_3.index t (2 : Fin 4) * 512 + (j 2).val) (hi3 : (i 3).val = (j 3).val) :
    (Frame.out2_3 (F := Ideal) (Frame.iblk2 V c 0 t) (Frame.iblk2 V c 1 t) (Frame.iblk2 V c 2 t) : S1x16x512x64.Idx → EReal) j
      = G2 V c i := by
  obtain ⟨j0, h, r, d, rfl⟩ : ∃ (j0 : Fin 1) (h : Fin 16) (r : Fin 512) (d : Fin 64), j = ix4 j0 h r d :=
    ⟨j 0, j 1, j 2, j 3, eq_ix4 j⟩
  obtain ⟨b, h', s, d', rfl⟩ : ∃ (b : Fin 2) (h' : Fin 16) (s : Fin 2048) (d' : Fin 64), i = ix4 b h' s d' :=
    ⟨i 0, i 1, i 2, i 3, eq_ix4 i⟩
  obtain rfl : h' = h := Fin.ext hi1
  obtain rfl : d' = d := Fin.ext hi3
  refine (out2_3_apply (Frame.iblk2 V c 0 t) (Frame.iblk2 V c 1 t) (Frame.iblk2 V c 2 t) j0 h' r d').trans ?_
  show _ = Attn.proj (fun b s e => (V c main_arg2 : S2x2048x1024.Idx → EReal) (ix3 b s e)) (fun f e => (V c main_arg7 : S1024x1024.Idx → EReal) (ix2 f e))
      (fun f => (V c main_v6 : S1x1024.Idx → EReal) (ix2 0 f)) b h' s d'
  unfold Attn.proj
  refine congrArg₂ (· + ·) (Finset.sum_congr rfl fun e _ => congrArg₂ (· * ·) ?_ ?_) ?_
  · exact iblk2_0_apply V c t (ix3 (0 : Fin 1) r e) (ix3 b s e) hi0 hi2 rfl
  · exact iblk2_1_apply V c t (ix2 (Attn.col h' d') e) (ix2 (Attn.col h' d') e) rfl rfl
  · exact iblk2_2_apply V c t (ix2 (0 : Fin 1) (Attn.col h' d')) (ix2 (0 : Fin 1) (Attn.col h' d')) rfl rfl

/-- What point `t` writes back is block `t` of the layer. -/
theorem flushed2_eq (c : Dev nD) (t : Fin cfg2.N) :
    (Frame.dat2 (F := Ideal) V c).flushed 3 t = ((cfg2.win 3).blk t).view.read (Elt Ideal) (G2 V c) := by
  show (cfg2.win 3).cut (grid2.coords t) ((Frame.dat2 (F := Ideal) V c).after 3 t) = _
  rw [Frame.after2_3]
  obtain ⟨-, -, -, -, -, -, -, -, q1, -, q3⟩ := idx_facts2 t
  funext j
  show (Frame.out2_3 (F := Ideal) (Frame.iblk2 V c 0 t) (Frame.iblk2 V c 1 t) (Frame.iblk2 V c 2 t) : S1x16x512x64.Idx → EReal) j
      = G2 V c (((cfg2.win 3).blk t).view.emb j)
  have hj0 : (j 0).val < 1 := (j 0).isLt
  refine point2_eq V c t j _ ?_ ?_ ?_ ?_
  · show win2_3.index t (0 : Fin 4) * 1 + 1 * (j 0).val = win2_3.index t (0 : Fin 4); omega
  · show win2_3.index t (1 : Fin 4) * 16 + 1 * (j 1).val = (j 1).val; omega
  · show win2_3.index t (2 : Fin 4) * 512 + 1 * (j 2).val = win2_3.index t (2 : Fin 4) * 512 + (j 2).val; omega
  · show win2_3.index t (3 : Fin 4) * 64 + 1 * (j 3).val = (j 3).val; omega

/-- An index of the array is in point `t`'s block iff each coordinate is in the block's range on its axis. -/
theorem mem_blk2 (t : Fin cfg2.N) (i : S2x16x2048x64.Idx) :
    i ∈ ((cfg2.win 3).blk t).view.set ↔ ∀ a : Fin 4, win2_3.index t a * S1x16x512x64.size a ≤ (i a).val ∧ (i a).val < win2_3.index t a * S1x16x512x64.size a + S1x16x512x64.size a := by
  show i ∈ ((View.whole main_v7).slice (win2_3.rect t)).set ↔ _
  rw [View.set_slice_whole, Rect.mem_set_unit]
  exact Iff.rfl

/-- The blocks tile the array: row `s` of batch `b` is in the block of the point with block index `(b, s / 512)`. -/
theorem cover2 (i : S2x16x2048x64.Idx) :
    ∃ t : Fin cfg2.N, (cfg2.win 3).flush t = true ∧ i ∈ ((cfg2.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto2 ⟨(i 0).val, hi0⟩ ⟨(i 2).val / 512, by omega⟩
  have q0 : win2_3.index t (0 : Fin 4) = (i 0).val := congrFun ht 0
  have q1 : win2_3.index t (1 : Fin 4) = 0 := congrFun ht 1
  have q2 : win2_3.index t (2 : Fin 4) = (i 2).val / 512 := congrFun ht 2
  have q3 : win2_3.index t (3 : Fin 4) = 0 := congrFun ht 3
  refine ⟨t, flush2_3 t, ?_⟩
  rw [mem_blk2]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 16 ≤ (i 1).val ∧ (i 1).val < win2_3.index t (1 : Fin 4) * 16 + 16; omega
  | ⟨2, _⟩ => show win2_3.index t (2 : Fin 4) * 512 ≤ (i 2).val ∧ (i 2).val < win2_3.index t (2 : Fin 4) * 512 + 512; omega
  | ⟨3, _⟩ => show win2_3.index t (3 : Fin 4) * 64 ≤ (i 3).val ∧ (i 3).val < win2_3.index t (3 : Fin 4) * 64 + 64; omega

/-- The output array when the region ends is the layer, whole. -/
theorem arr2_eq (c : Dev nD) : (Frame.dat2 (F := Ideal) V c).arrAt 3 cfg2.N = G2 V c :=
  (Frame.dat2 (F := Ideal) V c).arrAt_eq_of_cover 3 (G2 V c) (fun t _ => flushed2_eq V c t) (cover2)

/-- The output array when the region ends, index by index: the linear layer read per head. -/
theorem final2 (c : Dev nD) (b : Fin 2) (h : Fin 16) (s : Fin 2048) (d : Fin 64) :
    ((Frame.dat2 (F := Ideal) V c).arrAt 3 cfg2.N : S2x16x2048x64.Idx → EReal) (ix4 b h s d)
      = Attn.proj (fun b s e => (V c main_arg2 : S2x2048x1024.Idx → EReal) (ix3 b s e)) (fun f e => (V c main_arg7 : S1024x1024.Idx → EReal) (ix2 f e))
          (fun f => (V c main_v6 : S1x1024.Idx → EReal) (ix2 0 f)) b h s d := by
  rw [arr2_eq]
  rfl

end Cert.KernelIdeal.Value0

end
-- ==== Proof.AttnStep.lean ====
/-
  One step of the running softmax, per query row: what a block of 512 keys does to the row's running maximum,
  running sum and running weighted sum of value rows.  With the row's scores against the block
  `s k = (q · k-th key) / 8` and the new maximum `m' = max m (max_k s k)`:
  `l' = exp (m − m') · l + Σ_k exp (s k − m')` and `acc' = exp (m − m') · acc + Σ_k exp (s k − m') · v k`.
-/
import proofs.«130128_j25795573580066_2_alg».proof.Proof.SpecAttn

noncomputable section

namespace Attn

open Idealize.ShloMosaic

/-- The scores of the rows of a query block (1024 rows) against a key block (512 rows): dot products over the 64 columns, over 8. -/
def bscore (Q : Fin 1024 → Fin 64 → EReal) (K : Fin 512 → Fin 64 → EReal) (r : Fin 1024) (k : Fin 512) : EReal :=
  (∑ d : Fin 64, Q r d * K k d) * (((1 / 8 : ℝ) : ℝ) : EReal)

/-- The new running maximum of row `r`. -/
def stepM (Q : Fin 1024 → Fin 64 → EReal) (K : Fin 512 → Fin 64 → EReal) (m : Fin 1024 → EReal) (r : Fin 1024) : EReal :=
  max (m r) (Finset.univ.fold max ⊥ (fun k : Fin 512 => bscore Q K r k))

/-- The new running sum of row `r`. -/
def stepL (Q : Fin 1024 → Fin 64 → EReal) (K : Fin 512 → Fin 64 → EReal) (m l : Fin 1024 → EReal) (r : Fin 1024) : EReal :=
  Ideal.exp (m r - stepM Q K m r) * l r + ∑ k : Fin 512, Ideal.exp (bscore Q K r k - stepM Q K m r)

/-- The new running weighted sum of row `r`, column `d`. -/
def stepAcc (Q : Fin 1024 → Fin 64 → EReal) (K : Fin 512 → Fin 64 → EReal) (Vb : Fin 512 → Fin 64 → EReal)
    (m : Fin 1024 → EReal) (acc : Fin 1024 → Fin 64 → EReal) (r : Fin 1024) (d : Fin 64) : EReal :=
  Ideal.exp (m r - stepM Q K m r) * acc r d + ∑ k : Fin 512, Ideal.exp (bscore Q K r k - stepM Q K m r) * Vb k d

end Attn

end
-- ==== Proof.LibOnlineSoftmax.lean ====
/-
  Online (streaming) softmax, over the extended reals.

  A softmax-weighted sum `(∑ i, exp (s i - c) * v i) / (∑ i, exp (s i - c))` of real scores
  `s` and real values `v` does not depend on the real shift `c`. A streaming evaluation
  walks the keys block by block and keeps a running shift `m`, a running denominator `l`
  and a running numerator `acc`:

      start   m = ⊥ (that is -∞),  l = 0,  acc = 0
      step    mnew = max m bm                     (bm a real number)
              a    = exp (m - mnew)
              l'   = a * l   + ∑ k, exp (s k - mnew)
              acc' = a * acc + ∑ k, exp (s k - mnew) * v k
              m'   = mnew
      result  acc / l

  This file proves, for ANY real shifts `mnew` (no property of the maximum is used), any
  number of blocks and any finite index sets:

  * the real-number facts: re-shifting a sum of exponentials (`rescale_sum_exp`,
    `rescale_sum_exp_mul`) and the shift invariance of the quotient
    (`softmax_shift_invariant`, `sum_div_eq_sum_weights`);
  * the extended-real wrappers, stated with the operations of the instance `Ideal`
    (`Ideal.exp`, `Ideal.div`, EReal's `+ - * max`): the coercion of a finite sum
    (`coe_sum`), the exponential of a difference (`exp_coe_sub_coe`, `exp_bot_sub_coe`),
    the maxima (`max_bot_coe`, `max_coe_coe`, `fold_max_coe`, `fold_max_bot_coe`), the quotient of coerced reals
    (`div_coe_coe`, `mul_recip_coe`), the first step from the empty state
    (`first_step_l`, `first_step_acc`), a later step (`later_step_l`, `later_step_acc`, and
    their one-index-type forms over a disjoint union), and the final quotient against the
    reference's normalise-then-sum form (`final_div`, `final_div_raw`);
  * the whole recurrence for any number of blocks (`run`, `run_succ`, `run_result`).
-/
import Idealize.ShloMosaic.PureOps.Ideal
import Idealize.ShloMosaic.PureOps.Ideal.Laws
import Mathlib.Analysis.SpecialFunctions.Exp
import Mathlib.Data.EReal.Operations
import Mathlib.Data.EReal.Inv
import Mathlib.Algebra.BigOperators.Field
import Mathlib.Tactic.FieldSimp
import Mathlib.Tactic.Ring

noncomputable section

namespace OnlineSoftmax

open Idealize.ShloMosaic
open scoped BigOperators

/-! ### Real-number facts -/

section RealFacts
variable {ι : Type*}

/-- Moving the shift of one exponential from `μ` to `c`. -/
theorem exp_rescale (x μ c : ℝ) : Real.exp (μ - c) * Real.exp (x - μ) = Real.exp (x - c) := by
  rw [← Real.exp_add]; congr 1; ring

/-- Moving the shift of a sum of exponentials from `μ` to `c`. -/
theorem rescale_sum_exp (t : Finset ι) (s : ι → ℝ) (μ c : ℝ) :
    Real.exp (μ - c) * ∑ i ∈ t, Real.exp (s i - μ) = ∑ i ∈ t, Real.exp (s i - c) := by
  rw [Finset.mul_sum]
  exact Finset.sum_congr rfl fun i _ => exp_rescale (s i) μ c

/-- Moving the shift of a weighted sum of exponentials from `μ` to `c`. -/
theorem rescale_sum_exp_mul (t : Finset ι) (s v : ι → ℝ) (μ c : ℝ) :
    Real.exp (μ - c) * ∑ i ∈ t, Real.exp (s i - μ) * v i = ∑ i ∈ t, Real.exp (s i - c) * v i := by
  rw [Finset.mul_sum]
  refine Finset.sum_congr rfl fun i _ => ?_
  rw [← mul_assoc, exp_rescale]

/-- A nonempty sum of exponentials is positive. -/
theorem sum_exp_pos {t : Finset ι} (ht : t.Nonempty) (s : ι → ℝ) (c : ℝ) :
    0 < ∑ i ∈ t, Real.exp (s i - c) :=
  Finset.sum_pos (fun i _ => Real.exp_pos _) ht

theorem sum_exp_ne_zero {t : Finset ι} (ht : t.Nonempty) (s : ι → ℝ) (c : ℝ) :
    ∑ i ∈ t, Real.exp (s i - c) ≠ 0 :=
  (sum_exp_pos ht s c).ne'

/-- The softmax-weighted sum does not depend on the shift. -/
theorem softmax_shift_invariant {t : Finset ι} (ht : t.Nonempty) (s v : ι → ℝ) (μ M : ℝ) :
    (∑ i ∈ t, Real.exp (s i - μ) * v i) / (∑ i ∈ t, Real.exp (s i - μ))
      = (∑ i ∈ t, Real.exp (s i - M) * v i) / (∑ i ∈ t, Real.exp (s i - M)) := by
  rw [← rescale_sum_exp t s M μ, ← rescale_sum_exp_mul t s v M μ]
  rw [mul_div_mul_left _ _ (Real.exp_pos _).ne']

/-- Dividing the weighted sum by the total is summing with the normalised weights. -/
theorem sum_div_eq_sum_weights (t : Finset ι) (s v : ι → ℝ) (M : ℝ) :
    (∑ i ∈ t, Real.exp (s i - M) * v i) / (∑ i ∈ t, Real.exp (s i - M))
      = ∑ i ∈ t, Real.exp (s i - M) / (∑ i' ∈ t, Real.exp (s i' - M)) * v i := by
  rw [Finset.sum_div]
  refine Finset.sum_congr rfl fun i _ => ?_
  rw [div_mul_eq_mul_div]

/-- The streaming quotient at shift `μ` is the reference's normalise-then-sum at shift `M`. -/
theorem softmax_final_real {t : Finset ι} (ht : t.Nonempty) (s v : ι → ℝ) (μ M : ℝ) :
    (∑ i ∈ t, Real.exp (s i - μ) * v i) / (∑ i ∈ t, Real.exp (s i - μ))
      = ∑ i ∈ t, Real.exp (s i - M) / (∑ i' ∈ t, Real.exp (s i' - M)) * v i := by
  rw [softmax_shift_invariant ht s v μ M, sum_div_eq_sum_weights]

end RealFacts

/-! ### Extended-real wrappers: coercions, exponentials, maxima -/

section Wrappers
variable {ι κ : Type*}

/-- The coercion of a finite real sum is the sum of the coercions. -/
theorem coe_sum (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- `max` against `-∞` is the identity. -/
theorem max_bot_coe (x : ℝ) : max (⊥ : EReal) (x : EReal) = (x : EReal) := max_bot_left _

theorem max_bot_left' (x : EReal) : max (⊥ : EReal) x = x := max_bot_left _

/-- The maximum of two coerced reals is the coerced maximum. -/
theorem max_coe_coe (x y : ℝ) : max (x : EReal) (y : EReal) = ((max x y : ℝ) : EReal) :=
  (EReal.coe_strictMono.monotone.map_max).symm

/-- A fold of `max` over coerced reals, from a coerced real, is a coerced real. -/
theorem fold_max_coe (t : Finset κ) (f : κ → ℝ) (b : ℝ) :
    t.fold max (b : EReal) (fun k => (f k : EReal)) = ((t.fold max b f : ℝ) : EReal) := by
  classical
  induction t using Finset.induction_on with
  | empty => simp
  | insert a t ha ih => rw [Finset.fold_insert ha, Finset.fold_insert ha, ih, max_coe_coe]

/-- A fold of `max` over coerced reals, from `-∞`, over a nonempty set, is a coerced real. -/
theorem fold_max_bot_coe {t : Finset κ} (ht : t.Nonempty) (f : κ → ℝ) :
    ∃ x : ℝ, t.fold max (⊥ : EReal) (fun k => (f k : EReal)) = (x : EReal) := by
  classical
  induction ht using Finset.Nonempty.cons_induction with
  | singleton a => exact ⟨f a, by simp⟩
  | cons a t ha _ ih =>
    obtain ⟨x, hx⟩ := ih
    exact ⟨max (f a) x, by rw [Finset.fold_cons, hx, max_coe_coe]⟩

/-- The exponential of a difference of coerced reals. -/
theorem exp_coe_sub_coe (x c : ℝ) :
    Ideal.exp ((x : EReal) - (c : EReal)) = ((Real.exp (x - c) : ℝ) : EReal) := by
  rw [← EReal.coe_sub, Ideal.exp_coe]

/-- `exp (-∞ - x) = 0`: the first step's rescaling factor. -/
theorem exp_bot_sub (x : EReal) : Ideal.exp ((⊥ : EReal) - x) = 0 := by
  rw [EReal.bot_sub, Ideal.exp_bot]

theorem exp_bot_sub_coe (c : ℝ) : Ideal.exp ((⊥ : EReal) - (c : EReal)) = 0 := exp_bot_sub _

/-- A block's sum of exponentials is a coerced real. -/
theorem sum_exp_coe (t : Finset ι) (s : ι → ℝ) (c : ℝ) :
    ∑ i ∈ t, Ideal.exp ((s i : EReal) - (c : EReal)) = ((∑ i ∈ t, Real.exp (s i - c) : ℝ) : EReal) := by
  rw [coe_sum]
  exact Finset.sum_congr rfl fun i _ => exp_coe_sub_coe _ _

/-- A block's weighted sum of exponentials is a coerced real. -/
theorem sum_exp_mul_coe (t : Finset ι) (s v : ι → ℝ) (c : ℝ) :
    ∑ i ∈ t, Ideal.exp ((s i : EReal) - (c : EReal)) * (v i : EReal)
      = ((∑ i ∈ t, Real.exp (s i - c) * v i : ℝ) : EReal) := by
  rw [coe_sum]
  refine Finset.sum_congr rfl fun i _ => ?_
  rw [exp_coe_sub_coe, EReal.coe_mul]

/-- The instance's quotient of coerced reals, off a zero divisor, is the coerced quotient. -/
theorem div_coe_coe (x : ℝ) {y : ℝ} (h : y ≠ 0) :
    Ideal.div (x : EReal) (y : EReal) = ((x / y : ℝ) : EReal) := by
  rw [Ideal.div_coe h, ← EReal.coe_mul, mul_one_div]

/-- A product with the instance's reciprocal of a nonzero real is the instance's quotient. -/
theorem mul_recip_coe (x : EReal) {y : ℝ} (h : y ≠ 0) :
    x * Ideal.div 1 (y : EReal) = Ideal.div x (y : EReal) := by
  rw [Ideal.div_coe h, Ideal.div_coe h, one_mul]

end Wrappers

/-! ### One step of the recurrence -/

section Steps
variable {ι κ : Type*}

/-- First step, denominator: from `m = -∞`, `l = 0`. -/
theorem first_step_l (t : Finset κ) (s : κ → ℝ) (mnew : ℝ) :
    Ideal.exp ((⊥ : EReal) - (mnew : EReal)) * (0 : EReal)
        + ∑ k ∈ t, Ideal.exp ((s k : EReal) - (mnew : EReal))
      = ((∑ k ∈ t, Real.exp (s k - mnew) : ℝ) : EReal) := by
  rw [exp_bot_sub_coe, mul_zero, zero_add, sum_exp_coe]

/-- First step, numerator: from `m = -∞`, `acc = 0`. -/
theorem first_step_acc (t : Finset κ) (s v : κ → ℝ) (mnew : ℝ) :
    Ideal.exp ((⊥ : EReal) - (mnew : EReal)) * (0 : EReal)
        + ∑ k ∈ t, Ideal.exp ((s k : EReal) - (mnew : EReal)) * (v k : EReal)
      = ((∑ k ∈ t, Real.exp (s k - mnew) * v k : ℝ) : EReal) := by
  rw [exp_bot_sub_coe, mul_zero, zero_add, sum_exp_mul_coe]

/-- Later step, denominator: the keys seen so far (`P`, at shift `μ`) and this block (`B`), at the new
    shift. -/
theorem later_step_l (P : Finset ι) (B : Finset κ) (sP : ι → ℝ) (sB : κ → ℝ) (μ mnew : ℝ) :
    Ideal.exp ((μ : EReal) - (mnew : EReal)) * ((∑ i ∈ P, Real.exp (sP i - μ) : ℝ) : EReal)
        + ∑ k ∈ B, Ideal.exp ((sB k : EReal) - (mnew : EReal))
      = ((∑ i ∈ P, Real.exp (sP i - mnew) + ∑ k ∈ B, Real.exp (sB k - mnew) : ℝ) : EReal) := by
  rw [exp_coe_sub_coe, sum_exp_coe, ← EReal.coe_mul, ← EReal.coe_add, rescale_sum_exp]

/-- Later step, numerator. -/
theorem later_step_acc (P : Finset ι) (B : Finset κ) (sP vP : ι → ℝ) (sB vB : κ → ℝ) (μ mnew : ℝ) :
    Ideal.exp ((μ : EReal) - (mnew : EReal)) * ((∑ i ∈ P, Real.exp (sP i - μ) * vP i : ℝ) : EReal)
        + ∑ k ∈ B, Ideal.exp ((sB k : EReal) - (mnew : EReal)) * (vB k : EReal)
      = ((∑ i ∈ P, Real.exp (sP i - mnew) * vP i + ∑ k ∈ B, Real.exp (sB k - mnew) * vB k : ℝ) : EReal) := by
  rw [exp_coe_sub_coe, sum_exp_mul_coe, ← EReal.coe_mul, ← EReal.coe_add, rescale_sum_exp_mul]

/-- Later step, denominator, in one index type: seen keys and block are disjoint sets. -/
theorem later_step_l_union [DecidableEq ι] {P B : Finset ι} (h : Disjoint P B) (s : ι → ℝ) (μ mnew : ℝ) :
    Ideal.exp ((μ : EReal) - (mnew : EReal)) * ((∑ i ∈ P, Real.exp (s i - μ) : ℝ) : EReal)
        + ∑ k ∈ B, Ideal.exp ((s k : EReal) - (mnew : EReal))
      = ((∑ i ∈ P ∪ B, Real.exp (s i - mnew) : ℝ) : EReal) := by
  rw [later_step_l, Finset.sum_union h]

/-- Later step, numerator, in one index type. -/
theorem later_step_acc_union [DecidableEq ι] {P B : Finset ι} (h : Disjoint P B) (s v : ι → ℝ) (μ mnew : ℝ) :
    Ideal.exp ((μ : EReal) - (mnew : EReal)) * ((∑ i ∈ P, Real.exp (s i - μ) * v i : ℝ) : EReal)
        + ∑ k ∈ B, Ideal.exp ((s k : EReal) - (mnew : EReal)) * (v k : EReal)
      = ((∑ i ∈ P ∪ B, Real.exp (s i - mnew) * v i : ℝ) : EReal) := by
  rw [later_step_acc, Finset.sum_union h]

/-- Later step, denominator, over a sum type: seen keys `ι` and block keys `κ`. -/
theorem later_step_l_sum [Fintype ι] [Fintype κ] (sP : ι → ℝ) (sB : κ → ℝ) (μ mnew : ℝ) :
    Ideal.exp ((μ : EReal) - (mnew : EReal)) * ((∑ i, Real.exp (sP i - μ) : ℝ) : EReal)
        + ∑ k, Ideal.exp ((sB k : EReal) - (mnew : EReal))
      = ((∑ x : ι ⊕ κ, Real.exp (Sum.elim sP sB x - mnew) : ℝ) : EReal) := by
  rw [later_step_l, Fintype.sum_sum_type]; rfl

/-- Later step, numerator, over a sum type. -/
theorem later_step_acc_sum [Fintype ι] [Fintype κ] (sP vP : ι → ℝ) (sB vB : κ → ℝ) (μ mnew : ℝ) :
    Ideal.exp ((μ : EReal) - (mnew : EReal)) * ((∑ i, Real.exp (sP i - μ) * vP i : ℝ) : EReal)
        + ∑ k, Ideal.exp ((sB k : EReal) - (mnew : EReal)) * (vB k : EReal)
      = ((∑ x : ι ⊕ κ, Real.exp (Sum.elim sP sB x - mnew) * Sum.elim vP vB x : ℝ) : EReal) := by
  rw [later_step_acc, Fintype.sum_sum_type]; rfl

end Steps

/-! ### The final quotient against the reference's normalise-then-sum -/

section Final
variable {ι : Type*}

/-- The streaming quotient at shift `μ` is a coerced real: the softmax-weighted sum at any shift `M`. -/
theorem final_div_coe {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = (((∑ i ∈ t, Real.exp (s i - M) * v i) / (∑ i ∈ t, Real.exp (s i - M)) : ℝ) : EReal) := by
  rw [div_coe_coe _ (sum_exp_ne_zero ht s μ), softmax_shift_invariant ht s v μ M]

/-- The streaming quotient at shift `μ` is the reference's sum of normalised weights times values at
    shift `M`, the weights and the total already coerced reals. -/
theorem final_div {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = ∑ i ∈ t, Ideal.div ((Real.exp (s i - M) : ℝ) : EReal) ((∑ i' ∈ t, Real.exp (s i' - M) : ℝ) : EReal)
          * (v i : EReal) := by
  rw [div_coe_coe _ (sum_exp_ne_zero ht s μ), softmax_final_real ht s v μ M, coe_sum]
  refine Finset.sum_congr rfl fun i _ => ?_
  rw [div_coe_coe _ (sum_exp_ne_zero ht s M), EReal.coe_mul]

/-- The same with the reference's side written with the instance's own operations. -/
theorem final_div_raw {t : Finset ι} (ht : t.Nonempty) (s v : ι → ℝ) (μ M : ℝ) :
    Ideal.div ((∑ i ∈ t, Real.exp (s i - μ) * v i : ℝ) : EReal) ((∑ i ∈ t, Real.exp (s i - μ) : ℝ) : EReal)
      = ∑ i ∈ t, Ideal.div (Ideal.exp ((s i : EReal) - (M : EReal)))
            (∑ i' ∈ t, Ideal.exp ((s i' : EReal) - (M : EReal))) * (v i : EReal) := by
  rw [final_div ht s v μ M, sum_exp_coe]
  exact Finset.sum_congr rfl fun i _ => by rw [exp_coe_sub_coe]

end Final

/-! ### The whole recurrence, for any number of blocks -/

section Run
variable {α κ : Type*}

/-- Moving the shift of a sum over blocks of sums of exponentials. -/
theorem rescale_sum_sum_exp (R : Finset α) (B : α → Finset κ) (s : α → κ → ℝ) (μ c : ℝ) :
    Real.exp (μ - c) * ∑ j ∈ R, ∑ k ∈ B j, Real.exp (s j k - μ)
      = ∑ j ∈ R, ∑ k ∈ B j, Real.exp (s j k - c) := by
  rw [Finset.mul_sum]
  exact Finset.sum_congr rfl fun j _ => rescale_sum_exp (B j) (s j) μ c

/-- Moving the shift of a sum over blocks of weighted sums of exponentials. -/
theorem rescale_sum_sum_exp_mul (R : Finset α) (B : α → Finset κ) (s v : α → κ → ℝ) (μ c : ℝ) :
    Real.exp (μ - c) * ∑ j ∈ R, ∑ k ∈ B j, Real.exp (s j k - μ) * v j k
      = ∑ j ∈ R, ∑ k ∈ B j, Real.exp (s j k - c) * v j k := by
  rw [Finset.mul_sum]
  exact Finset.sum_congr rfl fun j _ => rescale_sum_exp_mul (B j) (s j) (v j) μ c

/-- Later step, denominator, blocks counted by `ℕ`: blocks `0 … n-1` seen, block `n` joins. -/
theorem later_step_l_range (B : ℕ → Finset κ) (s : ℕ → κ → ℝ) (n : ℕ) (μ mnew : ℝ) :
    Ideal.exp ((μ : EReal) - (mnew : EReal))
          * ((∑ j ∈ Finset.range n, ∑ k ∈ B j, Real.exp (s j k - μ) : ℝ) : EReal)
        + ∑ k ∈ B n, Ideal.exp ((s n k : EReal) - (mnew : EReal))
      = ((∑ j ∈ Finset.range (n + 1), ∑ k ∈ B j, Real.exp (s j k - mnew) : ℝ) : EReal) := by
  rw [exp_coe_sub_coe, sum_exp_coe, ← EReal.coe_mul, ← EReal.coe_add,
    rescale_sum_sum_exp (Finset.range n) B s μ mnew, Finset.sum_range_succ]

/-- Later step, numerator, blocks counted by `ℕ`. -/
theorem later_step_acc_range (B : ℕ → Finset κ) (s v : ℕ → κ → ℝ) (n : ℕ) (μ mnew : ℝ) :
    Ideal.exp ((μ : EReal) - (mnew : EReal))
          * ((∑ j ∈ Finset.range n, ∑ k ∈ B j, Real.exp (s j k - μ) * v j k : ℝ) : EReal)
        + ∑ k ∈ B n, Ideal.exp ((s n k : EReal) - (mnew : EReal)) * (v n k : EReal)
      = ((∑ j ∈ Finset.range (n + 1), ∑ k ∈ B j, Real.exp (s j k - mnew) * v j k : ℝ) : EReal) := by
  rw [exp_coe_sub_coe, sum_exp_mul_coe, ← EReal.coe_mul, ← EReal.coe_add,
    rescale_sum_sum_exp_mul (Finset.range n) B s v μ mnew, Finset.sum_range_succ]

/-- The state `(m, l, acc)` after `n` blocks: block `j` has keys `B j`, real scores `s j` and real
    values `v j`, and the real number `bm j` joins the running shift by `max`. -/
def run (B : ℕ → Finset κ) (s v : ℕ → κ → ℝ) (bm : ℕ → ℝ) : ℕ → EReal × EReal × EReal
  | 0 => (⊥, 0, 0)
  | n + 1 =>
    (max (run B s v bm n).1 (bm n : EReal),
     Ideal.exp ((run B s v bm n).1 - max (run B s v bm n).1 (bm n : EReal)) * (run B s v bm n).2.1
       + ∑ k ∈ B n, Ideal.exp ((s n k : EReal) - max (run B s v bm n).1 (bm n : EReal)),
     Ideal.exp ((run B s v bm n).1 - max (run B s v bm n).1 (bm n : EReal)) * (run B s v bm n).2.2
       + ∑ k ∈ B n, Ideal.exp ((s n k : EReal) - max (run B s v bm n).1 (bm n : EReal)) * (v n k : EReal))

theorem run_zero (B : ℕ → Finset κ) (s v : ℕ → κ → ℝ) (bm : ℕ → ℝ) : run B s v bm 0 = (⊥, 0, 0) := rfl

theorem run_succ_eq (B : ℕ → Finset κ) (s v : ℕ → κ → ℝ) (bm : ℕ → ℝ) (n : ℕ) :
    run B s v bm (n + 1) =
      (max (run B s v bm n).1 (bm n : EReal),
       Ideal.exp ((run B s v bm n).1 - max (run B s v bm n).1 (bm n : EReal)) * (run B s v bm n).2.1
         + ∑ k ∈ B n, Ideal.exp ((s n k : EReal) - max (run B s v bm n).1 (bm n : EReal)),
       Ideal.exp ((run B s v bm n).1 - max (run B s v bm n).1 (bm n : EReal)) * (run B s v bm n).2.2
         + ∑ k ∈ B n, Ideal.exp ((s n k : EReal) - max (run B s v bm n).1 (bm n : EReal)) * (v n k : EReal)) :=
  rfl

/-- After at least one block the state is three coerced reals: a real shift `μ`, and the sums of
    exponentials and of weighted exponentials over every key seen, at that shift. -/
theorem run_succ (B : ℕ → Finset κ) (s v : ℕ → κ → ℝ) (bm : ℕ → ℝ) (n : ℕ) :
    ∃ μ : ℝ, run B s v bm (n + 1) =
      ((μ : EReal),
       ((∑ j ∈ Finset.range (n + 1), ∑ k ∈ B j, Real.exp (s j k - μ) : ℝ) : EReal),
       ((∑ j ∈ Finset.range (n + 1), ∑ k ∈ B j, Real.exp (s j k - μ) * v j k : ℝ) : EReal)) := by
  induction n with
  | zero =>
    refine ⟨bm 0, ?_⟩
    rw [run_succ_eq, run_zero]
    dsimp only
    rw [max_bot_coe, first_step_l, first_step_acc, Finset.range_one, Finset.sum_singleton,
      Finset.sum_singleton]
  | succ n ih =>
    obtain ⟨μ, hμ⟩ := ih
    refine ⟨max μ (bm (n + 1)), ?_⟩
    rw [run_succ_eq, hμ]
    dsimp only
    rw [max_coe_coe, later_step_l_range, later_step_acc_range]

/-- The result of the recurrence after at least one block, some block nonempty: the softmax-weighted sum over
    every key, at any real shift `M`. -/
theorem run_result (B : ℕ → Finset κ) (s v : ℕ → κ → ℝ) (bm : ℕ → ℝ) (n : ℕ)
    (hne : ∃ j ∈ Finset.range (n + 1), (B j).Nonempty) (M : ℝ) :
    Ideal.div (run B s v bm (n + 1)).2.2 (run B s v bm (n + 1)).2.1
      = (((∑ j ∈ Finset.range (n + 1), ∑ k ∈ B j, Real.exp (s j k - M) * v j k)
            / (∑ j ∈ Finset.range (n + 1), ∑ k ∈ B j, Real.exp (s j k - M)) : ℝ) : EReal) := by
  obtain ⟨μ, hμ⟩ := run_succ B s v bm n
  rw [hμ]
  dsimp only
  have ht : ((Finset.range (n + 1)).sigma B).Nonempty := Finset.sigma_nonempty.mpr hne
  have h := final_div_coe ht (fun x : (_ : ℕ) × κ => s x.1 x.2) (fun x => v x.1 x.2) μ M
  simp only [Finset.sum_sigma']
  exact h

end Run

end OnlineSoftmax
-- ==== Proof.AttendMath.lean ====
/-
  The running softmax over four key blocks is softmax attention.

  For one query block (1024 rows) and key/value blocks numbered by the naturals, `iter` is the state
  (running maximum, running sum, running weighted sum) after a number of key blocks, from (-∞, 0, 0).
  With real entries, after at least one block the state is a real shift and the two sums of exponentials
  over every key seen, at that shift; after four blocks of 512 keys the quotient is the softmax-weighted
  average over the 2048 keys.
-/
import proofs.«130128_j25795573580066_2_alg».proof.Proof.AttnStep
import proofs.«130128_j25795573580066_2_alg».proof.Proof.LibOnlineSoftmax

noncomputable section

namespace Attn

open Idealize.ShloMosaic
open scoped BigOperators

/-- The state after `j` key blocks: block `i` has keys `K i` and values `V i`. -/
def iter (Q : Fin 1024 → Fin 64 → EReal) (K V : ℕ → Fin 512 → Fin 64 → EReal) :
    ℕ → (Fin 1024 → EReal) × (Fin 1024 → EReal) × (Fin 1024 → Fin 64 → EReal)
  | 0 => (fun _ => ⊥, fun _ => 0, fun _ _ => 0)
  | j + 1 =>
    (stepM Q (K j) (iter Q K V j).1,
     stepL Q (K j) (iter Q K V j).1 (iter Q K V j).2.1,
     stepAcc Q (K j) (V j) (iter Q K V j).1 (iter Q K V j).2.2)

theorem iter_zero (Q : Fin 1024 → Fin 64 → EReal) (K V : ℕ → Fin 512 → Fin 64 → EReal) :
    iter Q K V 0 = (fun _ => ⊥, fun _ => 0, fun _ _ => 0) := rfl

theorem iter_succ (Q : Fin 1024 → Fin 64 → EReal) (K V : ℕ → Fin 512 → Fin 64 → EReal) (j : ℕ) :
    iter Q K V (j + 1) =
      (stepM Q (K j) (iter Q K V j).1,
       stepL Q (K j) (iter Q K V j).1 (iter Q K V j).2.1,
       stepAcc Q (K j) (V j) (iter Q K V j).1 (iter Q K V j).2.2) := rfl

/-- A block score of real entries is a coerced real. -/
theorem bscore_coe (Qr : Fin 1024 → Fin 64 → ℝ) (Kr : Fin 512 → Fin 64 → ℝ) (r : Fin 1024) (k : Fin 512) :
    bscore (fun r d => (Qr r d : EReal)) (fun k d => (Kr k d : EReal)) r k
      = (((∑ d : Fin 64, Qr r d * Kr k d) * (1 / 8 : ℝ) : ℝ) : EReal) := by
  unfold bscore
  rw [EReal.coe_mul, OnlineSoftmax.coe_sum]
  congr 1

/-- The real score of query row `r` against key `k` of block `j`. -/
def rscore (Qr : Fin 1024 → Fin 64 → ℝ) (Kr : ℕ → Fin 512 → Fin 64 → ℝ) (r : Fin 1024) (j : ℕ) (k : Fin 512) : ℝ :=
  (∑ d : Fin 64, Qr r d * Kr j k d) * (1 / 8 : ℝ)

section OneRow
variable (Qr : Fin 1024 → Fin 64 → ℝ) (Kr Vr : ℕ → Fin 512 → Fin 64 → ℝ)

/-- Row `r`, column `d` of the state is the scalar recurrence over the blocks' real scores and values. -/
theorem iter_eq_run (r : Fin 1024) (d : Fin 64) (bm : ℕ → ℝ)
    (hbm : ∀ j, Finset.univ.fold max (⊥ : EReal) (fun k : Fin 512 => ((rscore Qr Kr r j k : ℝ) : EReal)) = (bm j : EReal)) :
    ∀ j : ℕ,
      ((iter (fun r d => (Qr r d : EReal)) (fun j k d => (Kr j k d : EReal)) (fun j k d => (Vr j k d : EReal)) j).1 r,
       (iter (fun r d => (Qr r d : EReal)) (fun j k d => (Kr j k d : EReal)) (fun j k d => (Vr j k d : EReal)) j).2.1 r,
       (iter (fun r d => (Qr r d : EReal)) (fun j k d => (Kr j k d : EReal)) (fun j k d => (Vr j k d : EReal)) j).2.2 r d)
        = OnlineSoftmax.run (fun _ => (Finset.univ : Finset (Fin 512))) (rscore Qr Kr r) (fun j k => Vr j k d) bm j
  | 0 => rfl
  | j + 1 => by
    have ih := iter_eq_run r d bm hbm j
    rw [OnlineSoftmax.run_succ_eq, ← ih, iter_succ]
    dsimp only
    have hs : ∀ k : Fin 512, bscore (fun r d => (Qr r d : EReal)) (fun k d => (Kr j k d : EReal)) r k = ((rscore Qr Kr r j k : ℝ) : EReal) :=
      fun k => bscore_coe Qr (Kr j) r k
    have hM : ∀ m : Fin 1024 → EReal,
        stepM (fun r d => (Qr r d : EReal)) (fun k d => (Kr j k d : EReal)) m r = max (m r) (bm j : EReal) := by
      intro m; unfold stepM; simp only [hs]; rw [hbm]
    unfold stepL stepAcc
    simp only [hM, hs]

end OneRow

/-- A sum over four blocks of 512 is the sum over the 2048 keys, key `t` in block `t / 512` at place `t % 512`. -/
theorem sum_blocks (f : ℕ → Fin 512 → ℝ) :
    ∑ j ∈ Finset.range 4, ∑ k : Fin 512, f j k
      = ∑ t : Fin 2048, f (t.val / 512) ⟨t.val % 512, Nat.mod_lt _ (by decide)⟩ := by
  rw [Finset.sum_range (fun j => ∑ k : Fin 512, f j k), ← Fintype.sum_prod_type']
  exact (Fintype.sum_equiv (finProdFinEquiv (m := 4) (n := 512)).symm _ _ (fun t => rfl)).symm

section Result
variable (Qr : Fin 1024 → Fin 64 → ℝ) (Kr Vr : ℕ → Fin 512 → Fin 64 → ℝ)

/-- After four blocks of real entries, the quotient of row `r`, column `d` is the softmax-weighted average of the
    2048 values, the weights shifted by ANY real `M`. -/
theorem iter_four_div (r : Fin 1024) (d : Fin 64) (M : ℝ) :
    Ideal.div
        ((iter (fun r d => (Qr r d : EReal)) (fun j k d => (Kr j k d : EReal)) (fun j k d => (Vr j k d : EReal)) 4).2.2 r d)
        ((iter (fun r d => (Qr r d : EReal)) (fun j k d => (Kr j k d : EReal)) (fun j k d => (Vr j k d : EReal)) 4).2.1 r)
      = ∑ t : Fin 2048,
          Ideal.div (Ideal.exp (((rscore Qr Kr r (t.val / 512) ⟨t.val % 512, Nat.mod_lt _ (by decide)⟩ : ℝ) : EReal) - (M : EReal)))
            (∑ t' : Fin 2048, Ideal.exp (((rscore Qr Kr r (t'.val / 512) ⟨t'.val % 512, Nat.mod_lt _ (by decide)⟩ : ℝ) : EReal) - (M : EReal)))
            * ((Vr (t.val / 512) ⟨t.val % 512, Nat.mod_lt _ (by decide)⟩ d : ℝ) : EReal) := by
  have hex : ∀ j : ℕ, ∃ x : ℝ, Finset.univ.fold max (⊥ : EReal) (fun k : Fin 512 => ((rscore Qr Kr r j k : ℝ) : EReal)) = (x : EReal) :=
    fun j => OnlineSoftmax.fold_max_bot_coe Finset.univ_nonempty _
  choose bm hbm using hex
  have h := iter_eq_run Qr Kr Vr r d bm hbm 4
  obtain ⟨μ, hμ⟩ := OnlineSoftmax.run_succ (fun _ => (Finset.univ : Finset (Fin 512))) (rscore Qr Kr r) (fun j k => Vr j k d) bm 3
  rw [hμ] at h
  have h1 := congrArg (fun p : EReal × EReal × EReal => p.2.1) h
  have h2 := congrArg (fun p : EReal × EReal × EReal => p.2.2) h
  dsimp only at h1 h2
  rw [h1, h2, sum_blocks (fun j k => Real.exp (rscore Qr Kr r j k - μ) * Vr j k d),
    sum_blocks (fun j k => Real.exp (rscore Qr Kr r j k - μ))]
  exact OnlineSoftmax.final_div_raw Finset.univ_nonempty
    (fun t : Fin 2048 => rscore Qr Kr r (t.val / 512) ⟨t.val % 512, Nat.mod_lt _ (by decide)⟩)
    (fun t : Fin 2048 => Vr (t.val / 512) ⟨t.val % 512, Nat.mod_lt _ (by decide)⟩ d) μ M

end Result

/-! ### The blocks of the three arrays -/

/-- Query block `qi` (1024 rows) of pair `bh`. -/
def qblk (q : Fin 32 → Fin 2048 → Fin 64 → EReal) (bh : Fin 32) (qi : Fin 2) : Fin 1024 → Fin 64 → EReal :=
  fun r d => q bh ⟨qi.val * 1024 + r.val, by have := qi.isLt; have := r.isLt; omega⟩ d

/-- Key (or value) block `j % 4` (512 rows) of pair `bh`. -/
def kblk (k : Fin 32 → Fin 2048 → Fin 64 → EReal) (bh : Fin 32) (j : ℕ) : Fin 512 → Fin 64 → EReal :=
  fun kk d => k bh ⟨(j % 4) * 512 + kk.val, by have := Nat.mod_lt j (show 0 < 4 by decide); have := kk.isLt; omega⟩ d

/-- SOFTMAX ATTENTION IS THE RUNNING SOFTMAX OVER THE FOUR KEY BLOCKS: with real queries, keys and values, row
    `qi * 1024 + r` of pair `bh` of the reference is the quotient of the state after four blocks. -/
theorem attend_eq_iter (q k v : Fin 32 → Fin 2048 → Fin 64 → EReal)
    (hq : ∀ bh s d, ∃ x : ℝ, q bh s d = (x : EReal)) (hk : ∀ bh s d, ∃ x : ℝ, k bh s d = (x : EReal))
    (hv : ∀ bh s d, ∃ x : ℝ, v bh s d = (x : EReal))
    (bh : Fin 32) (qi : Fin 2) (r : Fin 1024) (d : Fin 64) (s : Fin 2048) (hs : s.val = qi.val * 1024 + r.val) :
    attend q k v bh s d
      = Ideal.div ((iter (qblk q bh qi) (kblk k bh) (kblk v bh) 4).2.2 r d)
          ((iter (qblk q bh qi) (kblk k bh) (kblk v bh) 4).2.1 r) := by
  choose qr hqr using hq
  choose kr hkr using hk
  choose vr hvr using hv
  have hlt : qi.val * 1024 + r.val < 2048 := by have := qi.isLt; have := r.isLt; omega
  obtain rfl : s = ⟨qi.val * 1024 + r.val, hlt⟩ := Fin.ext hs
  have eQ : qblk q bh qi = fun r d => ((qr bh ⟨qi.val * 1024 + r.val, by have := qi.isLt; have := r.isLt; omega⟩ d : ℝ) : EReal) := by
    funext r d; exact hqr _ _ _
  have eK : kblk k bh = fun j kk d => ((kr bh ⟨(j % 4) * 512 + kk.val, by have := Nat.mod_lt j (show 0 < 4 by decide); have := kk.isLt; omega⟩ d : ℝ) : EReal) := by
    funext j kk d; exact hkr _ _ _
  have eV : kblk v bh = fun j kk d => ((vr bh ⟨(j % 4) * 512 + kk.val, by have := Nat.mod_lt j (show 0 < 4 by decide); have := kk.isLt; omega⟩ d : ℝ) : EReal) := by
    funext j kk d; exact hvr _ _ _
  -- the key row of place `t % 512` of block `t / 512` is key row `t`
  have ht : ∀ t : Fin 2048, (⟨((t.val / 512) % 4) * 512 + t.val % 512, by have := t.isLt; omega⟩ : Fin 2048) = t :=
    fun t => Fin.ext (by have := t.isLt; show ((t.val / 512) % 4) * 512 + t.val % 512 = t.val; omega)
  -- every score is the coerced real score
  have hsc : ∀ t : Fin 2048, score q k bh ⟨qi.val * 1024 + r.val, by have := qi.isLt; have := r.isLt; omega⟩ t
      = ((rscore (fun r d => qr bh ⟨qi.val * 1024 + r.val, by have := qi.isLt; have := r.isLt; omega⟩ d)
          (fun j kk d => kr bh ⟨(j % 4) * 512 + kk.val, by have := Nat.mod_lt j (show 0 < 4 by decide); have := kk.isLt; omega⟩ d)
          r (t.val / 512) ⟨t.val % 512, Nat.mod_lt _ (by decide)⟩ : ℝ) : EReal) := by
    intro t
    unfold score rscore
    rw [EReal.coe_mul, OnlineSoftmax.coe_sum]
    congr 1
    refine Finset.sum_congr rfl fun d _ => ?_
    rw [EReal.coe_mul, hqr, hkr]
    dsimp only
    rw [ht t]
  -- so the row's largest score is a coerced real
  obtain ⟨M, hM⟩ : ∃ M : ℝ, rowMax q k bh ⟨qi.val * 1024 + r.val, by have := qi.isLt; have := r.isLt; omega⟩ = (M : EReal) := by
    unfold rowMax
    simp only [hsc]
    exact OnlineSoftmax.fold_max_bot_coe Finset.univ_nonempty _
  rw [eQ, eK, eV, iter_four_div _ _ _ r d M]
  unfold attend
  dsimp only
  rw [hM]
  simp only [hsc]
  refine Finset.sum_congr rfl fun t _ => ?_
  rw [hvr bh t d]
  congr 3
  exact (ht t).symm

end Attn

end
-- ==== Proof.ValAttnBlocks.lean ====
/-
  Region 3 (attention): the windows' blocks as rows of their arrays, and the output array from its blocks.

  The grid is 32 (batch, head) pairs × 2 query blocks of 1024 rows × 4 key blocks of 512 rows, the key block
  innermost: position `t` works on pair `t / 8`, query block `(t / 4) % 2`, key block `t % 4`. The query window's
  block at `t` is rows `1024 · ((t / 4) % 2) …` of the pair's queries; the key and value windows' blocks are rows
  `512 · (t % 4) …` of the pair's keys and values; the output block, the query block's rows of the pair's output,
  is written back at key block 3 only. Those write-backs tile the output array, so the array ends holding any
  function that agrees, block by block, with what the key-block-3 points leave.
-/
import proofs.«130128_j25795573580066_2_alg».proof.Proof.Region3
import Idealize.ShloMosaic.Lib.Pipeline.Value
import Idealize.ShloMosaic.Lib.ValueIdx

set_option maxRecDepth 16384

noncomputable section

namespace Cert.KernelIdeal.Value3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The (batch, head) pair position `t` works on. -/
abbrev pairOf (t : Fin cfg3.N) : Fin 32 := ⟨t.val / 8, by have := t.isLt; have hN : cfg3.N = 256 := N_3; omega⟩
/-- Row `r` of position `t`'s query block, as a row of the pair's 2048. -/
abbrev qrow (t : Fin cfg3.N) (r : Fin 1024) : Fin 2048 := ⟨((t.val / 4) % 2) * 1024 + r.val, by have := r.isLt; omega⟩
/-- Row `k` of position `t`'s key block, as a row of the pair's 2048. -/
abbrev krow (t : Fin cfg3.N) (k : Fin 512) : Fin 2048 := ⟨(t.val % 4) * 512 + k.val, by have := k.isLt; omega⟩

/-- The printed index maps, decided over the 256 grid positions: every window's block index in closed form. -/
theorem idx_facts3 : ∀ t : Fin cfg3.N,
    win3_0.index t (0 : Fin 3) = t.val / 8 ∧ win3_0.index t (1 : Fin 3) = (t.val / 4) % 2 ∧ win3_0.index t (2 : Fin 3) = 0
    ∧ win3_1.index t (0 : Fin 3) = t.val / 8 ∧ win3_1.index t (1 : Fin 3) = t.val % 4 ∧ win3_1.index t (2 : Fin 3) = 0
    ∧ win3_2.index t (0 : Fin 3) = t.val / 8 ∧ win3_2.index t (1 : Fin 3) = t.val % 4 ∧ win3_2.index t (2 : Fin 3) = 0
    ∧ win3_3.index t (0 : Fin 3) = t.val / 8 ∧ win3_3.index t (1 : Fin 3) = (t.val / 4) % 2 ∧ win3_3.index t (2 : Fin 3) = 0 :=
  (by decide +kernel : ∀ t : Fin grid3.N, _)

/-- The query block at position `t`: the query block's rows of the pair's queries. -/
theorem iblk3_0_apply (c : Dev nD) (t : Fin cfg3.N) (r : Fin 1024) (d : Fin 64) :
    (Frame.iblk3 (F := Ideal) V c 0 t : S1x1024x64.Idx → EReal) (ix3 (0 : Fin 1) r d)
      = (V c main_v2 : S32x2048x64.Idx → EReal) (ix3 (pairOf t) (qrow t r) d) := by
  obtain ⟨e0, e1, e2, -⟩ := idx_facts3 t
  unfold Frame.iblk3
  rw [View.read_apply]
  show V c main_v2 _ = V c main_v2 _
  congr 1
  funext a
  apply Fin.ext
  match a with
  | ⟨0, _⟩ => show win3_0.index t (0 : Fin 3) * 1 + 1 * 0 = t.val / 8; omega
  | ⟨1, _⟩ => show win3_0.index t (1 : Fin 3) * 1024 + 1 * r.val = ((t.val / 4) % 2) * 1024 + r.val; omega
  | ⟨2, _⟩ => show win3_0.index t (2 : Fin 3) * 64 + 1 * d.val = d.val; omega

/-- The key block at position `t`: the key block's rows of the pair's keys. -/
theorem iblk3_1_apply (c : Dev nD) (t : Fin cfg3.N) (k : Fin 512) (d : Fin 64) :
    (Frame.iblk3 (F := Ideal) V c 1 t : S1x512x64.Idx → EReal) (ix3 (0 : Fin 1) k d)
      = (V c main_v5 : S32x2048x64.Idx → EReal) (ix3 (pairOf t) (krow t k) d) := by
  obtain ⟨-, -, -, e0, e1, e2, -⟩ := idx_facts3 t
  unfold Frame.iblk3
  rw [View.read_apply]
  show V c main_v5 _ = V c main_v5 _
  congr 1
  funext a
  apply Fin.ext
  match a with
  | ⟨0, _⟩ => show win3_1.index t (0 : Fin 3) * 1 + 1 * 0 = t.val / 8; omega
  | ⟨1, _⟩ => show win3_1.index t (1 : Fin 3) * 512 + 1 * k.val = (t.val % 4) * 512 + k.val; omega
  | ⟨2, _⟩ => show win3_1.index t (2 : Fin 3) * 64 + 1 * d.val = d.val; omega

/-- The value block at position `t`: the key block's rows of the pair's values. -/
theorem iblk3_2_apply (c : Dev nD) (t : Fin cfg3.N) (k : Fin 512) (d : Fin 64) :
    (Frame.iblk3 (F := Ideal) V c 2 t : S1x512x64.Idx → EReal) (ix3 (0 : Fin 1) k d)
      = (V c main_v8 : S32x2048x64.Idx → EReal) (ix3 (pairOf t) (krow t k) d) := by
  obtain ⟨-, -, -, -, -, -, e0, e1, e2, -⟩ := idx_facts3 t
  unfold Frame.iblk3
  rw [View.read_apply]
  show V c main_v8 _ = V c main_v8 _
  congr 1
  funext a
  apply Fin.ext
  match a with
  | ⟨0, _⟩ => show win3_2.index t (0 : Fin 3) * 1 + 1 * 0 = t.val / 8; omega
  | ⟨1, _⟩ => show win3_2.index t (1 : Fin 3) * 512 + 1 * k.val = (t.val % 4) * 512 + k.val; omega
  | ⟨2, _⟩ => show win3_2.index t (2 : Fin 3) * 64 + 1 * d.val = d.val; omega

/-- What a key-block-3 position leaves in its output block at `j` is `G` at the array index under `j`. -/
theorem point3_eq (c : Dev nD) (G : S32x2048x64.Idx → EReal)
    (hpt : ∀ t : Fin cfg3.N, t.val % 4 = 3 → ∀ (r : Fin 1024) (d : Fin 64),
      ((Frame.outsAt3 (F := Ideal) V c t.val t.isLt).1 : S1x1024x64.Idx → EReal) (ix3 (0 : Fin 1) r d) = G (ix3 (pairOf t) (qrow t r) d))
    (t : Fin cfg3.N) (h3 : t.val % 4 = 3) (j : S1x1024x64.Idx) (i : S32x2048x64.Idx)
    (hi0 : (i 0).val = t.val / 8) (hi1 : (i 1).val = ((t.val / 4) % 2) * 1024 + (j 1).val) (hi2 : (i 2).val = (j 2).val) :
    ((Frame.outsAt3 (F := Ideal) V c t.val t.isLt).1 : S1x1024x64.Idx → EReal) j = G i := by
  obtain ⟨j0, r, d, rfl⟩ : ∃ (j0 : Fin 1) (r : Fin 1024) (d : Fin 64), j = ix3 j0 r d := ⟨j 0, j 1, j 2, eq_ix3 j⟩
  obtain rfl : j0 = 0 := Subsingleton.elim _ _
  refine (hpt t h3 r d).trans (congrArg G ?_)
  funext a
  apply Fin.ext
  match a with
  | ⟨0, _⟩ => exact hi0.symm
  | ⟨1, _⟩ => exact hi1.symm
  | ⟨2, _⟩ => exact hi2.symm

/-- What a key-block-3 position writes back is its block of `G`. -/
theorem flushed3_eq (c : Dev nD) (G : S32x2048x64.Idx → EReal)
    (hpt : ∀ t : Fin cfg3.N, t.val % 4 = 3 → ∀ (r : Fin 1024) (d : Fin 64),
      ((Frame.outsAt3 (F := Ideal) V c t.val t.isLt).1 : S1x1024x64.Idx → EReal) (ix3 (0 : Fin 1) r d) = G (ix3 (pairOf t) (qrow t r) d))
    (t : Fin cfg3.N) (h3 : t.val % 4 = 3) :
    (Frame.dat3 (F := Ideal) V c).flushed 3 t = ((cfg3.win 3).blk t).view.read (Elt Ideal) G := by
  show (cfg3.win 3).cut (grid3.coords t) ((Frame.dat3 (F := Ideal) V c).after 3 t) = _
  rw [Frame.after3_3]
  obtain ⟨-, -, -, -, -, -, -, -, -, o0, o1, o2⟩ := idx_facts3 t
  funext j
  show ((Frame.outsAt3 (F := Ideal) V c t.val t.isLt).1 : S1x1024x64.Idx → EReal) j = G (((cfg3.win 3).blk t).view.emb j)
  have hj0 : (j 0).val < 1 := (j 0).isLt
  refine point3_eq V c G hpt t h3 j _ ?_ ?_ ?_
  · show win3_3.index t (0 : Fin 3) * 1 + 1 * (j 0).val = t.val / 8; omega
  · show win3_3.index t (1 : Fin 3) * 1024 + 1 * (j 1).val = ((t.val / 4) % 2) * 1024 + (j 1).val; omega
  · show win3_3.index t (2 : Fin 3) * 64 + 1 * (j 2).val = (j 2).val; omega

/-- An index of the output array is in position `t`'s block iff each coordinate is in the block's range on its axis. -/
theorem mem_blk3 (t : Fin cfg3.N) (i : S32x2048x64.Idx) :
    i ∈ ((cfg3.win 3).blk t).view.set ↔ ∀ a : Fin 3, win3_3.index t a * S1x1024x64.size a ≤ (i a).val ∧ (i a).val < win3_3.index t a * S1x1024x64.size a + S1x1024x64.size a := by
  show i ∈ ((View.whole main_v9).slice (win3_3.rect t)).set ↔ _
  rw [View.set_slice_whole, Rect.mem_set_unit]
  exact Iff.rfl

/-- The written-back blocks tile the output array: row `s` of pair `p` is in the block written back at position
    `(p · 2 + s / 1024) · 4 + 3`. -/
theorem cover3 (i : S32x2048x64.Idx) :
    ∃ t : Fin cfg3.N, (cfg3.win 3).flush t = true ∧ i ∈ ((cfg3.win 3).blk t).view.set := by
  have hN : cfg3.N = 256 := N_3
  have hi0 : (i 0).val < 32 := (i 0).isLt
  have hi1 : (i 1).val < 2048 := (i 1).isLt
  have hi2 : (i 2).val < 64 := (i 2).isLt
  obtain ⟨t, ht⟩ : ∃ t : Fin cfg3.N, t.val = ((i 0).val * 2 + (i 1).val / 1024) * 4 + 3 := ⟨⟨_, by omega⟩, rfl⟩
  obtain ⟨-, -, -, -, -, -, -, -, -, o0, o1, o2⟩ := idx_facts3 t
  refine ⟨t, (flush3_3 t).mpr (by omega), ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 64 ≤ (i 2).val ∧ (i 2).val < win3_3.index t (2 : Fin 3) * 64 + 64; omega

/-- The output array when the region ends is any function that agrees, at every key-block-3 position, with what
    the position leaves in its output block. -/
theorem arr3_of_points (c : Dev nD) (G : S32x2048x64.Idx → EReal)
    (hpt : ∀ t : Fin cfg3.N, t.val % 4 = 3 → ∀ (r : Fin 1024) (d : Fin 64),
      ((Frame.outsAt3 (F := Ideal) V c t.val t.isLt).1 : S1x1024x64.Idx → EReal) (ix3 (0 : Fin 1) r d) = G (ix3 (pairOf t) (qrow t r) d)) :
    ((Frame.dat3 (F := Ideal) V c).arrAt 3 cfg3.N : S32x2048x64.Idx → EReal) = G :=
  (Frame.dat3 (F := Ideal) V c).arrAt_eq_of_cover 3 G (fun t hf => flushed3_eq V c G hpt t ((flush3_3 t).mp hf)) cover3

end Cert.KernelIdeal.Value3

end
-- ==== Proof.ValAttnPieces.lean ====
/-
  Region 3 (attention with a running softmax over four blocks of 512 keys): what each of the body's three shapes
  leaves in the three carried buffers and in the output block, as the body's own arithmetic applied to the blocks
  it loads.  Every store of the body covers its whole buffer and every load reads a whole buffer, so a buffer is
  left at the payload of its last store, and a buffer stored and then loaded again reads back what was stored.
-/
import proofs.«130128_j25795573580066_2_alg».proof.Proof.Region3
import Idealize.ShloMosaic.Lib.Pipeline.Value
import Idealize.ShloMosaic.Lib.Tactic

set_option maxRecDepth 16384

noncomputable section

namespace Cert.KernelIdeal.Value3

open Cert.KernelIdeal Cert.KernelIdeal.Gen Cert.KernelIdeal.Frame
open Idealize.ShloMosaic Idealize.ShloMosaic.TcCoe Idealize.ShloMosaic.Tactic Idealize.SL.Sem
open Idealize.ShloMosaic.Pipeline (Dat)

variable {F : FTy → Type} [FloatOps F]

/-- Zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Key blocks 1 and 2 -/

/-- The running maximum, found at `xs0`, is left at the larger of `xs0` and the block's row maxima. -/
theorem soutB_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_B_0 c i arg3 harg3 arg4 harg4 arg5 harg5 arg6 harg6 arg7 harg7 arg8 harg8 arg9 harg9 hc0 hc1 x0 x1 x2 xs0 xs1 xs2 = k3_pay2 (k3_pay8 x0 x1 xs0) := by
  unfold sout3_B_0
  rw [View.read_writes_eq_canon _ _ _ (scover3_B_0 c i arg3 harg3 arg4 harg4 arg5 harg5 arg6 harg6 arg7 harg7 arg8 harg8 arg9 harg9 hc0 hc1 x0 x1 x2 xs0 xs1 xs2)]
  unfold kernelRun3_B
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running sum, found at `xs1`, is left rescaled plus the block's row sums of weights. -/
theorem soutB_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_B_1 c i arg3 harg3 arg4 harg4 arg5 harg5 arg6 harg6 arg7 harg7 arg8 harg8 arg9 harg9 hc0 hc1 x0 x1 x2 xs0 xs1 xs2 = k3_pay11 x0 x1 xs0 xs0 xs1 := by
  unfold sout3_B_1
  rw [View.read_writes_eq_canon _ _ _ (scover3_B_1 c i arg3 harg3 arg4 harg4 arg5 harg5 arg6 harg6 arg7 harg7 arg8 harg8 arg9 harg9 hc0 hc1 x0 x1 x2 xs0 xs1 xs2)]
  unfold kernelRun3_B
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running weighted sum, found at `xs2`, is left rescaled plus the block's weighted value rows. -/
theorem soutB_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_B_2 c i arg3 harg3 arg4 harg4 arg5 harg5 arg6 harg6 arg7 harg7 arg8 harg8 arg9 harg9 hc0 hc1 x0 x1 x2 xs0 xs1 xs2 = k3_pay1 (k3_pay9 x0 x1 xs0 xs0) (k3_pay10 x0 x1 xs0) x2 xs2 := by
  unfold sout3_B_2
  rw [View.read_writes_eq_canon _ _ _ (scover3_B_2 c i arg3 harg3 arg4 harg4 arg5 harg5 arg6 harg6 arg7 harg7 arg8 harg8 arg9 harg9 hc0 hc1 x0 x1 x2 xs0 xs1 xs2)]
  unfold kernelRun3_B
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-! ## Key block 3 -/

/-- The running maximum: as at key blocks 1 and 2. -/
theorem soutC_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_C_0 c i arg3 harg3 arg4 harg4 arg5 harg5 arg6 harg6 arg7 harg7 arg8 harg8 arg9 harg9 hc0 hc1 x0 x1 x2 xs0 xs1 xs2 = k3_pay2 (k3_pay8 x0 x1 xs0) := by
  unfold sout3_C_0
  rw [View.read_writes_eq_canon _ _ _ (scover3_C_0 c i arg3 harg3 arg4 harg4 arg5 harg5 arg6 harg6 arg7 harg7 arg8 harg8 arg9 harg9 hc0 hc1 x0 x1 x2 xs0 xs1 xs2)]
  unfold kernelRun3_C
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running sum: as at key blocks 1 and 2. -/
theorem soutC_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_C_1 c i arg3 harg3 arg4 harg4 arg5 harg5 arg6 harg6 arg7 harg7 arg8 harg8 arg9 harg9 hc0 hc1 x0 x1 x2 xs0 xs1 xs2 = k3_pay11 x0 x1 xs0 xs0 xs1 := by
  unfold sout3_C_1
  rw [View.read_writes_eq_canon _ _ _ (scover3_C_1 c i arg3 harg3 arg4 harg4 arg5 harg5 arg6 harg6 arg7 harg7 arg8 harg8 arg9 harg9 hc0 hc1 x0 x1 x2 xs0 xs1 xs2)]
  unfold kernelRun3_C
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running weighted sum: as at key blocks 1 and 2. -/
theorem soutC_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    sout3_C_2 c i arg3 harg3 arg4 harg4 arg5 harg5 arg6 harg6 arg7 harg7 arg8 harg8 arg9 harg9 hc0 hc1 x0 x1 x2 xs0 xs1 xs2 = k3_pay1 (k3_pay9 x0 x1 xs0 xs0) (k3_pay10 x0 x1 xs0) x2 xs2 := by
  unfold sout3_C_2
  rw [View.read_writes_eq_canon _ _ _ (scover3_C_2 c i arg3 harg3 arg4 harg4 arg5 harg5 arg6 harg6 arg7 harg7 arg8 harg8 arg9 harg9 hc0 hc1 x0 x1 x2 xs0 xs1 xs2)]
  unfold kernelRun3_C
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The output block: the weighted sum just stored, read back, over the row sum just stored, read back. -/
theorem outC_3 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec F S1x1024x64 .f32) (x1 : Vec F S1x512x64 .f32) (x2 : Vec F S1x512x64 .f32) (xs0 : Vec F S1024x1 .f32) (xs1 : Vec F S1024x1 .f32) (xs2 : Vec F S1024x64 .f32) :
    out3_C_3 c i arg3 harg3 arg4 harg4 arg5 harg5 arg6 harg6 arg7 harg7 arg8 harg8 arg9 harg9 hc0 hc1 x0 x1 x2 xs0 xs1 xs2 = k3_pay3 (k3_pay1 (k3_pay9 x0 x1 xs0 xs0) (k3_pay10 x0 x1 xs0) x2 xs2) (k3_pay11 x0 x1 xs0 xs0 xs1) := by
  unfold out3_C_3
  rw [View.read_writes_eq_canon _ _ _ (cover3_C_3 c i arg3 harg3 arg4 harg4 arg5 harg5 arg6 harg6 arg7 harg7 arg8 harg8 arg9 harg9 hc0 hc1 x0 x1 x2 xs0 xs1 xs2)]
  unfold kernelRun3_C
  dsimp only
  sl_unfold_run_names
  rw [View.canon_unit_zero hz3, View.readCov_unit_zero (S := S1024x64) _ hz2, View.readCov_unit_zero (S := S1024x1) _ hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-! ## Key block 0 -/

/-- The running maximum is reset, read back, and left at the block's row maxima over the reset value. -/
theorem soutA_0 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec F S1x1024x64 .f32) (x1 : Vec F S1x512x64 .f32) (x2 : Vec F S1x512x64 .f32) :
    sout3_A_0 c i arg3 harg3 arg4 harg4 arg5 harg5 arg6 harg6 arg7 harg7 arg8 harg8 arg9 harg9 hc0 hc1 x0 x1 x2 = k3_pay2 (k3_pay8 x0 x1 (k3_pay4 (F := F))) := by
  unfold sout3_A_0
  rw [View.read_writes_eq_canon _ _ _ (scover3_A_0 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero (S := S1024x1) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running sum is reset, read back, and left rescaled plus the block's row sums of weights. -/
theorem soutA_1 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec F S1x1024x64 .f32) (x1 : Vec F S1x512x64 .f32) (x2 : Vec F S1x512x64 .f32) :
    sout3_A_1 c i arg3 harg3 arg4 harg4 arg5 harg5 arg6 harg6 arg7 harg7 arg8 harg8 arg9 harg9 hc0 hc1 x0 x1 x2 = k3_pay11 x0 x1 (k3_pay4 (F := F)) (k3_pay4 (F := F)) (k3_pay5 (F := F)) := by
  unfold sout3_A_1
  rw [View.read_writes_eq_canon _ _ _ (scover3_A_1 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero (S := S1024x1) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

/-- The running weighted sum is reset, read back, and left rescaled plus the block's weighted value rows. -/
theorem soutA_2 (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec F S1x1024x64 .f32) (x1 : Vec F S1x512x64 .f32) (x2 : Vec F S1x512x64 .f32) :
    sout3_A_2 c i arg3 harg3 arg4 harg4 arg5 harg5 arg6 harg6 arg7 harg7 arg8 harg8 arg9 harg9 hc0 hc1 x0 x1 x2 = k3_pay1 (k3_pay9 x0 x1 (k3_pay4 (F := F)) (k3_pay4 (F := F))) (k3_pay10 x0 x1 (k3_pay4 (F := F))) x2 (k3_pay6 (F := F)) := by
  unfold sout3_A_2
  rw [View.read_writes_eq_canon _ _ _ (scover3_A_2 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero (S := S1024x64) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x512x64) hz3, View.ld_unit_zero (S := S1024x1) hz2, View.ld_unit_zero (S := S1024x64) hz2]

end Cert.KernelIdeal.Value3

end
-- ==== Proof.ValAttnOps.lean ====
/-
  Region 3 (attention with a running softmax): the body's non-pointwise operations read at an index, on the
  extended reals — the two matrix products as sums over the contracted axis, the two reductions along a row
  of scores as a fold of `max` and a sum over the 512 keys, the column forms of a row vector, and the three
  constant words.
-/
import proofs.«130128_j25795573580066_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value3

open Cert.KernelIdeal Cert.KernelIdeal.Gen
open Idealize.ShloMosaic Idealize.ShloMosaic.ValueIdx
open scoped BigOperators

/-! ## The constant words -/

/-- The word `0x3E000000` is one eighth. -/
theorem word_eighth : Ideal.ofBits .f32 0x3E000000#32 = (((1 / 8 : ℝ) : ℝ) : EReal) := by
  simp [Ideal.ofBits, Ideal.ieee, -EReal.coe_mul]; norm_num
/-- The word `0xFF800000` is `-∞`. -/
theorem word_bot : Ideal.ofBits .f32 0xFF800000#32 = (⊥ : EReal) := by
  simp [Ideal.ofBits, Ideal.ieee]

/-! ## Where the two products read their operands -/

theorem s_lhs_0 (j : S1024x512.Idx) (q : dot_S1024x64_S64x512_S1024x512_1_0_0_1_n_n.contr.Idx) : (dot_S1024x64_S64x512_S1024x512_1_0_0_1_n_n.lhsIdx j q 0).val = (j 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem s_lhs_1 (j : S1024x512.Idx) (q : dot_S1024x64_S64x512_S1024x512_1_0_0_1_n_n.contr.Idx) : (dot_S1024x64_S64x512_S1024x512_1_0_0_1_n_n.lhsIdx j q 1).val = (q ⟨0, by decide⟩).val :=
  dot_S1024x64_S64x512_S1024x512_1_0_0_1_n_n.lhsIdx_val_of_single rfl j q
theorem s_rhs_0 (j : S1024x512.Idx) (q : dot_S1024x64_S64x512_S1024x512_1_0_0_1_n_n.contr.Idx) : (dot_S1024x64_S64x512_S1024x512_1_0_0_1_n_n.rhsIdx j q 0).val = (q ⟨0, by decide⟩).val :=
  dot_S1024x64_S64x512_S1024x512_1_0_0_1_n_n.rhsIdx_val_of_single rfl j q
theorem s_rhs_1 (j : S1024x512.Idx) (q : dot_S1024x64_S64x512_S1024x512_1_0_0_1_n_n.contr.Idx) : (dot_S1024x64_S64x512_S1024x512_1_0_0_1_n_n.rhsIdx j q 1).val = (j 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

theorem o_lhs_0 (j : S1024x64.Idx) (q : dot_S1024x512_S512x64_S1024x64_1_0_0_1_n_n.contr.Idx) : (dot_S1024x512_S512x64_S1024x64_1_0_0_1_n_n.lhsIdx j q 0).val = (j 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem o_lhs_1 (j : S1024x64.Idx) (q : dot_S1024x512_S512x64_S1024x64_1_0_0_1_n_n.contr.Idx) : (dot_S1024x512_S512x64_S1024x64_1_0_0_1_n_n.lhsIdx j q 1).val = (q ⟨0, by decide⟩).val :=
  dot_S1024x512_S512x64_S1024x64_1_0_0_1_n_n.lhsIdx_val_of_single rfl j q
theorem o_rhs_0 (j : S1024x64.Idx) (q : dot_S1024x512_S512x64_S1024x64_1_0_0_1_n_n.contr.Idx) : (dot_S1024x512_S512x64_S1024x64_1_0_0_1_n_n.rhsIdx j q 0).val = (q ⟨0, by decide⟩).val :=
  dot_S1024x512_S512x64_S1024x64_1_0_0_1_n_n.rhsIdx_val_of_single rfl j q
theorem o_rhs_1 (j : S1024x64.Idx) (q : dot_S1024x512_S512x64_S1024x64_1_0_0_1_n_n.contr.Idx) : (dot_S1024x512_S512x64_S1024x64_1_0_0_1_n_n.rhsIdx j q 1).val = (j 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The product of the query block with the transposed key block, read at query row `r`, key `k`: the sum over the 64 columns. -/
theorem scores_matmul_at (a : FVec Ideal S1024x64 .bf16) (w : FVec Ideal S64x512 .bf16) (r : Fin 1024) (k : Fin 512) :
    matmul (F := Ideal) dot_S1024x64_S64x512_S1024x512_1_0_0_1_n_n none a w (constant (F := Ideal) S1024x512 .f32 0x00000000#32) (ix2 r k)
      = ∑ d : Fin 64, a (ix2 r d) * w (ix2 d k) := by
  refine (Ideal.matmul_constant_zero_apply dot_S1024x64_S64x512_S1024x512_1_0_0_1_n_n none a w (ix2 r k)).trans ?_
  rw [← Equiv.sum_comp (ValueIdx.contrEquiv1 dot_S1024x64_S64x512_S1024x512_1_0_0_1_n_n 64 rfl rfl).symm]
  refine Finset.sum_congr rfl fun d _ => ?_
  have hk := ValueIdx.contrEquiv1_symm_val dot_S1024x64_S64x512_S1024x512_1_0_0_1_n_n 64 rfl rfl d
  have el : dot_S1024x64_S64x512_S1024x512_1_0_0_1_n_n.lhsIdx (ix2 r k) ((ValueIdx.contrEquiv1 dot_S1024x64_S64x512_S1024x512_1_0_0_1_n_n 64 rfl rfl).symm d) = ix2 r d := funext fun a => Fin.ext (by
    match a with
    | ⟨0, _⟩ => exact s_lhs_0 _ _
    | ⟨1, _⟩ => exact (s_lhs_1 _ _).trans hk)
  have er : dot_S1024x64_S64x512_S1024x512_1_0_0_1_n_n.rhsIdx (ix2 r k) ((ValueIdx.contrEquiv1 dot_S1024x64_S64x512_S1024x512_1_0_0_1_n_n 64 rfl rfl).symm d) = ix2 d k := funext fun a => Fin.ext (by
    match a with
    | ⟨0, _⟩ => exact (s_rhs_0 _ _).trans hk
    | ⟨1, _⟩ => exact s_rhs_1 _ _)
  rw [el, er]

/-- The product of the weights with the value block, read at query row `r`, column `d`: the sum over the 512 keys. -/
theorem values_matmul_at (a : FVec Ideal S1024x512 .bf16) (w : FVec Ideal S512x64 .bf16) (r : Fin 1024) (d : Fin 64) :
    matmul (F := Ideal) dot_S1024x512_S512x64_S1024x64_1_0_0_1_n_n none a w (constant (F := Ideal) S1024x64 .f32 0x00000000#32) (ix2 r d)
      = ∑ k : Fin 512, a (ix2 r k) * w (ix2 k d) := by
  refine (Ideal.matmul_constant_zero_apply dot_S1024x512_S512x64_S1024x64_1_0_0_1_n_n none a w (ix2 r d)).trans ?_
  rw [← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 r d) ((ValueIdx.contrEquiv1 dot_S1024x512_S512x64_S1024x64_1_0_0_1_n_n 512 rfl rfl).symm k) = ix2 r k := funext fun a => Fin.ext (by
    match a with
    | ⟨0, _⟩ => exact o_lhs_0 _ _
    | ⟨1, _⟩ => exact (o_lhs_1 _ _).trans hk)
  have er : dot_S1024x512_S512x64_S1024x64_1_0_0_1_n_n.rhsIdx (ix2 r d) ((ValueIdx.contrEquiv1 dot_S1024x512_S512x64_S1024x64_1_0_0_1_n_n 512 rfl rfl).symm k) = ix2 k d := funext fun a => Fin.ext (by
    match a with
    | ⟨0, _⟩ => exact (o_rhs_0 _ _).trans hk
    | ⟨1, _⟩ => exact o_rhs_1 _ _)
  rw [el, er]

/-! ## The reductions along a row of scores -/

/-- The index of the score block over row `r` with key `k` put back. -/
theorem lift_row (r : Fin 1024) (k : Fin 512) : reduces_S1024x512_S1024.lift (ix1 r) k = ix2 r k :=
  funext fun c => Fin.ext (by
    match c with
    | ⟨0, _⟩ => rfl
    | ⟨1, _⟩ => rfl)

/-- The row maxima (from `-∞`) at row `r`: the fold of `max` over the 512 keys. -/
theorem rowmax_at (src : FVec Ideal S1024x512 .f32) (r : Fin 1024) :
    multiReduction (F := Ideal) .maximumf [1] S1024 src 0xFF800000#32 reduces_S1024x512_S1024 (.inl rfl) rfl (ix1 r)
      = Finset.univ.fold max (⊥ : EReal) (fun k : Fin 512 => src (ix2 r k)) := by
  refine (Ideal.multiReduction_maximumf_single src 0xFF800000#32 reduces_S1024x512_S1024 (.inl rfl) rfl (ix1 r)).trans ?_
  have e : (src ∘ reduces_S1024x512_S1024.lift (ix1 r)) = fun k : Fin 512 => src (ix2 r k) :=
    funext fun k => congrArg src (lift_row r k)
  exact congrArg₂ (fun (b : EReal) (f : Fin 512 → EReal) => Finset.univ.fold max b f) word_bot e

/-- The row sums (from `0`) at row `r`: the sum over the 512 keys. -/
theorem rowsum_at (src : FVec Ideal S1024x512 .f32) (r : Fin 1024) :
    multiReduction (F := Ideal) .add [1] S1024 src 0x00000000#32 reduces_S1024x512_S1024 (.inl rfl) rfl (ix1 r)
      = ∑ k : Fin 512, src (ix2 r k) := by
  refine (Ideal.multiReduction_add_single src 0x00000000#32 reduces_S1024x512_S1024 (.inl rfl) rfl (ix1 r)).trans ?_
  exact Finset.sum_congr rfl fun k _ => congrArg src (lift_row r k)

/-! ## Column forms -/

/-- A vector of 1024 cast to a column reads, at `(r, 0)`, the vector at `r`. -/
theorem column_at {α : Type} (v : S1024.Idx → α) (r : Fin 1024) (u : Fin 1) :
    shapeCast S1024x1 v shapeCasts_S1024_S1024x1 (ix2 r u) = v (ix1 r) :=
  shapeCast_apply v shapeCasts_S1024_S1024x1 (ix2 r u) (ix1 r) (by
    have hu : u.val = 0 := by omega
    rw [Shape.rowMajor_val_one, Shape.rowMajor_val_two]
    show r.val = r.val * 1 + u.val
    omega)

/-- A column spread over 512 columns reads, at `(r, k)`, the column at `(r, 0)`. -/
theorem spread512_at {α : Type} (v : S1024x1.Idx → α) (r : Fin 1024) (k : Fin 512) :
    broadcastTo S1024x512 v broadcasts_S1024x1_S1024x512 (ix2 r k) = v (ix2 r (0 : Fin 1)) :=
  broadcastTo_apply v broadcasts_S1024x1_S1024x512 (ix2 r k) (ix2 r (0 : Fin 1))
    (fun a => match a with | ⟨0, _⟩ => rfl | ⟨1, _⟩ => rfl)

/-- A column spread over 64 columns reads, at `(r, d)`, the column at `(r, 0)`. -/
theorem spread64_at {α : Type} (v : S1024x1.Idx → α) (r : Fin 1024) (d : Fin 64) :
    broadcastTo S1024x64 v broadcasts_S1024x1_S1024x64 (ix2 r d) = v (ix2 r (0 : Fin 1)) :=
  broadcastTo_apply v broadcasts_S1024x1_S1024x64 (ix2 r d) (ix2 r (0 : Fin 1))
    (fun a => match a with | ⟨0, _⟩ => rfl | ⟨1, _⟩ => rfl)

end Cert.KernelIdeal.Value3

end
-- ==== Proof.ValAttnPay.lean ====
/-
  Region 3 (attention with a running softmax): the body's arithmetic read at an index, on the extended reals.
  With the query block's rows `Q`, the key block's rows `K`, the value block's rows `V` and the carried running
  maximum `m`, running sum `l` and running weighted sum `acc`: the scores are `s r k = (Q r · K k) / 8`, the new
  maximum is `m' r = max (m r) (max_k s r k)`, the rescaling factor is `exp (m r − m' r)`, the weights are
  `exp (s r k − m' r)`, the new sum is the rescaled sum plus the row sum of the weights, the new weighted sum is the
  rescaled weighted sum plus the weights times the value rows, and the stored block is the weighted sum over the sum.
-/
import proofs.«130128_j25795573580066_2_alg».proof.Proof.ValAttnOps
import proofs.«130128_j25795573580066_2_alg».proof.Proof.AttnStep

set_option maxRecDepth 16384

noncomputable section

namespace Cert.KernelIdeal.Value3

open Cert.KernelIdeal Cert.KernelIdeal.Gen
open Idealize.ShloMosaic Idealize.ShloMosaic.ValueIdx
open scoped BigOperators

/-! ## The blocks read by coordinates -/

/-- The query block's rows. -/
abbrev Qf (x0 : Vec Ideal S1x1024x64 .f32) : Fin 1024 → Fin 64 → EReal := fun r d => (x0 : S1x1024x64.Idx → EReal) (ix3 (0 : Fin 1) r d)
/-- The key block's rows. -/
abbrev Kf (x1 : Vec Ideal S1x512x64 .f32) : Fin 512 → Fin 64 → EReal := fun k d => (x1 : S1x512x64.Idx → EReal) (ix3 (0 : Fin 1) k d)
/-- The value block's rows. -/
abbrev Vf (x2 : Vec Ideal S1x512x64 .f32) : Fin 512 → Fin 64 → EReal := fun k d => (x2 : S1x512x64.Idx → EReal) (ix3 (0 : Fin 1) k d)
/-- The running maximum per row. -/
abbrev mf (xs0 : Vec Ideal S1024x1 .f32) : Fin 1024 → EReal := fun r => (xs0 : S1024x1.Idx → EReal) (ix2 r (0 : Fin 1))
/-- The running sum per row. -/
abbrev lf (xs1 : Vec Ideal S1024x1 .f32) : Fin 1024 → EReal := fun r => (xs1 : S1024x1.Idx → EReal) (ix2 r (0 : Fin 1))
/-- The running weighted sum per row and column. -/
abbrev af (xs2 : Vec Ideal S1024x64 .f32) : Fin 1024 → Fin 64 → EReal := fun r d => (xs2 : S1024x64.Idx → EReal) (ix2 r d)

/-! ## The scores, the new maximum, the rescaling factor, the weights -/

/-- The scaled scores at query row `r`, key `k`. The two format changes are the identity; the blocks are read through
    their unit leading axis, the key block transposed. -/
theorem pay7_apply (x0 : Vec Ideal S1x1024x64 .f32) (x1 : Vec Ideal S1x512x64 .f32) (r : Fin 1024) (k : Fin 512) :
    (k3_pay7 (F := Ideal) x0 x1 : S1024x512.Idx → EReal) (ix2 r k) = Attn.bscore (Qf x0) (Kf x1) r k := by
  unfold k3_pay7
  refine (mulf_apply _ _ (ix2 r k)).trans ?_
  unfold Attn.bscore
  refine congrArg₂ (· * ·) ?_ word_eighth
  refine (scores_matmul_at _ _ r k).trans ?_
  refine Finset.sum_congr rfl fun d _ => ?_
  refine congrArg₂ (· * ·) ?_ ?_
  · refine (truncf_apply (ψ := .bf16) (shapeCast S1024x64 x0 shapeCasts_S1x1024x64_S1024x64) bitsLt_bf16_f32 (ix2 r d)).trans ?_
    exact shapeCast_1ab_ab_apply _ _ r d
  · refine (transpose_ix2_apply _ transposes_S512x64_p1_0_S64x512 d k).trans ?_
    refine (truncf_apply (ψ := .bf16) (shapeCast S512x64 x1 shapeCasts_S1x512x64_S512x64) bitsLt_bf16_f32 (ix2 k d)).trans ?_
    exact shapeCast_1ab_ab_apply _ _ k d

/-- The new running maximum at row `r`. -/
theorem pay8_apply (x0 : Vec Ideal S1x1024x64 .f32) (x1 : Vec Ideal S1x512x64 .f32) (xs0 : Vec Ideal S1024x1 .f32) (r : Fin 1024) :
    (k3_pay8 (F := Ideal) x0 x1 xs0 : S1024x1.Idx → EReal) (ix2 r (0 : Fin 1)) = Attn.stepM (Qf x0) (Kf x1) (mf xs0) r := by
  unfold k3_pay8
  refine (maximumf_apply _ _ (ix2 r (0 : Fin 1))).trans ?_
  unfold Attn.stepM
  refine congrArg₂ max rfl ?_
  refine (column_at _ r 0).trans ?_
  refine (rowmax_at _ r).trans ?_
  exact congrArg (fun f : Fin 512 → EReal => Finset.univ.fold max (⊥ : EReal) f) (funext fun k => pay7_apply x0 x1 r k)

/-- The rescaling factor at row `r`: the exponential of the maximum the body read second, `xs0'`, less the new maximum. -/
theorem pay9_apply (x0 : Vec Ideal S1x1024x64 .f32) (x1 : Vec Ideal S1x512x64 .f32) (xs0 xs0' : Vec Ideal S1024x1 .f32) (r : Fin 1024) :
    (k3_pay9 (F := Ideal) x0 x1 xs0 xs0' : S1024x1.Idx → EReal) (ix2 r (0 : Fin 1))
      = Ideal.exp (mf xs0' r - Attn.stepM (Qf x0) (Kf x1) (mf xs0) r) := by
  unfold k3_pay9
  refine (show _ = Ideal.exp ((xs0' : S1024x1.Idx → EReal) (ix2 r (0 : Fin 1)) - (k3_pay8 (F := Ideal) x0 x1 xs0 : S1024x1.Idx → EReal) (ix2 r (0 : Fin 1))) from rfl).trans ?_
  exact congrArg (fun t => Ideal.exp (mf xs0' r - t)) (pay8_apply x0 x1 xs0 r)

/-- The weights at query row `r`, key `k`. -/
theorem pay10_apply (x0 : Vec Ideal S1x1024x64 .f32) (x1 : Vec Ideal S1x512x64 .f32) (xs0 : Vec Ideal S1024x1 .f32) (r : Fin 1024) (k : Fin 512) :
    (k3_pay10 (F := Ideal) x0 x1 xs0 : S1024x512.Idx → EReal) (ix2 r k)
      = Ideal.exp (Attn.bscore (Qf x0) (Kf x1) r k - Attn.stepM (Qf x0) (Kf x1) (mf xs0) r) := by
  unfold k3_pay10
  refine (show _ = Ideal.exp ((k3_pay7 (F := Ideal) x0 x1 : S1024x512.Idx → EReal) (ix2 r k)
      - (broadcastTo S1024x512 (k3_pay8 (F := Ideal) x0 x1 xs0) broadcasts_S1024x1_S1024x512 : S1024x512.Idx → EReal) (ix2 r k)) from rfl).trans ?_
  refine congrArg₂ (fun a b => Ideal.exp (a - b)) (pay7_apply x0 x1 r k) ?_
  exact (spread512_at _ r k).trans (pay8_apply x0 x1 xs0 r)

/-! ## The three stores of every key block -/

/-- The stored maximum is the new maximum. -/
theorem pay2_eq (v16 : FVec Ideal S1024x1 .f32) : k3_pay2 (F := Ideal) v16 = v16 := by
  unfold k3_pay2
  exact shapeCast_self _ _

/-- The stored running sum at row `r`: the rescaled sum plus the row sum of the weights. -/
theorem pay11_apply (x0 : Vec Ideal S1x1024x64 .f32) (x1 : Vec Ideal S1x512x64 .f32) (xs0 xs0' xs1 : Vec Ideal S1024x1 .f32) (r : Fin 1024) :
    (k3_pay11 (F := Ideal) x0 x1 xs0 xs0' xs1 : S1024x1.Idx → EReal) (ix2 r (0 : Fin 1))
      = Ideal.exp (mf xs0' r - Attn.stepM (Qf x0) (Kf x1) (mf xs0) r) * lf xs1 r
          + ∑ k : Fin 512, Ideal.exp (Attn.bscore (Qf x0) (Kf x1) r k - Attn.stepM (Qf x0) (Kf x1) (mf xs0) r) := by
  unfold k3_pay11
  refine (congrFun (shapeCast_self _ _) _).trans ?_
  refine (addf_apply _ _ (ix2 r (0 : Fin 1))).trans ?_
  refine congrArg₂ (· + ·) ?_ ?_
  · refine (mulf_apply _ _ (ix2 r (0 : Fin 1))).trans ?_
    exact congrArg (· * lf xs1 r) (pay9_apply x0 x1 xs0 xs0' r)
  · refine (column_at _ r 0).trans ?_
    refine (rowsum_at _ r).trans ?_
    exact Finset.sum_congr rfl fun k _ => pay10_apply x0 x1 xs0 r k

/-- The stored running weighted sum at row `r`, column `d`, for any rescaling column `v19` and weights `v22`: the
    rescaled weighted sum plus the weights times the value rows. The format changes are the identity. -/
theorem pay1_apply (v19 : FVec Ideal S1024x1 .f32) (v22 : FVec Ideal S1024x512 .f32) (x2 : Vec Ideal S1x512x64 .f32)
    (xs2 : Vec Ideal S1024x64 .f32) (r : Fin 1024) (d : Fin 64) :
    (k3_pay1 (F := Ideal) v19 v22 x2 xs2 : S1024x64.Idx → EReal) (ix2 r d)
      = (v19 : S1024x1.Idx → EReal) (ix2 r (0 : Fin 1)) * af xs2 r d
          + ∑ k : Fin 512, (v22 : S1024x512.Idx → EReal) (ix2 r k) * Vf x2 k d := by
  unfold k3_pay1
  refine (congrFun (shapeCast_self _ _) _).trans ?_
  refine (addf_apply _ _ (ix2 r d)).trans ?_
  refine congrArg₂ (· + ·) ?_ ?_
  · refine (mulf_apply _ _ (ix2 r d)).trans ?_
    exact congrArg (· * af xs2 r d) (spread64_at v19 r d)
  · refine (values_matmul_at _ _ r d).trans ?_
    refine Finset.sum_congr rfl fun k _ => ?_
    refine congrArg₂ (· * ·) ?_ ?_
    · exact truncf_apply (ψ := .bf16) v22 bitsLt_bf16_f32 (ix2 r k)
    · refine (truncf_apply (ψ := .bf16) (shapeCast S512x64 x2 shapeCasts_S1x512x64_S512x64) bitsLt_bf16_f32 (ix2 k d)).trans ?_
      exact shapeCast_1ab_ab_apply _ _ k d

/-! ## The output store of key block 3 -/

/-- The stored block at row `r`, column `d`: the weighted sum there over the row's sum. -/
theorem pay3_apply (v49 : Vec Ideal S1024x64 .f32) (v50 : Vec Ideal S1024x1 .f32) (r : Fin 1024) (d : Fin 64) :
    (k3_pay3 (F := Ideal) v49 v50 : S1x1024x64.Idx → EReal) (ix3 (0 : Fin 1) r d)
      = Ideal.div ((v49 : S1024x64.Idx → EReal) (ix2 r d)) ((v50 : S1024x1.Idx → EReal) (ix2 r (0 : Fin 1))) := by
  unfold k3_pay3
  refine (shapeCast_ab_1ab_apply _ _ (0 : Fin 1) r d).trans ?_
  refine (divf_apply _ _ (ix2 r d)).trans ?_
  exact congrArg (Ideal.div ((v49 : S1024x64.Idx → EReal) (ix2 r d))) (spread64_at v50 r d)

/-! ## The three resets of key block 0 -/

/-- The reset maximum is `-∞` everywhere. -/
theorem pay4_apply (r : Fin 1024) : (k3_pay4 (F := Ideal) : S1024x1.Idx → EReal) (ix2 r (0 : Fin 1)) = ⊥ := by
  unfold k3_pay4
  refine (congrFun (shapeCast_self _ _) _).trans ?_
  exact word_bot
/-- The reset sum is `0` everywhere. -/
theorem pay5_apply (r : Fin 1024) : (k3_pay5 (F := Ideal) : S1024x1.Idx → EReal) (ix2 r (0 : Fin 1)) = 0 := by
  unfold k3_pay5
  refine (congrFun (shapeCast_self _ _) _).trans ?_
  exact Ideal.ofBits_zero_f32
/-- The reset weighted sum is `0` everywhere. -/
theorem pay6_apply (r : Fin 1024) (d : Fin 64) : (k3_pay6 (F := Ideal) : S1024x64.Idx → EReal) (ix2 r d) = 0 := by
  unfold k3_pay6
  refine (congrFun (shapeCast_self _ _) _).trans ?_
  exact Ideal.ofBits_zero_f32

end Cert.KernelIdeal.Value3

end
-- ==== Proof.ValAttnStep.lean ====
/-
  Region 3 (attention with a running softmax): what one grid point's body leaves in the three carried buffers and
  in the output block, index by index, as one step of the running softmax.  At key blocks 1, 2 and 3 the step
  starts from the carried running maximum, sum and weighted sum; at key block 0 the body resets them first, so the
  step starts from `-∞`, `0` and `0`; at key block 3 the output block is left at the new weighted sum over the new sum.
-/
import proofs.«130128_j25795573580066_2_alg».proof.Proof.ValAttnPieces
import proofs.«130128_j25795573580066_2_alg».proof.Proof.ValAttnPay

set_option maxRecDepth 16384

noncomputable section

namespace Cert.KernelIdeal.Value3

open Cert.KernelIdeal Cert.KernelIdeal.Gen Cert.KernelIdeal.Frame
open Idealize.ShloMosaic Idealize.ShloMosaic.TcCoe Idealize.ShloMosaic.ValueIdx
open scoped BigOperators

/-! ## The body's stores as one step -/

/-- The stored maximum at row `r`. -/
theorem step_m (x0 : Vec Ideal S1x1024x64 .f32) (x1 : Vec Ideal S1x512x64 .f32) (xs0 : Vec Ideal S1024x1 .f32) (r : Fin 1024) :
    (k3_pay2 (F := Ideal) (k3_pay8 x0 x1 xs0) : S1024x1.Idx → EReal) (ix2 r (0 : Fin 1)) = Attn.stepM (Qf x0) (Kf x1) (mf xs0) r :=
  (congrFun (pay2_eq _) _).trans (pay8_apply x0 x1 xs0 r)

/-- The stored sum at row `r`. -/
theorem step_l (x0 : Vec Ideal S1x1024x64 .f32) (x1 : Vec Ideal S1x512x64 .f32) (xs0 xs1 : Vec Ideal S1024x1 .f32) (r : Fin 1024) :
    (k3_pay11 (F := Ideal) x0 x1 xs0 xs0 xs1 : S1024x1.Idx → EReal) (ix2 r (0 : Fin 1)) = Attn.stepL (Qf x0) (Kf x1) (mf xs0) (lf xs1) r := by
  unfold Attn.stepL
  exact pay11_apply x0 x1 xs0 xs0 xs1 r

/-- The stored weighted sum at row `r`, column `d`. -/
theorem step_acc (x0 : Vec Ideal S1x1024x64 .f32) (x1 : Vec Ideal S1x512x64 .f32) (x2 : Vec Ideal S1x512x64 .f32) (xs0 : Vec Ideal S1024x1 .f32) (xs2 : Vec Ideal S1024x64 .f32) (r : Fin 1024) (d : Fin 64) :
    (k3_pay1 (F := Ideal) (k3_pay9 x0 x1 xs0 xs0) (k3_pay10 x0 x1 xs0) x2 xs2 : S1024x64.Idx → EReal) (ix2 r d)
      = Attn.stepAcc (Qf x0) (Kf x1) (Vf x2) (mf xs0) (af xs2) r d := by
  refine (pay1_apply _ _ x2 xs2 r d).trans ?_
  unfold Attn.stepAcc
  refine congrArg₂ (· + ·) (congrArg (· * af xs2 r d) (pay9_apply x0 x1 xs0 xs0 r)) ?_
  exact Finset.sum_congr rfl fun k _ => congrArg (· * Vf x2 k d) (pay10_apply x0 x1 xs0 r k)

/-- The stored output at row `r`, column `d`. -/
theorem step_out (x0 : Vec Ideal S1x1024x64 .f32) (x1 : Vec Ideal S1x512x64 .f32) (x2 : Vec Ideal S1x512x64 .f32) (xs0 xs1 : Vec Ideal S1024x1 .f32) (xs2 : Vec Ideal S1024x64 .f32) (r : Fin 1024) (d : Fin 64) :
    (k3_pay3 (F := Ideal) (k3_pay1 (k3_pay9 x0 x1 xs0 xs0) (k3_pay10 x0 x1 xs0) x2 xs2) (k3_pay11 x0 x1 xs0 xs0 xs1) : S1x1024x64.Idx → EReal) (ix3 (0 : Fin 1) r d)
      = Ideal.div (Attn.stepAcc (Qf x0) (Kf x1) (Vf x2) (mf xs0) (af xs2) r d) (Attn.stepL (Qf x0) (Kf x1) (mf xs0) (lf xs1) r) :=
  (pay3_apply _ _ r d).trans (congrArg₂ Ideal.div (step_acc x0 x1 x2 xs0 xs2 r d) (step_l x0 x1 xs0 xs1 r))

/-- The reset buffers read by coordinates. -/
theorem mf_reset : mf (k3_pay4 (F := Ideal)) = (fun _ => (⊥ : EReal)) := funext pay4_apply
theorem lf_reset : lf (k3_pay5 (F := Ideal)) = (fun _ => (0 : EReal)) := funext pay5_apply
theorem af_reset : af (k3_pay6 (F := Ideal)) = (fun _ _ => (0 : EReal)) := funext fun r => funext fun d => pay6_apply r d

/-! ## Key blocks 1 and 2 -/

theorem soutB_0_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) :
    (Frame.sout3_B_0 (F := Ideal) c i arg3 harg3 arg4 harg4 arg5 harg5 arg6 harg6 arg7 harg7 arg8 harg8 arg9 harg9 hc0 hc1 x0 x1 x2 xs0 xs1 xs2 : S1024x1.Idx → EReal) (ix2 r (0 : Fin 1))
      = Attn.stepM (Qf x0) (Kf x1) (mf xs0) r :=
  (congrFun (soutB_0 c i arg3 harg3 arg4 harg4 arg5 harg5 arg6 harg6 arg7 harg7 arg8 harg8 arg9 harg9 hc0 hc1 x0 x1 x2 xs0 xs1 xs2) _).trans (step_m x0 x1 xs0 r)

theorem soutB_1_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) :
    (Frame.sout3_B_1 (F := Ideal) c i arg3 harg3 arg4 harg4 arg5 harg5 arg6 harg6 arg7 harg7 arg8 harg8 arg9 harg9 hc0 hc1 x0 x1 x2 xs0 xs1 xs2 : S1024x1.Idx → EReal) (ix2 r (0 : Fin 1))
      = Attn.stepL (Qf x0) (Kf x1) (mf xs0) (lf xs1) r :=
  (congrFun (soutB_1 c i arg3 harg3 arg4 harg4 arg5 harg5 arg6 harg6 arg7 harg7 arg8 harg8 arg9 harg9 hc0 hc1 x0 x1 x2 xs0 xs1 xs2) _).trans (step_l x0 x1 xs0 xs1 r)

theorem soutB_2_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : ¬cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) (d : Fin 64) :
    (Frame.sout3_B_2 (F := Ideal) c i arg3 harg3 arg4 harg4 arg5 harg5 arg6 harg6 arg7 harg7 arg8 harg8 arg9 harg9 hc0 hc1 x0 x1 x2 xs0 xs1 xs2 : S1024x64.Idx → EReal) (ix2 r d)
      = Attn.stepAcc (Qf x0) (Kf x1) (Vf x2) (mf xs0) (af xs2) r d :=
  (congrFun (soutB_2 c i arg3 harg3 arg4 harg4 arg5 harg5 arg6 harg6 arg7 harg7 arg8 harg8 arg9 harg9 hc0 hc1 x0 x1 x2 xs0 xs1 xs2) _).trans (step_acc x0 x1 x2 xs0 xs2 r d)

/-! ## Key block 3 -/

theorem soutC_0_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) :
    (Frame.sout3_C_0 (F := Ideal) c i arg3 harg3 arg4 harg4 arg5 harg5 arg6 harg6 arg7 harg7 arg8 harg8 arg9 harg9 hc0 hc1 x0 x1 x2 xs0 xs1 xs2 : S1024x1.Idx → EReal) (ix2 r (0 : Fin 1))
      = Attn.stepM (Qf x0) (Kf x1) (mf xs0) r :=
  (congrFun (soutC_0 c i arg3 harg3 arg4 harg4 arg5 harg5 arg6 harg6 arg7 harg7 arg8 harg8 arg9 harg9 hc0 hc1 x0 x1 x2 xs0 xs1 xs2) _).trans (step_m x0 x1 xs0 r)

theorem soutC_1_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) :
    (Frame.sout3_C_1 (F := Ideal) c i arg3 harg3 arg4 harg4 arg5 harg5 arg6 harg6 arg7 harg7 arg8 harg8 arg9 harg9 hc0 hc1 x0 x1 x2 xs0 xs1 xs2 : S1024x1.Idx → EReal) (ix2 r (0 : Fin 1))
      = Attn.stepL (Qf x0) (Kf x1) (mf xs0) (lf xs1) r :=
  (congrFun (soutC_1 c i arg3 harg3 arg4 harg4 arg5 harg5 arg6 harg6 arg7 harg7 arg8 harg8 arg9 harg9 hc0 hc1 x0 x1 x2 xs0 xs1 xs2) _).trans (step_l x0 x1 xs0 xs1 r)

theorem soutC_2_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) (d : Fin 64) :
    (Frame.sout3_C_2 (F := Ideal) c i arg3 harg3 arg4 harg4 arg5 harg5 arg6 harg6 arg7 harg7 arg8 harg8 arg9 harg9 hc0 hc1 x0 x1 x2 xs0 xs1 xs2 : S1024x64.Idx → EReal) (ix2 r d)
      = Attn.stepAcc (Qf x0) (Kf x1) (Vf x2) (mf xs0) (af xs2) r d :=
  (congrFun (soutC_2 c i arg3 harg3 arg4 harg4 arg5 harg5 arg6 harg6 arg7 harg7 arg8 harg8 arg9 harg9 hc0 hc1 x0 x1 x2 xs0 xs1 xs2) _).trans (step_acc x0 x1 x2 xs0 xs2 r d)

theorem outC_3_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond3_0 i) (hc1 : cond3_1 i) (x0 : Vec Ideal S1x1024x64 .f32) (x1 : Vec Ideal S1x512x64 .f32) (x2 : Vec Ideal S1x512x64 .f32) (xs0 : Vec Ideal S1024x1 .f32) (xs1 : Vec Ideal S1024x1 .f32) (xs2 : Vec Ideal S1024x64 .f32) (r : Fin 1024) (d : Fin 64) :
    (Frame.out3_C_3 (F := Ideal) c i arg3 harg3 arg4 harg4 arg5 harg5 arg6 harg6 arg7 harg7 arg8 harg8 arg9 harg9 hc0 hc1 x0 x1 x2 xs0 xs1 xs2 : S1x1024x64.Idx → EReal) (ix3 (0 : Fin 1) r d)
      = Ideal.div (Attn.stepAcc (Qf x0) (Kf x1) (Vf x2) (mf xs0) (af xs2) r d) (Attn.stepL (Qf x0) (Kf x1) (mf xs0) (lf xs1) r) :=
  (congrFun (outC_3 c i arg3 harg3 arg4 harg4 arg5 harg5 arg6 harg6 arg7 harg7 arg8 harg8 arg9 harg9 hc0 hc1 x0 x1 x2 xs0 xs1 xs2) _).trans (step_out x0 x1 x2 xs0 xs1 xs2 r d)

/-! ## Key block 0 -/

theorem soutA_0_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec Ideal S1x1024x64 .f32) (x1 : Vec Ideal S1x512x64 .f32) (x2 : Vec Ideal S1x512x64 .f32) (r : Fin 1024) :
    (Frame.sout3_A_0 (F := Ideal) c i arg3 harg3 arg4 harg4 arg5 harg5 arg6 harg6 arg7 harg7 arg8 harg8 arg9 harg9 hc0 hc1 x0 x1 x2 : S1024x1.Idx → EReal) (ix2 r (0 : Fin 1))
      = Attn.stepM (Qf x0) (Kf x1) (fun _ => (⊥ : EReal)) r :=
  ((congrFun (soutA_0 c i arg3 harg3 arg4 harg4 arg5 harg5 arg6 harg6 arg7 harg7 arg8 harg8 arg9 harg9 hc0 hc1 x0 x1 x2) _).trans (step_m x0 x1 (k3_pay4 (F := Ideal)) r)).trans
    (congrArg (fun m => Attn.stepM (Qf x0) (Kf x1) m r) mf_reset)

theorem soutA_1_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec Ideal S1x1024x64 .f32) (x1 : Vec Ideal S1x512x64 .f32) (x2 : Vec Ideal S1x512x64 .f32) (r : Fin 1024) :
    (Frame.sout3_A_1 (F := Ideal) c i arg3 harg3 arg4 harg4 arg5 harg5 arg6 harg6 arg7 harg7 arg8 harg8 arg9 harg9 hc0 hc1 x0 x1 x2 : S1024x1.Idx → EReal) (ix2 r (0 : Fin 1))
      = Attn.stepL (Qf x0) (Kf x1) (fun _ => (⊥ : EReal)) (fun _ => (0 : EReal)) r :=
  ((congrFun (soutA_1 c i arg3 harg3 arg4 harg4 arg5 harg5 arg6 harg6 arg7 harg7 arg8 harg8 arg9 harg9 hc0 hc1 x0 x1 x2) _).trans (step_l x0 x1 (k3_pay4 (F := Ideal)) (k3_pay5 (F := Ideal)) r)).trans
    (congrArg₂ (fun m l => Attn.stepL (Qf x0) (Kf x1) m l r) mf_reset lf_reset)

theorem soutA_2_apply (c : Dev nD) (i : grid3.Coords) (arg3 : Memref sig .tc .vmem S1x1024x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond3_0 i) (hc1 : ¬cond3_1 i) (x0 : Vec Ideal S1x1024x64 .f32) (x1 : Vec Ideal S1x512x64 .f32) (x2 : Vec Ideal S1x512x64 .f32) (r : Fin 1024) (d : Fin 64) :
    (Frame.sout3_A_2 (F := Ideal) c i arg3 harg3 arg4 harg4 arg5 harg5 arg6 harg6 arg7 harg7 arg8 harg8 arg9 harg9 hc0 hc1 x0 x1 x2 : S1024x64.Idx → EReal) (ix2 r d)
      = Attn.stepAcc (Qf x0) (Kf x1) (Vf x2) (fun _ => (⊥ : EReal)) (fun _ _ => (0 : EReal)) r d :=
  ((congrFun (soutA_2 c i arg3 harg3 arg4 harg4 arg5 harg5 arg6 harg6 arg7 harg7 arg8 harg8 arg9 harg9 hc0 hc1 x0 x1 x2) _).trans (step_acc x0 x1 x2 (k3_pay4 (F := Ideal)) (k3_pay6 (F := Ideal)) r d)).trans
    (congrArg₂ (fun m a => Attn.stepAcc (Qf x0) (Kf x1) (Vf x2) m a r d) mf_reset af_reset)

end Cert.KernelIdeal.Value3

end
-- ==== Proof.ValAttend.lean ====
/-
  Region 3 (attention with a running softmax): what its output array holds when the region ends.

  The 256 grid points run pair by pair (32), query block by query block (2 of 1024 rows), key block by key
  block (4 of 512 rows).  A point of key block 0 starts the three carried buffers afresh and every point applies
  one step of the running softmax to them, so after the point of key block `j` they hold, row by row, the state
  after `j + 1` steps over the pair's key blocks 0 … j.  The point of key block 3 leaves in the output block the
  quotient of the state after four steps, which for real queries, keys and values is softmax attention.
-/
import proofs.«130128_j25795573580066_2_alg».proof.Proof.Region3
import proofs.«130128_j25795573580066_2_alg».proof.Proof.AttendMath
import proofs.«130128_j25795573580066_2_alg».proof.Proof.ValAttnBlocks
import proofs.«130128_j25795573580066_2_alg».proof.Proof.ValAttnStep
import Idealize.ShloMosaic.Lib.Pipeline.Value
import Idealize.ShloMosaic.Lib.ValueIdx

set_option maxRecDepth 16384

noncomputable section

namespace Cert.KernelIdeal.Value3

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The arrays and the blocks by coordinates -/

/-- The queries, by pair, row and column. -/
abbrev qA (c : Dev nD) : Fin 32 → Fin 2048 → Fin 64 → EReal := fun bh s d => (V c main_v2 : S32x2048x64.Idx → EReal) (ix3 bh s d)
/-- The keys. -/
abbrev kA (c : Dev nD) : Fin 32 → Fin 2048 → Fin 64 → EReal := fun bh s d => (V c main_v5 : S32x2048x64.Idx → EReal) (ix3 bh s d)
/-- The values. -/
abbrev vA (c : Dev nD) : Fin 32 → Fin 2048 → Fin 64 → EReal := fun bh s d => (V c main_v8 : S32x2048x64.Idx → EReal) (ix3 bh s d)

/-- A query block by row and column. -/
abbrev rowsQ (x0 : Vec Ideal S1x1024x64 .f32) : Fin 1024 → Fin 64 → EReal := fun r d => (x0 : S1x1024x64.Idx → EReal) (ix3 (0 : Fin 1) r d)
/-- A key (or value) block by row and column. -/
abbrev rowsK (x1 : Vec Ideal S1x512x64 .f32) : Fin 512 → Fin 64 → EReal := fun k d => (x1 : S1x512x64.Idx → EReal) (ix3 (0 : Fin 1) k d)
/-- A one-column carried buffer by row. -/
abbrev colM (xs : Vec Ideal S1024x1 .f32) : Fin 1024 → EReal := fun r => (xs : S1024x1.Idx → EReal) (ix2 r (0 : Fin 1))
/-- The weighted-sum buffer by row and column. -/
abbrev blkA (xs : Vec Ideal S1024x64 .f32) : Fin 1024 → Fin 64 → EReal := fun r d => (xs : S1024x64.Idx → EReal) (ix2 r d)

/-- The state after `n` steps over the key blocks of pair `bh`, for query block `qi`. -/
abbrev St (c : Dev nD) (bh : Fin 32) (qi : Fin 2) (n : ℕ) : (Fin 1024 → EReal) × (Fin 1024 → EReal) × (Fin 1024 → Fin 64 → EReal) :=
  Attn.iter (Attn.qblk (qA V c) bh qi) (Attn.kblk (kA V c) bh) (Attn.kblk (vA V c) bh) n

theorem ix3_congr {n0 n1 n2 : ℕ} {a a' : Fin n0} {b b' : Fin n1} (d : Fin n2) (ha : a.val = a'.val) (hb : b.val = b'.val) :
    ix3 a b d = ix3 a' b' d := by
  obtain rfl := Fin.ext ha; obtain rfl := Fin.ext hb; rfl

/-! ## The blocks a point reads: position `bh * 8 + qi * 4 + j` reads query block `qi` and key block `j` of pair `bh` -/

theorem rowsQ_iblk (c : Dev nD) (t : Fin cfg3.N) (bh : Fin 32) (qi : Fin 2) (j : ℕ) (ht : t.val = bh.val * 8 + qi.val * 4 + j) (hj : j < 4) :
    rowsQ (Frame.iblk3 V c 0 t) = Attn.qblk (qA V c) bh qi := by
  funext r d
  have hb := bh.isLt; have hq := qi.isLt
  refine (iblk3_0_apply V c t r d).trans ?_
  show _ = (V c main_v2 : S32x2048x64.Idx → EReal) (ix3 bh (⟨qi.val * 1024 + r.val, by have := r.isLt; omega⟩ : Fin 2048) d)
  exact congrArg (V c main_v2 : S32x2048x64.Idx → EReal)
    (ix3_congr d (by show t.val / 8 = bh.val; omega) (by show ((t.val / 4) % 2) * 1024 + r.val = qi.val * 1024 + r.val; omega))

theorem rowsK_iblk (c : Dev nD) (t : Fin cfg3.N) (bh : Fin 32) (qi : Fin 2) (j : ℕ) (ht : t.val = bh.val * 8 + qi.val * 4 + j) (hj : j < 4) :
    rowsK (Frame.iblk3 V c 1 t) = Attn.kblk (kA V c) bh j := by
  funext k d
  have hb := bh.isLt; have hq := qi.isLt
  refine (iblk3_1_apply V c t k d).trans ?_
  show _ = (V c main_v5 : S32x2048x64.Idx → EReal) (ix3 bh (⟨(j % 4) * 512 + k.val, by have := k.isLt; omega⟩ : Fin 2048) d)
  exact congrArg (V c main_v5 : S32x2048x64.Idx → EReal)
    (ix3_congr d (by show t.val / 8 = bh.val; omega) (by show (t.val % 4) * 512 + k.val = (j % 4) * 512 + k.val; omega))

theorem rowsV_iblk (c : Dev nD) (t : Fin cfg3.N) (bh : Fin 32) (qi : Fin 2) (j : ℕ) (ht : t.val = bh.val * 8 + qi.val * 4 + j) (hj : j < 4) :
    rowsK (Frame.iblk3 V c 2 t) = Attn.kblk (vA V c) bh j := by
  funext k d
  have hb := bh.isLt; have hq := qi.isLt
  refine (iblk3_2_apply V c t k d).trans ?_
  show _ = (V c main_v8 : S32x2048x64.Idx → EReal) (ix3 bh (⟨(j % 4) * 512 + k.val, by have := k.isLt; omega⟩ : Fin 2048) d)
  exact congrArg (V c main_v8 : S32x2048x64.Idx → EReal)
    (ix3_congr d (by show t.val / 8 = bh.val; omega) (by show (t.val % 4) * 512 + k.val = (j % 4) * 512 + k.val; omega))

/-! ## One point: each of the three shapes of the body is one step of the running softmax -/

/-- A point of key block 0 leaves the state after one step. -/
theorem ptA3_val (c : Dev nD) (t : Fin cfg3.N) (h0 : t.val % 4 = 0) (h1 : ¬t.val % 4 = 3)
    (bh : Fin 32) (qi : Fin 2) (ht : t.val = bh.val * 8 + qi.val * 4 + 0) :
    colM (Frame.ptA3 V c t h0 h1).2.1 = (St V c bh qi (0 + 1)).1
    ∧ colM (Frame.ptA3 V c t h0 h1).2.2.1 = (St V c bh qi (0 + 1)).2.1
    ∧ blkA (Frame.ptA3 V c t h0 h1).2.2.2 = (St V c bh qi (0 + 1)).2.2 := by
  dsimp only [Frame.ptA3]
  have eQ := rowsQ_iblk V c t bh qi 0 ht (by decide)
  have eK := rowsK_iblk V c t bh qi 0 ht (by decide)
  have eV := rowsV_iblk V c t bh qi 0 ht (by decide)
  refine ⟨funext fun r => ?_, funext fun r => ?_, funext fun r => funext fun d => ?_⟩
  · refine (soutA_0_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) ((Frame.hcond3_0 t).mpr h0) (fun h => h1 ((Frame.hcond3_1 t).mp h)) (Frame.iblk3 V c 0 t) (Frame.iblk3 V c 1 t) (Frame.iblk3 V c 2 t) r).trans ?_
    show Attn.stepM (rowsQ (Frame.iblk3 V c 0 t)) (rowsK (Frame.iblk3 V c 1 t)) (fun _ => (⊥ : EReal)) r = _
    rw [eQ, eK]
    rfl
  · refine (soutA_1_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) ((Frame.hcond3_0 t).mpr h0) (fun h => h1 ((Frame.hcond3_1 t).mp h)) (Frame.iblk3 V c 0 t) (Frame.iblk3 V c 1 t) (Frame.iblk3 V c 2 t) r).trans ?_
    show Attn.stepL (rowsQ (Frame.iblk3 V c 0 t)) (rowsK (Frame.iblk3 V c 1 t)) (fun _ => (⊥ : EReal)) (fun _ => (0 : EReal)) r = _
    rw [eQ, eK]
    rfl
  · refine (soutA_2_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) ((Frame.hcond3_0 t).mpr h0) (fun h => h1 ((Frame.hcond3_1 t).mp h)) (Frame.iblk3 V c 0 t) (Frame.iblk3 V c 1 t) (Frame.iblk3 V c 2 t) r d).trans ?_
    show Attn.stepAcc (rowsQ (Frame.iblk3 V c 0 t)) (rowsK (Frame.iblk3 V c 1 t)) (rowsK (Frame.iblk3 V c 2 t)) (fun _ => (⊥ : EReal)) (fun _ _ => (0 : EReal)) r d = _
    rw [eQ, eK, eV]
    rfl

/-- A point of key block 1 or 2, over the state after `j + 1` steps, leaves the state after one step more. -/
theorem ptB3_val (c : Dev nD) (t : Fin cfg3.N) (h0 : ¬t.val % 4 = 0) (h1 : ¬t.val % 4 = 3)
    (xs0 xs1 : Vec Ideal S1024x1 .f32) (xs2 : Vec Ideal S1024x64 .f32)
    (bh : Fin 32) (qi : Fin 2) (j : ℕ) (ht : t.val = bh.val * 8 + qi.val * 4 + (j + 1)) (hj : j + 1 < 4)
    (hx0 : colM xs0 = (St V c bh qi (j + 1)).1) (hx1 : colM xs1 = (St V c bh qi (j + 1)).2.1) (hx2 : blkA xs2 = (St V c bh qi (j + 1)).2.2) :
    colM (Frame.ptB3 V c t h0 h1 xs0 xs1 xs2).2.1 = (St V c bh qi (j + 1 + 1)).1
    ∧ colM (Frame.ptB3 V c t h0 h1 xs0 xs1 xs2).2.2.1 = (St V c bh qi (j + 1 + 1)).2.1
    ∧ blkA (Frame.ptB3 V c t h0 h1 xs0 xs1 xs2).2.2.2 = (St V c bh qi (j + 1 + 1)).2.2 := by
  dsimp only [Frame.ptB3]
  have eQ := rowsQ_iblk V c t bh qi (j + 1) ht hj
  have eK := rowsK_iblk V c t bh qi (j + 1) ht hj
  have eV := rowsV_iblk V c t bh qi (j + 1) ht hj
  refine ⟨funext fun r => ?_, funext fun r => ?_, funext fun r => funext fun d => ?_⟩
  · refine (soutB_0_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) (fun h => h1 ((Frame.hcond3_1 t).mp h)) (Frame.iblk3 V c 0 t) (Frame.iblk3 V c 1 t) (Frame.iblk3 V c 2 t) xs0 xs1 xs2 r).trans ?_
    show Attn.stepM (rowsQ (Frame.iblk3 V c 0 t)) (rowsK (Frame.iblk3 V c 1 t)) (colM xs0) r = _
    rw [eQ, eK, hx0]
    rfl
  · refine (soutB_1_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) (fun h => h1 ((Frame.hcond3_1 t).mp h)) (Frame.iblk3 V c 0 t) (Frame.iblk3 V c 1 t) (Frame.iblk3 V c 2 t) xs0 xs1 xs2 r).trans ?_
    show Attn.stepL (rowsQ (Frame.iblk3 V c 0 t)) (rowsK (Frame.iblk3 V c 1 t)) (colM xs0) (colM xs1) r = _
    rw [eQ, eK, hx0, hx1]
    rfl
  · refine (soutB_2_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) (fun h => h1 ((Frame.hcond3_1 t).mp h)) (Frame.iblk3 V c 0 t) (Frame.iblk3 V c 1 t) (Frame.iblk3 V c 2 t) xs0 xs1 xs2 r d).trans ?_
    show Attn.stepAcc (rowsQ (Frame.iblk3 V c 0 t)) (rowsK (Frame.iblk3 V c 1 t)) (rowsK (Frame.iblk3 V c 2 t)) (colM xs0) (blkA xs2) r d = _
    rw [eQ, eK, eV, hx0, hx2]
    rfl

/-- A point of key block 3 does the same, and leaves in the output block the quotient of the new state. -/
theorem ptC3_val (c : Dev nD) (t : Fin cfg3.N) (h0 : ¬t.val % 4 = 0) (h1 : t.val % 4 = 3)
    (xs0 xs1 : Vec Ideal S1024x1 .f32) (xs2 : Vec Ideal S1024x64 .f32)
    (bh : Fin 32) (qi : Fin 2) (j : ℕ) (ht : t.val = bh.val * 8 + qi.val * 4 + (j + 1)) (hj : j + 1 < 4)
    (hx0 : colM xs0 = (St V c bh qi (j + 1)).1) (hx1 : colM xs1 = (St V c bh qi (j + 1)).2.1) (hx2 : blkA xs2 = (St V c bh qi (j + 1)).2.2) :
    (colM (Frame.ptC3 V c t h0 h1 xs0 xs1 xs2).2.1 = (St V c bh qi (j + 1 + 1)).1
      ∧ colM (Frame.ptC3 V c t h0 h1 xs0 xs1 xs2).2.2.1 = (St V c bh qi (j + 1 + 1)).2.1
      ∧ blkA (Frame.ptC3 V c t h0 h1 xs0 xs1 xs2).2.2.2 = (St V c bh qi (j + 1 + 1)).2.2)
    ∧ ∀ (r : Fin 1024) (d : Fin 64), rowsQ (Frame.ptC3 V c t h0 h1 xs0 xs1 xs2).1 r d
        = Ideal.div ((St V c bh qi (j + 1 + 1)).2.2 r d) ((St V c bh qi (j + 1 + 1)).2.1 r) := by
  dsimp only [Frame.ptC3]
  have eQ := rowsQ_iblk V c t bh qi (j + 1) ht hj
  have eK := rowsK_iblk V c t bh qi (j + 1) ht hj
  have eV := rowsV_iblk V c t bh qi (j + 1) ht hj
  refine ⟨⟨funext fun r => ?_, funext fun r => ?_, funext fun r => funext fun d => ?_⟩, fun r d => ?_⟩
  · refine (soutC_0_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) ((Frame.hcond3_1 t).mpr h1) (Frame.iblk3 V c 0 t) (Frame.iblk3 V c 1 t) (Frame.iblk3 V c 2 t) xs0 xs1 xs2 r).trans ?_
    show Attn.stepM (rowsQ (Frame.iblk3 V c 0 t)) (rowsK (Frame.iblk3 V c 1 t)) (colM xs0) r = _
    rw [eQ, eK, hx0]
    rfl
  · refine (soutC_1_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) ((Frame.hcond3_1 t).mpr h1) (Frame.iblk3 V c 0 t) (Frame.iblk3 V c 1 t) (Frame.iblk3 V c 2 t) xs0 xs1 xs2 r).trans ?_
    show Attn.stepL (rowsQ (Frame.iblk3 V c 0 t)) (rowsK (Frame.iblk3 V c 1 t)) (colM xs0) (colM xs1) r = _
    rw [eQ, eK, hx0, hx1]
    rfl
  · refine (soutC_2_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) ((Frame.hcond3_1 t).mpr h1) (Frame.iblk3 V c 0 t) (Frame.iblk3 V c 1 t) (Frame.iblk3 V c 2 t) xs0 xs1 xs2 r d).trans ?_
    show Attn.stepAcc (rowsQ (Frame.iblk3 V c 0 t)) (rowsK (Frame.iblk3 V c 1 t)) (rowsK (Frame.iblk3 V c 2 t)) (colM xs0) (blkA xs2) r d = _
    rw [eQ, eK, eV, hx0, hx2]
    rfl
  · refine (outC_3_apply c (grid3.coords t) (Frame.ms3_0 t) (Frame.hs3_0 t) (Frame.ms3_1 t) (Frame.hs3_1 t) (Frame.ms3_2 t) (Frame.hs3_2 t) (Frame.ms3_3 t) (Frame.hs3_3 t) Frame.scM3_0 (Memref.isWhole_whole _) Frame.scM3_1 (Memref.isWhole_whole _) Frame.scM3_2 (Memref.isWhole_whole _) (fun h => h0 ((Frame.hcond3_0 t).mp h)) ((Frame.hcond3_1 t).mpr h1) (Frame.iblk3 V c 0 t) (Frame.iblk3 V c 1 t) (Frame.iblk3 V c 2 t) xs0 xs1 xs2 r d).trans ?_
    show Ideal.div (Attn.stepAcc (rowsQ (Frame.iblk3 V c 0 t)) (rowsK (Frame.iblk3 V c 1 t)) (rowsK (Frame.iblk3 V c 2 t)) (colM xs0) (blkA xs2) r d)
        (Attn.stepL (rowsQ (Frame.iblk3 V c 0 t)) (rowsK (Frame.iblk3 V c 1 t)) (colM xs0) (colM xs1) r) = _
    rw [eQ, eK, eV, hx0, hx1, hx2]
    rfl

/-! ## The invariant: after the point of key block `j` the carried buffers hold the state after `j + 1` steps -/

theorem pos_lt3 (t : Fin cfg3.N) : t.val < 256 := by have := t.isLt; have hN : cfg3.N = 256 := N_3; omega

theorem inv3 (c : Dev nD) : ∀ (n : ℕ) (hn : n < cfg3.N) (bh : Fin 32) (qi : Fin 2) (j : ℕ),
    n = bh.val * 8 + qi.val * 4 + j → j < 4 →
    colM (Frame.outsAt3 (F := Ideal) V c n hn).2.1 = (St V c bh qi (j + 1)).1
    ∧ colM (Frame.outsAt3 (F := Ideal) V c n hn).2.2.1 = (St V c bh qi (j + 1)).2.1
    ∧ blkA (Frame.outsAt3 (F := Ideal) V c n hn).2.2.2 = (St V c bh qi (j + 1)).2.2
  | 0, hn, bh, qi, j, ht, hj => by
    obtain rfl : j = 0 := by omega
    rw [Frame.outsAt3_A V c ⟨0, hn⟩ (Nat.zero_mod _) (by show ¬(0 : ℕ) % 4 = 3; decide)]
    exact ptA3_val V c ⟨0, hn⟩ _ _ bh qi ht
  | n + 1, hn, bh, qi, j, ht, hj => by
    by_cases h0 : (n + 1) % 4 = 0
    · obtain rfl : j = 0 := by omega
      have h1 : ¬(n + 1) % 4 = 3 := by omega
      rw [Frame.outsAt3_A V c ⟨n + 1, hn⟩ h0 h1]
      exact ptA3_val V c ⟨n + 1, hn⟩ h0 h1 bh qi ht
    · obtain ⟨j', rfl⟩ : ∃ j', j = j' + 1 := ⟨j - 1, by omega⟩
      have ih := inv3 c n (Nat.lt_of_succ_lt hn) bh qi j' (by omega) (by omega)
      by_cases h1 : (n + 1) % 4 = 3
      · rw [Frame.outsAt3_C V c ⟨n + 1, hn⟩ h0 h1]
        exact (ptC3_val V c ⟨n + 1, hn⟩ h0 h1 (Frame.outsAt3 (F := Ideal) V c n (Nat.lt_of_succ_lt hn)).2.1 (Frame.outsAt3 (F := Ideal) V c n (Nat.lt_of_succ_lt hn)).2.2.1 (Frame.outsAt3 (F := Ideal) V c n (Nat.lt_of_succ_lt hn)).2.2.2 bh qi j' ht hj ih.1 ih.2.1 ih.2.2).1
      · rw [Frame.outsAt3_B V c ⟨n + 1, hn⟩ h0 h1]
        exact ptB3_val V c ⟨n + 1, hn⟩ h0 h1 (Frame.outsAt3 (F := Ideal) V c n (Nat.lt_of_succ_lt hn)).2.1 (Frame.outsAt3 (F := Ideal) V c n (Nat.lt_of_succ_lt hn)).2.2.1 (Frame.outsAt3 (F := Ideal) V c n (Nat.lt_of_succ_lt hn)).2.2.2 bh qi j' ht hj ih.1 ih.2.1 ih.2.2

/-! ## The output block of a point of key block 3, and the array -/

/-- What a point of key block 3 leaves in its output block is softmax attention of the pair's row under it. -/
theorem out3_val (c : Dev nD)
    (hq : ∀ i, ∃ x : ℝ, (V c main_v2 : S32x2048x64.Idx → EReal) i = (x : EReal)) (hk : ∀ i, ∃ x : ℝ, (V c main_v5 : S32x2048x64.Idx → EReal) i = (x : EReal)) (hv : ∀ i, ∃ x : ℝ, (V c main_v8 : S32x2048x64.Idx → EReal) i = (x : EReal))
    (t : Fin cfg3.N) (h3 : t.val % 4 = 3) (r : Fin 1024) (d : Fin 64) :
    ((Frame.outsAt3 (F := Ideal) V c t.val t.isLt).1 : S1x1024x64.Idx → EReal) (ix3 (0 : Fin 1) r d)
      = Attn.attend (qA V c) (kA V c) (vA V c) (pairOf t) (qrow t r) d := by
  have hN := pos_lt3 t
  have h0 : ¬t.val % 4 = 0 := by omega
  have hb : t.val / 8 < 32 := by omega
  have hqi : (t.val / 4) % 2 < 2 := by omega
  have ht : t.val = (⟨t.val / 8, hb⟩ : Fin 32).val * 8 + (⟨(t.val / 4) % 2, hqi⟩ : Fin 2).val * 4 + (2 + 1) := by
    show t.val = t.val / 8 * 8 + (t.val / 4) % 2 * 4 + (2 + 1); omega
  have ih := inv3 V c (t.val - 1) (Nat.lt_of_le_of_lt (Nat.sub_le _ _) t.isLt) ⟨t.val / 8, hb⟩ ⟨(t.val / 4) % 2, hqi⟩ 2
    (by show t.val - 1 = t.val / 8 * 8 + (t.val / 4) % 2 * 4 + 2; omega) (by decide)
  rw [Frame.outsAt3_C V c t h0 h3]
  refine ((ptC3_val V c t h0 h3 (Frame.outsAt3 (F := Ideal) V c (t.val - 1) (Nat.lt_of_le_of_lt (Nat.sub_le _ _) t.isLt)).2.1 (Frame.outsAt3 (F := Ideal) V c (t.val - 1) (Nat.lt_of_le_of_lt (Nat.sub_le _ _) t.isLt)).2.2.1 (Frame.outsAt3 (F := Ideal) V c (t.val - 1) (Nat.lt_of_le_of_lt (Nat.sub_le _ _) t.isLt)).2.2.2 ⟨t.val / 8, hb⟩ ⟨(t.val / 4) % 2, hqi⟩ 2 ht (by decide) ih.1 ih.2.1 ih.2.2).2 r d).trans ?_
  exact (Attn.attend_eq_iter (qA V c) (kA V c) (vA V c) (fun bh s d => hq (ix3 bh s d)) (fun bh s d => hk (ix3 bh s d)) (fun bh s d => hv (ix3 bh s d))
    ⟨t.val / 8, hb⟩ ⟨(t.val / 4) % 2, hqi⟩ r d (qrow t r) rfl).symm

/-- THE OUTPUT ARRAY WHEN THE REGION ENDS, index by index: softmax attention of the three arrays the region reads. -/
theorem final3 (c : Dev nD)
    (hq : ∀ i, ∃ x : ℝ, (V c main_v2 : S32x2048x64.Idx → EReal) i = (x : EReal)) (hk : ∀ i, ∃ x : ℝ, (V c main_v5 : S32x2048x64.Idx → EReal) i = (x : EReal)) (hv : ∀ i, ∃ x : ℝ, (V c main_v8 : S32x2048x64.Idx → EReal) i = (x : EReal))
    (bh : Fin 32) (s : Fin 2048) (d : Fin 64) :
    ((Frame.dat3 (F := Ideal) V c).arrAt 3 cfg3.N : S32x2048x64.Idx → EReal) (ix3 bh s d)
      = Attn.attend (fun bh s d => (V c main_v2 : S32x2048x64.Idx → EReal) (ix3 bh s d)) (fun bh s d => (V c main_v5 : S32x2048x64.Idx → EReal) (ix3 bh s d)) (fun bh s d => (V c main_v8 : S32x2048x64.Idx → EReal) (ix3 bh s d)) bh s d := by
  rw [arr3_of_points V c
    (fun i => Attn.attend (qA V c) (kA V c) (vA V c) ⟨(i 0).val, (i 0).isLt⟩ ⟨(i 1).val, (i 1).isLt⟩ ⟨(i 2).val, (i 2).isLt⟩)
    (fun t h3 r d => out3_val V c hq hk hv t h3 r d)]

end Cert.KernelIdeal.Value3

end
-- ==== Proof.ValOProjPieces.lean ====
/-
  Region 4 (the output projection, accumulated over the 16 heads): what each of the body's three shapes
  leaves in the accumulator and in the output block, as the body's own arithmetic applied to the input blocks.
  Every store of the body covers its whole buffer and every load reads a whole buffer, so what a shape leaves
  is the payload of its last store, at the contents the loads found.
-/
import proofs.«130128_j25795573580066_2_alg».proof.Proof.Region4
import Idealize.ShloMosaic.Lib.Pipeline.Value
import Idealize.ShloMosaic.Lib.Tactic

set_option maxRecDepth 16384

noncomputable section

namespace Cert.KernelIdeal.Value4

open Cert.KernelIdeal Cert.KernelIdeal.Gen Cert.KernelIdeal.Frame
open Idealize.ShloMosaic Idealize.ShloMosaic.TcCoe Idealize.ShloMosaic.Tactic Idealize.SL.Sem
open Idealize.ShloMosaic.Pipeline (Dat)

variable {F : FTy → Type} [FloatOps F]

/-- Zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- HEADS 1 … 14: the accumulator, found at `xs0`, is left at `xs0` plus the head's product. -/
theorem sout_B (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : ¬cond4_1 i)
    (x0 : Vec F S1x512x64 .f32) (x1 : Vec F S64x1024 .f32) (x2 : Vec F S1x1024 .f32) (xs0 : Vec F S512x1024 .f32) :
    sout4_B_0 c i arg3 harg3 arg4 harg4 arg5 harg5 arg6 harg6 arg7 harg7 hc0 hc1 x0 x1 x2 xs0 = k4_pay2 x0 x1 xs0 := by
  unfold sout4_B_0
  rw [View.read_writes_eq_canon _ _ _ (scover4_B_0 c i arg3 harg3 arg4 harg4 arg5 harg5 arg6 harg6 arg7 harg7 hc0 hc1 x0 x1 x2 xs0)]
  unfold kernelRun4_B
  dsimp only
  rw [View.canon_unit_zero hz2]
  simp only [View.readAt_eq_ld, harg3.read_unread, harg4.read_unread, harg7.read_unread,
    View.ld_unit_zero (S := S1x512x64) hz3, View.ld_unit_zero (S := S64x1024) hz2, View.ld_unit_zero (S := S512x1024) hz2]

/-- HEAD 0: the accumulator is zeroed, read back, and left at zero plus the head's product. -/
theorem sout_A (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond4_0 i) (hc1 : ¬cond4_1 i)
    (x0 : Vec F S1x512x64 .f32) (x1 : Vec F S64x1024 .f32) (x2 : Vec F S1x1024 .f32) :
    sout4_A_0 c i arg3 harg3 arg4 harg4 arg5 harg5 arg6 harg6 arg7 harg7 hc0 hc1 x0 x1 x2 = k4_pay2 x0 x1 (k4_pay1 (F := F)) := by
  unfold sout4_A_0
  rw [View.read_writes_eq_canon _ _ _ (scover4_A_0 c i arg3 harg3 arg4 harg4 arg5 harg5 arg6 harg6 arg7 harg7 hc0 hc1 x0 x1 x2)]
  unfold kernelRun4_A
  dsimp only
  sl_unfold_words
  rw [View.canon_cons_unit_zero (S := S512x1024) hz2, View.readCov_unit_zero (S := S512x1024) _ hz2]
  simp only [View.readAt_eq_ld, harg3.read_unread, harg4.read_unread,
    View.ld_unit_zero (S := S1x512x64) hz3, View.ld_unit_zero (S := S64x1024) hz2]

/-- HEAD 15, the accumulator: as at a middle head. -/
theorem sout_C (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) :
    sout4_C_0 c i arg3 harg3 arg4 harg4 arg5 harg5 arg6 harg6 arg7 harg7 hc0 hc1 x0 x1 x2 xs0 = k4_pay2 x0 x1 xs0 := by
  unfold sout4_C_0
  rw [View.read_writes_eq_canon _ _ _ (scover4_C_0 c i arg3 harg3 arg4 harg4 arg5 harg5 arg6 harg6 arg7 harg7 hc0 hc1 x0 x1 x2 xs0)]
  unfold kernelRun4_C
  dsimp only
  sl_unfold_words
  rw [View.canon_unit_zero hz2]
  simp only [View.readAt_eq_ld, harg3.read_unread, harg4.read_unread, harg7.read_unread,
    View.ld_unit_zero (S := S1x512x64) hz3, View.ld_unit_zero (S := S64x1024) hz2, View.ld_unit_zero (S := S512x1024) hz2]

/-- HEAD 15, the output block: the accumulator just stored, read back, plus the bias row. -/
theorem out_C (c : Dev nD) (i : grid4.Coords) (arg3 : Memref sig .tc .vmem S1x512x64 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond4_0 i) (hc1 : cond4_1 i)
    (x0 : Vec F S1x512x64 .f32) (x1 : Vec F S64x1024 .f32) (x2 : Vec F S1x1024 .f32) (xs0 : Vec F S512x1024 .f32) :
    out4_C_3 c i arg3 harg3 arg4 harg4 arg5 harg5 arg6 harg6 arg7 harg7 hc0 hc1 x0 x1 x2 xs0 = k4_pay3 (k4_pay2 x0 x1 xs0) x2 := by
  unfold out4_C_3
  rw [View.read_writes_eq_canon _ _ _ (cover4_C_3 c i arg3 harg3 arg4 harg4 arg5 harg5 arg6 harg6 arg7 harg7 hc0 hc1 x0 x1 x2 xs0)]
  unfold kernelRun4_C
  dsimp only
  sl_unfold_words
  rw [View.canon_unit_zero hz3, View.readCov_unit_zero (S := S512x1024) _ hz2]
  simp only [View.readAt_eq_ld, harg3.read_unread, harg4.read_unread, harg5.read_unread, harg7.read_unread,
    View.ld_unit_zero (S := S1x512x64) hz3, View.ld_unit_zero (S := S64x1024) hz2, View.ld_unit_zero (S := S512x1024) hz2,
    View.ld_unit_zero (S := S1x1024) hz2]

end Cert.KernelIdeal.Value4

end
-- ==== Proof.ValOProjPay.lean ====
/-
  Region 4 (the output projection, accumulated over the 16 heads): the body's arithmetic read at an index, on the
  extended reals.  The accumulator update adds to the accumulator at row `r`, feature `f` the dot product, over the
  head's 64 columns, of the slab's row `r` with column `f` of the head's 64 rows of the transposed output weights;
  the zeroed accumulator is `0` everywhere; the stored block is the accumulator plus the bias row.
-/
import proofs.«130128_j25795573580066_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Value4

open Cert.KernelIdeal Cert.KernelIdeal.Gen
open Idealize.ShloMosaic Idealize.ShloMosaic.ValueIdx
open scoped BigOperators

/-- Where the product's operands are read: the left operand at (output row, contraction index), the right operand
    at (contraction index, output column). -/
theorem lhs_0 (j : S512x1024.Idx) (q : dot_S512x64_S64x1024_S512x1024_1_0_0_1_n_n.contr.Idx) : (dot_S512x64_S64x1024_S512x1024_1_0_0_1_n_n.lhsIdx j q 0).val = (j 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_1 (j : S512x1024.Idx) (q : dot_S512x64_S64x1024_S512x1024_1_0_0_1_n_n.contr.Idx) : (dot_S512x64_S64x1024_S512x1024_1_0_0_1_n_n.lhsIdx j q 1).val = (q ⟨0, by decide⟩).val :=
  dot_S512x64_S64x1024_S512x1024_1_0_0_1_n_n.lhsIdx_val_of_single rfl j q
theorem rhs_0 (j : S512x1024.Idx) (q : dot_S512x64_S64x1024_S512x1024_1_0_0_1_n_n.contr.Idx) : (dot_S512x64_S64x1024_S512x1024_1_0_0_1_n_n.rhsIdx j q 0).val = (q ⟨0, by decide⟩).val :=
  dot_S512x64_S64x1024_S512x1024_1_0_0_1_n_n.rhsIdx_val_of_single rfl j q
theorem rhs_1 (j : S512x1024.Idx) (q : dot_S512x64_S64x1024_S512x1024_1_0_0_1_n_n.contr.Idx) : (dot_S512x64_S64x1024_S512x1024_1_0_0_1_n_n.rhsIdx j q 1).val = (j 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- The head's matrix product read at row `r`, feature `f`: the sum over the head's 64 columns `d` of the slab at
    `(r, d)` times the weights' block at `(d, f)`. -/
theorem matmul_at (a : FVec Ideal S512x64 .bf16) (w : FVec Ideal S64x1024 .bf16) (r : Fin 512) (f : Fin 1024) :
    matmul (F := Ideal) dot_S512x64_S64x1024_S512x1024_1_0_0_1_n_n none a w (constant (F := Ideal) S512x1024 .f32 0x00000000#32) (ix2 r f)
      = ∑ d : Fin 64, a (ix2 r d) * w (ix2 d f) := by
  refine (Ideal.matmul_constant_zero_apply dot_S512x64_S64x1024_S512x1024_1_0_0_1_n_n none a w (ix2 r f)).trans ?_
  rw [← Equiv.sum_comp (ValueIdx.contrEquiv1 dot_S512x64_S64x1024_S512x1024_1_0_0_1_n_n 64 rfl rfl).symm]
  refine Finset.sum_congr rfl fun k _ => ?_
  have hk := ValueIdx.contrEquiv1_symm_val dot_S512x64_S64x1024_S512x1024_1_0_0_1_n_n 64 rfl rfl k
  have el : dot_S512x64_S64x1024_S512x1024_1_0_0_1_n_n.lhsIdx (ix2 r f) ((ValueIdx.contrEquiv1 dot_S512x64_S64x1024_S512x1024_1_0_0_1_n_n 64 rfl rfl).symm k) = ix2 r k := funext fun a => Fin.ext (by
    match a with
    | ⟨0, _⟩ => exact lhs_0 _ _
    | ⟨1, _⟩ => exact (lhs_1 _ _).trans hk)
  have er : dot_S512x64_S64x1024_S512x1024_1_0_0_1_n_n.rhsIdx (ix2 r f) ((ValueIdx.contrEquiv1 dot_S512x64_S64x1024_S512x1024_1_0_0_1_n_n 64 rfl rfl).symm k) = ix2 k f := funext fun a => Fin.ext (by
    match a with
    | ⟨0, _⟩ => exact (rhs_0 _ _).trans hk
    | ⟨1, _⟩ => exact rhs_1 _ _)
  rw [el, er]

/-- The zeroed accumulator is `0` at every index. -/
theorem pay1_apply (r : Fin 512) (f : Fin 1024) : (k4_pay1 (F := Ideal) : S512x1024.Idx → EReal) (ix2 r f) = 0 := by
  unfold k4_pay1
  refine (congrFun (shapeCast_self _ _) _).trans ?_
  exact Ideal.ofBits_zero_f32

/-- The accumulator update at row `r`, feature `f`: what the accumulator held there plus the head's product. The two
    format changes are the identity; the slab is read through its unit leading axis. -/
theorem pay2_apply (x0 : Vec Ideal S1x512x64 .f32) (x1 : Vec Ideal S64x1024 .f32) (xs : Vec Ideal S512x1024 .f32)
    (r : Fin 512) (f : Fin 1024) :
    (k4_pay2 (F := Ideal) x0 x1 xs : S512x1024.Idx → EReal) (ix2 r f)
      = (xs : S512x1024.Idx → EReal) (ix2 r f)
          + ∑ d : Fin 64, (x0 : S1x512x64.Idx → EReal) (ix3 (0 : Fin 1) r d) * (x1 : S64x1024.Idx → EReal) (ix2 d f) := by
  have hr : r.val < 512 := r.isLt
  unfold k4_pay2
  refine (congrFun (shapeCast_self _ _) _).trans ?_
  refine (addf_apply _ _ (ix2 r f)).trans ?_
  refine congrArg₂ (· + ·) rfl ?_
  refine (matmul_at _ _ r f).trans ?_
  refine Finset.sum_congr rfl fun d _ => ?_
  refine congrArg₂ (· * ·) ?_ ?_
  · refine (truncf_apply (ψ := .bf16) (shapeCast S512x64 x0 shapeCasts_S1x512x64_S512x64) bitsLt_bf16_f32 (ix2 r d)).trans ?_
    exact shapeCast_apply _ _ (ix2 r d) (ix3 (0 : Fin 1) r d)
      (by rw [Shape.rowMajor_val_three, Shape.rowMajor_val_two]
          show (0 * 512 + r.val) * 64 + d.val = r.val * 64 + d.val
          omega)
  · refine (truncf_apply (ψ := .bf16) (shapeCast S64x1024 x1 shapeCasts_S64x1024_S64x1024) bitsLt_bf16_f32 (ix2 d f)).trans ?_
    exact congrFun (shapeCast_self _ _) _

/-- The stored block at row `r`, feature `f`: the accumulator there plus the bias at `f`. -/
theorem pay3_apply (acc : Vec Ideal S512x1024 .f32) (x2 : Vec Ideal S1x1024 .f32) (r : Fin 512) (f : Fin 1024) :
    (k4_pay3 (F := Ideal) acc x2 : S1x512x1024.Idx → EReal) (ix3 (0 : Fin 1) r f)
      = (acc : S512x1024.Idx → EReal) (ix2 r f) + (x2 : S1x1024.Idx → EReal) (ix2 (0 : Fin 1) f) := by
  have hr : r.val < 512 := r.isLt
  unfold k4_pay3
  refine (shapeCast_apply _ _ (ix3 (0 : Fin 1) r f) (ix2 r f)
    (by rw [Shape.rowMajor_val_two, Shape.rowMajor_val_three]
        show r.val * 1024 + f.val = (0 * 512 + r.val) * 1024 + f.val
        omega)).trans ?_
  refine (addf_apply _ _ (ix2 r f)).trans ?_
  refine congrArg₂ (· + ·) rfl ?_
  refine (broadcastTo_apply _ _ (ix2 r f) (ix2 (0 : Fin 1) f)
    (fun a => match a with | ⟨0, _⟩ => rfl | ⟨1, _⟩ => rfl)).trans ?_
  exact congrFun (shapeCast_self _ _) _

end Cert.KernelIdeal.Value4

end
-- ==== Proof.ValOProjAcc.lean ====
/-
  Region 4 (the output projection, accumulated over the 16 heads): what the accumulator holds after every grid
  point.  The grid's position `n` is head `n % 16` of output block `n / 16`.  After the body at position `n` the
  accumulator holds, at row `r` and feature `f`, the sum over the heads `0 … n % 16` of the block's run of each
  head's product there: head 0 starts from zero, every later head adds its product to what the head before left.
-/
import proofs.«130128_j25795573580066_2_alg».proof.Proof.ValOProjPieces
import proofs.«130128_j25795573580066_2_alg».proof.Proof.ValOProjPay

set_option maxRecDepth 16384

noncomputable section

namespace Cert.KernelIdeal.Value4

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

/-! ## One point's step, for any float values -/

section Steps
variable {F : FTy → Type} [FloatOps F]
variable (V : (c : Dev nD) → (b : Ref sig .tc) → Buf (Elt F) ((c : Thread nD τ).loc b))

/-- The three input blocks of the point at `t`, at their literal shapes. -/
abbrev blk0 (c : Dev nD) (t : Fin cfg4.N) : Vec F S1x512x64 .f32 := iblk4 V c 0 t
abbrev blk1 (c : Dev nD) (t : Fin cfg4.N) : Vec F S64x1024 .f32 := iblk4 V c 1 t
abbrev blk2 (c : Dev nD) (t : Fin cfg4.N) : Vec F S1x1024 .f32 := iblk4 V c 2 t

/-- A point of head 0 leaves the accumulator at zero plus the head's product of the point's blocks. -/
theorem acc_zero (c : Dev nD) (t : Fin cfg4.N) (h0 : t.val % 16 = 0) :
    (outsAt4 V c t.val t.isLt).2 = k4_pay2 (blk0 V c t) (blk1 V c t) (k4_pay1 (F := F)) := by
  have h1 : ¬t.val % 16 = 15 := by omega
  refine (congrArg Prod.snd (outsAt4_A V c t h0 h1)).trans ?_
  dsimp only [ptA4]
  exact sout_A (F := F) c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)

/-- A point of a later head leaves the accumulator at what the point before left plus the head's product of the
    point's blocks. -/
theorem acc_succ (c : Dev nD) (n : ℕ) (hn : n + 1 < cfg4.N) (h0 : ¬(n + 1) % 16 = 0) :
    (outsAt4 V c (n + 1) hn).2
      = k4_pay2 (blk0 V c ⟨n + 1, hn⟩) (blk1 V c ⟨n + 1, hn⟩) (outsAt4 V c n (Nat.lt_of_succ_lt hn)).2 := by
  by_cases h1 : (n + 1) % 16 = 15
  · refine (congrArg Prod.snd (outsAt4_C V c ⟨n + 1, hn⟩ h0 h1)).trans ?_
    dsimp only [ptC4]
    exact sout_C (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 V c n (Nat.lt_of_succ_lt hn)).2
  · refine (congrArg Prod.snd (outsAt4_B V c ⟨n + 1, hn⟩ h0 h1)).trans ?_
    dsimp only [ptB4]
    exact sout_B (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 V c n (Nat.lt_of_succ_lt hn)).2

/-- A point of head 15 leaves the output block at the accumulator it has just updated plus the bias row. -/
theorem out_last (c : Dev nD) (n : ℕ) (hn : n + 1 < cfg4.N) (h1 : (n + 1) % 16 = 15) :
    (outsAt4 V c (n + 1) hn).1
      = k4_pay3 (k4_pay2 (blk0 V c ⟨n + 1, hn⟩) (blk1 V c ⟨n + 1, hn⟩) (outsAt4 V c n (Nat.lt_of_succ_lt hn)).2) (blk2 V c ⟨n + 1, hn⟩) := by
  have h0 : ¬(n + 1) % 16 = 0 := by omega
  refine (congrArg Prod.fst (outsAt4_C V c ⟨n + 1, hn⟩ h0 h1)).trans ?_
  dsimp only [ptC4]
  exact out_C (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 V c n (Nat.lt_of_succ_lt hn)).2

end Steps

/-! ## The accumulator after every point, on the extended reals -/

section Ideal
variable (V : (c : Dev nD) → (b : Ref sig .tc) → Buf (Elt Ideal) ((c : Thread nD τ).loc b))

/-- The head product of the point at position `n`, at row `r` and feature `f`: the dot product over the head's 64
    columns of the point's slab row with the point's weight block column; `0` past the grid (never used). -/
def headProd (c : Dev nD) (n : ℕ) (r : Fin 512) (f : Fin 1024) : EReal :=
  if hn : n < cfg4.N then
    ∑ d : Fin 64, (blk0 V c ⟨n, hn⟩ : S1x512x64.Idx → EReal) (ix3 (0 : Fin 1) r d)
      * (blk1 V c ⟨n, hn⟩ : S64x1024.Idx → EReal) (ix2 d f)
  else 0

/-- On the grid it is that dot product. -/
theorem headProd_of_lt (c : Dev nD) (n : ℕ) (hn : n < cfg4.N) (r : Fin 512) (f : Fin 1024) :
    headProd V c n r f
      = ∑ d : Fin 64, (blk0 V c ⟨n, hn⟩ : S1x512x64.Idx → EReal) (ix3 (0 : Fin 1) r d)
          * (blk1 V c ⟨n, hn⟩ : S64x1024.Idx → EReal) (ix2 d f) := by
  unfold headProd
  exact dif_pos hn

/-- THE INVARIANT: after the body at position `n` the accumulator holds, at `(r, f)`, the head products of the
    positions from the block's head 0 (position `n - n % 16`) up to `n`, added in that order. By induction on the
    position: head 0 starts from zero, a later head adds to what the position before left. -/
theorem acc_apply (c : Dev nD) : ∀ (n : ℕ) (hn : n < cfg4.N) (r : Fin 512) (f : Fin 1024),
    ((outsAt4 V c n hn).2 : S512x1024.Idx → EReal) (ix2 r f)
      = ∑ s ∈ Finset.range (n % 16 + 1), headProd V c (n - n % 16 + s) r f
  | 0, hn, r, f => by
    refine (congrFun (acc_zero V c ⟨0, hn⟩ (Nat.zero_mod _)) (ix2 r f)).trans ?_
    refine (pay2_apply (blk0 V c ⟨0, hn⟩) (blk1 V c ⟨0, hn⟩) (k4_pay1 (F := Ideal)) r f).trans ?_
    rw [pay1_apply, zero_add]
    show _ = ∑ s ∈ Finset.range 1, headProd V c (0 + s) r f
    rw [Finset.sum_range_one]
    exact (headProd_of_lt V c 0 hn r f).symm
  | n + 1, hn, r, f => by
    by_cases h0 : (n + 1) % 16 = 0
    · refine (congrFun (acc_zero V c ⟨n + 1, hn⟩ h0) (ix2 r f)).trans ?_
      refine (pay2_apply (blk0 V c ⟨n + 1, hn⟩) (blk1 V c ⟨n + 1, hn⟩) (k4_pay1 (F := Ideal)) r f).trans ?_
      rw [pay1_apply, zero_add, h0, Finset.sum_range_one]
      exact (headProd_of_lt V c (n + 1) hn r f).symm
    · refine (congrFun (acc_succ V c n hn h0) (ix2 r f)).trans ?_
      refine (pay2_apply (blk0 V c ⟨n + 1, hn⟩) (blk1 V c ⟨n + 1, hn⟩) (outsAt4 V c n (Nat.lt_of_succ_lt hn)).2 r f).trans ?_
      rw [acc_apply c n (Nat.lt_of_succ_lt hn) r f]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]
      exact congrArg _ (headProd_of_lt V c (n + 1) hn r f).symm

end Ideal

end Cert.KernelIdeal.Value4

end
-- ==== Proof.ValOProjSum.lean ====
/-
  The output layer's sum over the 1024 features, regrouped by heads: feature `e` is column `e % 64` of head
  `e / 64`, so a sum over the features is the sum over the 16 heads of the sums over each head's 64 columns.
-/
import proofs.«130128_j25795573580066_2_alg».proof.Proof.SpecAttn

noncomputable section

namespace Cert.KernelIdeal.Value4

open scoped BigOperators

/-- (head, column) ↦ feature `head * 64 + column`: a bijection of 16 × 64 with 1024. -/
def colEquiv : Fin 16 × Fin 64 ≃ Fin 1024 where
  toFun p := Attn.col p.1 p.2
  invFun e := (⟨e.val / 64, by have := e.isLt; omega⟩, ⟨e.val % 64, Nat.mod_lt _ (by decide)⟩)
  left_inv p := by
    obtain ⟨h, d⟩ := p
    have := h.isLt; have := d.isLt
    refine Prod.ext (Fin.ext ?_) (Fin.ext ?_)
    · show (h.val * 64 + d.val) / 64 = h.val; omega
    · show (h.val * 64 + d.val) % 64 = d.val; omega
  right_inv e := Fin.ext (by show e.val / 64 * 64 + e.val % 64 = e.val; omega)

/-- A sum over the features is the sum over the heads of the sums over the head's columns. -/
theorem sum_heads (g : Fin 1024 → EReal) : ∑ e : Fin 1024, g e = ∑ h : Fin 16, ∑ d : Fin 64, g (Attn.col h d) := by
  rw [← Fintype.sum_prod_type' (fun h d => g (Attn.col h d))]
  exact (Fintype.sum_equiv colEquiv _ _ (fun p => rfl)).symm

/-- The output layer with its sum regrouped by heads. -/
theorem oproj_heads (a : Fin 32 → Fin 2048 → Fin 64 → EReal) (Wo : Fin 1024 → Fin 1024 → EReal) (bo : Fin 1024 → EReal)
    (b : Fin 2) (s : Fin 2048) (f : Fin 1024) :
    Attn.oproj a Wo bo b s f = (∑ h : Fin 16, ∑ d : Fin 64, a (Attn.pair b h) s d * Wo f (Attn.col h d)) + bo f := by
  unfold Attn.oproj
  refine congrArg (· + bo f) ?_
  rw [sum_heads]
  refine Finset.sum_congr rfl fun h _ => Finset.sum_congr rfl fun d _ => ?_
  have hh := h.isLt
  have hd := d.isLt
  have e1 : (⟨(Attn.col h d).val / 64, by have := (Attn.col h d).isLt; omega⟩ : Fin 16) = h :=
    Fin.ext (by show (h.val * 64 + d.val) / 64 = h.val; omega)
  have e2 : (⟨(Attn.col h d).val % 64, Nat.mod_lt _ (by decide)⟩ : Fin 64) = d :=
    Fin.ext (by show (h.val * 64 + d.val) % 64 = d.val; omega)
  show a (Attn.pair b ⟨(Attn.col h d).val / 64, _⟩) s ⟨(Attn.col h d).val % 64, _⟩ * Wo f (Attn.col h d) = _
  rw [e1, e2]

end Cert.KernelIdeal.Value4

end
-- ==== Proof.ValOProj.lean ====
/-
  Region 4 (the output projection, accumulated over the 16 heads): the output array after the region.
  The grid's position `t` is head `t % 16` of row block `t / 16 % 4` of batch `t / 64`.  The point's slab is rows
  `(t / 16 % 4) * 512 …` of pair `(t / 64) * 16 + t % 16` of the attention output; its weight block is rows
  `(t % 16) * 64 …` of the transposed output weights; its output block is rows `(t / 16 % 4) * 512 …` of batch
  `t / 64`, written back at head 15 only.  So a written-back block holds, at row `r` and feature `f`, the sum over
  the 16 heads of each head's dot product over its 64 columns, plus the bias: regrouped, the sum over all 1024
  features.  Every row of every batch lies in exactly one such block.
-/
import proofs.«130128_j25795573580066_2_alg».proof.Proof.ValOProjAcc
import proofs.«130128_j25795573580066_2_alg».proof.Proof.ValOProjSum
import Idealize.ShloMosaic.Lib.Pipeline.Value

set_option maxRecDepth 16384

noncomputable section

namespace Cert.KernelIdeal.Value4

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

/-! ## Where the blocks sit: the index maps at every point -/

theorem idx4_0 : ∀ t : Fin cfg4.N, win4_0.index t 0 = t.val / 64 * 16 + t.val % 16 ∧ win4_0.index t 1 = t.val / 16 % 4 ∧ win4_0.index t 2 = 0 :=
  (by decide +kernel : ∀ t : Fin grid4.N, win4_0.index t 0 = t.val / 64 * 16 + t.val % 16 ∧ win4_0.index t 1 = t.val / 16 % 4 ∧ win4_0.index t 2 = 0)
theorem idx4_1 : ∀ t : Fin cfg4.N, win4_1.index t 0 = t.val % 16 ∧ win4_1.index t 1 = 0 :=
  (by decide +kernel : ∀ t : Fin grid4.N, win4_1.index t 0 = t.val % 16 ∧ win4_1.index t 1 = 0)
theorem idx4_2 : ∀ t : Fin cfg4.N, win4_2.index t 0 = 0 ∧ win4_2.index t 1 = 0 :=
  (by decide +kernel : ∀ t : Fin grid4.N, win4_2.index t 0 = 0 ∧ win4_2.index t 1 = 0)
theorem idx4_3 : ∀ t : Fin cfg4.N, win4_3.index t 0 = t.val / 64 ∧ win4_3.index t 1 = t.val / 16 % 4 ∧ win4_3.index t 2 = 0 :=
  (by decide +kernel : ∀ t : Fin grid4.N, win4_3.index t 0 = t.val / 64 ∧ win4_3.index t 1 = t.val / 16 % 4 ∧ win4_3.index t 2 = 0)

section
variable (V : (c : Dev nD) → (b : Ref sig .tc) → Buf (Elt Ideal) ((c : Thread nD τ).loc b))

/-! ## The region's inputs as the specification reads them -/

/-- The attention output: pair, row, column. -/
abbrev inA (c : Dev nD) : Fin 32 → Fin 2048 → Fin 64 → EReal := fun bh s d => (V c main_v9 : S32x2048x64.Idx → EReal) (ix3 bh s d)
/-- The output weights, read transposed off the array the region is given. -/
abbrev inW (c : Dev nD) : Fin 1024 → Fin 1024 → EReal := fun f e => (V c main_v10 : S1024x1024.Idx → EReal) (ix2 e f)
/-- The output bias. -/
abbrev inB (c : Dev nD) : Fin 1024 → EReal := fun f => (V c main_v11 : S1x1024.Idx → EReal) (ix2 0 f)

/-! ## The blocks read off the arrays -/

/-- The slab at `(0, r, d)` is the attention output at the point's pair, the point's row block's row `r`, column `d`. -/
theorem blk0_apply (c : Dev nD) (t : Fin cfg4.N) (r : Fin 512) (d : Fin 64) (bh : Fin 32) (s : Fin 2048)
    (hbh : bh.val = t.val / 64 * 16 + t.val % 16) (hs : s.val = t.val / 16 % 4 * 512 + r.val) :
    (blk0 V c t : S1x512x64.Idx → EReal) (ix3 (0 : Fin 1) r d) = inA V c bh s d := by
  obtain ⟨i0, i1, i2⟩ := idx4_0 t
  show (iblk4 V c 0 t) (ix3 (0 : Fin 1) r d) = _
  unfold iblk4
  rw [View.read_apply]
  show (V c main_v9 : S32x2048x64.Idx → EReal) _ = (V c main_v9 : S32x2048x64.Idx → EReal) (ix3 bh s d)
  refine congrArg (V c main_v9 : S32x2048x64.Idx → EReal) (funext fun a => Fin.ext ?_)
  match a with
  | ⟨0, _⟩ => show win4_0.index t 0 * 1 + 1 * 0 = bh.val; rw [i0, hbh]; omega
  | ⟨1, _⟩ => show win4_0.index t 1 * 512 + 1 * r.val = s.val; rw [i1, hs]; omega
  | ⟨2, _⟩ => show win4_0.index t 2 * 64 + 1 * d.val = d.val; rw [i2]; omega

/-- The weight block at `(d, f)` is the transposed weights at the head's row `d`, feature `f`. -/
theorem blk1_apply (c : Dev nD) (t : Fin cfg4.N) (d : Fin 64) (f : Fin 1024) (e : Fin 1024)
    (he : e.val = t.val % 16 * 64 + d.val) :
    (blk1 V c t : S64x1024.Idx → EReal) (ix2 d f) = inW V c f e := by
  obtain ⟨i0, i1⟩ := idx4_1 t
  show (iblk4 V c 1 t) (ix2 d f) = _
  unfold iblk4
  rw [View.read_apply]
  show (V c main_v10 : S1024x1024.Idx → EReal) _ = (V c main_v10 : S1024x1024.Idx → EReal) (ix2 e f)
  refine congrArg (V c main_v10 : S1024x1024.Idx → EReal) (funext fun a => Fin.ext ?_)
  match a with
  | ⟨0, _⟩ => show win4_1.index t 0 * 64 + 1 * d.val = e.val; rw [i0, he]; omega
  | ⟨1, _⟩ => show win4_1.index t 1 * 1024 + 1 * f.val = f.val; rw [i1]; omega

/-- The bias block is the bias row. -/
theorem blk2_apply (c : Dev nD) (t : Fin cfg4.N) (f : Fin 1024) :
    (blk2 V c t : S1x1024.Idx → EReal) (ix2 (0 : Fin 1) f) = inB V c f := by
  obtain ⟨i0, i1⟩ := idx4_2 t
  show (iblk4 V c 2 t) (ix2 (0 : Fin 1) f) = _
  unfold iblk4
  rw [View.read_apply]
  show (V c main_v11 : S1x1024.Idx → EReal) _ = (V c main_v11 : S1x1024.Idx → EReal) (ix2 (0 : Fin 1) f)
  refine congrArg (V c main_v11 : S1x1024.Idx → EReal) (funext fun a => Fin.ext ?_)
  match a with
  | ⟨0, _⟩ => show win4_2.index t 0 * 1 + 1 * 0 = 0; rw [i0]
  | ⟨1, _⟩ => show win4_2.index t 1 * 1024 + 1 * f.val = f.val; rw [i1]; omega

/-- So the head product of the point at `t` is the head's dot product of the specification's inputs. -/
theorem headProd_eq (c : Dev nD) (t : Fin cfg4.N) (r : Fin 512) (f : Fin 1024) (b : Fin 2) (h : Fin 16) (s : Fin 2048)
    (hb : b.val = t.val / 64) (hh : h.val = t.val % 16) (hs : s.val = t.val / 16 % 4 * 512 + r.val) :
    headProd V c t.val r f = ∑ d : Fin 64, inA V c (Attn.pair b h) s d * inW V c f (Attn.col h d) := by
  refine (headProd_of_lt V c t.val t.isLt r f).trans ?_
  refine Finset.sum_congr rfl fun d _ => ?_
  refine congrArg₂ (· * ·) (blk0_apply V c t r d (Attn.pair b h) s ?_ hs) (blk1_apply V c t d f (Attn.col h d) ?_)
  · show b.val * 16 + h.val = _; rw [hb, hh]
  · show h.val * 64 + d.val = _; rw [hh]

/-! ## A written-back block -/

/-- The output block of a head-15 point at `(0, r, f)`: the 16 head products of the block's run, added head by
    head from zero, plus the bias. -/
theorem out_apply (c : Dev nD) (n : ℕ) (hn : n + 1 < cfg4.N) (h1 : (n + 1) % 16 = 15) (r : Fin 512) (f : Fin 1024) :
    ((outsAt4 V c (n + 1) hn).1 : S1x512x1024.Idx → EReal) (ix3 (0 : Fin 1) r f)
      = (∑ s ∈ Finset.range 16, headProd V c (n + 1 - 15 + s) r f) + inB V c f := by
  have h0 : ¬(n + 1) % 16 = 0 := by omega
  refine (congrFun (out_last V c n hn h1) (ix3 (0 : Fin 1) r f)).trans ?_
  refine (pay3_apply (k4_pay2 (blk0 V c ⟨n + 1, hn⟩) (blk1 V c ⟨n + 1, hn⟩) (outsAt4 V c n (Nat.lt_of_succ_lt hn)).2)
    (blk2 V c ⟨n + 1, hn⟩) r f).trans ?_
  refine congrArg₂ (· + ·) ?_ (blk2_apply V c ⟨n + 1, hn⟩ f)
  refine (congrFun (acc_succ V c n hn h0).symm (ix2 r f)).trans ?_
  refine (acc_apply V c (n + 1) hn r f).trans ?_
  rw [h1]

/-- The array the region leaves: the specification's output layer of the region's inputs. -/
def outG (c : Dev nD) : Buf (Elt Ideal) ((c : Thread nD τ).loc main_v12) := fun i =>
  Attn.oproj (inA V c) (inW V c) (inB V c) ⟨(i 0).val, (i 0).isLt⟩ ⟨(i 1).val, (i 1).isLt⟩ ⟨(i 2).val, (i 2).isLt⟩

theorem outG_apply (c : Dev nD) (b : Fin 2) (s : Fin 2048) (f : Fin 1024) :
    (outG V c : S2x2048x1024.Idx → EReal) (ix3 b s f) = Attn.oproj (inA V c) (inW V c) (inB V c) b s f := rfl

/-- What a head-15 point writes back is its block of that array. -/
theorem flushed_eq (c : Dev nD) (t : Fin cfg4.N) (hf : (cfg4.win 3).flush t = true) :
    (dat4 V c).flushed 3 t = ((cfg4.win 3).blk t).view.read (Elt Ideal) (outG V c) := by
  have hN : grid4.N = 128 := N_4
  have h1 : t.val % 16 = 15 := (flush4_3 t).mp hf
  obtain ⟨n, hn⟩ := t
  cases n with
  | zero =>
    have h1' : (0 : ℕ) % 16 = 15 := h1
    omega
  | succ n =>
    replace h1 : (n + 1) % 16 = 15 := h1
    have i0 : win4_3.index ⟨n + 1, hn⟩ 0 = (n + 1) / 64 := (idx4_3 ⟨n + 1, hn⟩).1
    have i1 : win4_3.index ⟨n + 1, hn⟩ 1 = (n + 1) / 16 % 4 := (idx4_3 ⟨n + 1, hn⟩).2.1
    have i2 : win4_3.index ⟨n + 1, hn⟩ 2 = 0 := (idx4_3 ⟨n + 1, hn⟩).2.2
    show (cfg4.win 3).cut (grid4.coords ⟨n + 1, hn⟩) ((dat4 V c).after 3 ⟨n + 1, hn⟩) = _
    rw [after4_3]
    funext y
    obtain ⟨y0, r, f, rfl⟩ : ∃ (y0 : Fin 1) (r : Fin 512) (f : Fin 1024), y = ix3 y0 r f :=
      ⟨y 0, y 1, y 2, @eq_ix3 1 512 1024 y⟩
    obtain rfl : y0 = 0 := Subsingleton.elim _ _
    have hr : r.val < 512 := r.isLt
    have hlt : n + 1 < 128 := hN ▸ hn
    rw [View.read_apply]
    show ((outsAt4 V c (n + 1) hn).1 : S1x512x1024.Idx → EReal) (ix3 (0 : Fin 1) r f)
      = (outG V c : S2x2048x1024.Idx → EReal) (((cfg4.win 3).blk ⟨n + 1, hn⟩).view.emb (ix3 (0 : Fin 1) r f))
    -- the block's element (0, r, f) sits in the array at (batch, row block * 512 + r, f)
    have hemb : ((cfg4.win 3).blk ⟨n + 1, hn⟩).view.emb (ix3 (0 : Fin 1) r f)
        = (ix3 (⟨(n + 1) / 64, by omega⟩ : Fin 2) (⟨(n + 1) / 16 % 4 * 512 + r.val, by omega⟩ : Fin 2048) f : S2x2048x1024.Idx) :=
      funext fun a => Fin.ext (by
        match a with
        | ⟨0, _⟩ => show win4_3.index ⟨n + 1, hn⟩ 0 * 1 + 1 * 0 = (n + 1) / 64; rw [i0]; omega
        | ⟨1, _⟩ => show win4_3.index ⟨n + 1, hn⟩ 1 * 512 + 1 * r.val = (n + 1) / 16 % 4 * 512 + r.val; rw [i1]; omega
        | ⟨2, _⟩ => show win4_3.index ⟨n + 1, hn⟩ 2 * 1024 + 1 * f.val = f.val; rw [i2]; omega)
    rw [hemb, outG_apply, oproj_heads, out_apply V c n hn h1 r f, Finset.sum_range]
    refine congrArg (· + inB V c f) (Finset.sum_congr rfl fun h _ => ?_)
    have hh : h.val < 16 := h.isLt
    exact headProd_eq V c ⟨n + 1 - 15 + h.val, by show _ < grid4.N; omega⟩ r f _ h _
      (by show (n + 1) / 64 = (n + 1 - 15 + h.val) / 64; omega)
      (by show h.val = (n + 1 - 15 + h.val) % 16; omega)
      (by show (n + 1) / 16 % 4 * 512 + r.val = (n + 1 - 15 + h.val) / 16 % 4 * 512 + r.val; omega)

/-! ## The cover, and the array after the region -/

/-- Row `s` of batch `b` lies in the block written back at head 15 of row block `s / 512` of batch `b`. -/
theorem final_o (c : Dev nD) : (dat4 V c).arrAt 3 cfg4.N = outG V c :=
  (dat4 V c).arrAt_eq_of_cover 3 (outG V c) (flushed_eq V c) fun i => by
    have hN : grid4.N = 128 := N_4
    have h0 : (i 0 : Nat) < 2 := (i 0).isLt
    have h1 : (i 1 : Nat) < 2048 := (i 1).isLt
    have h2 : (i 2 : Nat) < 1024 := (i 2).isLt
    have ht : ((i 0 : Nat) * 4 + (i 1 : Nat) / 512) * 16 + 15 < grid4.N := by omega
    refine ⟨⟨((i 0 : Nat) * 4 + (i 1 : Nat) / 512) * 16 + 15, ht⟩, (flush4_3 _).mpr (by show (((i 0 : Nat) * 4 + (i 1 : Nat) / 512) * 16 + 15) % 16 = 15; omega), ?_⟩
    have j0 : win4_3.index ⟨((i 0 : Nat) * 4 + (i 1 : Nat) / 512) * 16 + 15, ht⟩ 0 = (((i 0 : Nat) * 4 + (i 1 : Nat) / 512) * 16 + 15) / 64 := (idx4_3 _).1
    have j1 : win4_3.index ⟨((i 0 : Nat) * 4 + (i 1 : Nat) / 512) * 16 + 15, ht⟩ 1 = (((i 0 : Nat) * 4 + (i 1 : Nat) / 512) * 16 + 15) / 16 % 4 := (idx4_3 _).2.1
    have j2 : win4_3.index ⟨((i 0 : Nat) * 4 + (i 1 : Nat) / 512) * 16 + 15, ht⟩ 2 = 0 := (idx4_3 _).2.2
    show i ∈ ((View.whole main_v12).slice (win4_3.rect ⟨((i 0 : Nat) * 4 + (i 1 : Nat) / 512) * 16 + 15, ht⟩)).set
    rw [View.set_slice_whole, Rect.mem_set_unit]
    intro a
    match a with
    | ⟨0, _⟩ =>
      show win4_3.index ⟨((i 0 : Nat) * 4 + (i 1 : Nat) / 512) * 16 + 15, ht⟩ 0 * 1 ≤ (i 0 : Nat)
        ∧ (i 0 : Nat) < win4_3.index ⟨((i 0 : Nat) * 4 + (i 1 : Nat) / 512) * 16 + 15, ht⟩ 0 * 1 + 1
      rw [j0]; omega
    | ⟨1, _⟩ =>
      show win4_3.index ⟨((i 0 : Nat) * 4 + (i 1 : Nat) / 512) * 16 + 15, ht⟩ 1 * 512 ≤ (i 1 : Nat)
        ∧ (i 1 : Nat) < win4_3.index ⟨((i 0 : Nat) * 4 + (i 1 : Nat) / 512) * 16 + 15, ht⟩ 1 * 512 + 512
      rw [j1]; omega
    | ⟨2, _⟩ =>
      show win4_3.index ⟨((i 0 : Nat) * 4 + (i 1 : Nat) / 512) * 16 + 15, ht⟩ 2 * 1024 ≤ (i 2 : Nat)
        ∧ (i 2 : Nat) < win4_3.index ⟨((i 0 : Nat) * 4 + (i 1 : Nat) / 512) * 16 + 15, ht⟩ 2 * 1024 + 1024
      rw [j2]; omega

end

/-- THE VALUE OF THE REGION: at batch `b`, row `s`, feature `f` the output array holds the specification's output
    layer of the attention output, the output weights (the region is given them transposed) and the output bias. -/
theorem final4 (V : (c : Dev nD) → (b : Ref sig .tc) → Buf (Elt Ideal) ((c : Thread nD τ).loc b)) (c : Dev nD) (b : Fin 2) (s : Fin 2048) (f : Fin 1024) :
    ((Frame.dat4 (F := Ideal) V c).arrAt 3 cfg4.N : S2x2048x1024.Idx → EReal) (ix3 b s f)
      = Attn.oproj (fun bh s d => (V c main_v9 : S32x2048x64.Idx → EReal) (ix3 bh s d)) (fun f e => (V c main_v10 : S1024x1024.Idx → EReal) (ix2 e f))
          (fun f => (V c main_v11 : S1x1024.Idx → EReal) (ix2 0 f)) b s f :=
  (congrFun (final_o V c) (ix3 b s f)).trans (outG_apply V c b s f)

end Cert.KernelIdeal.Value4

end
-- ==== Proof.HostReads.lean ====
/-
  The host operations of the program, read at an index, from any buffer contents.

  Between the kernel regions the program only re-lays arrays out: a bias vector of 1024 entries is read as a
  one-row matrix; a projected array indexed (batch, head, row, column) is read with (batch, head) as one of 32
  pairs; the output weight matrix is transposed. Each result at an index is its operand at one index.
-/
import proofs.«130128_j25795573580066_2_alg».proof.Proof.Gen.KernelIdeal.Launch
import proofs.«130128_j25795573580066_2_alg».proof.Proof.SpecAttn
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.ValueIdx

/-- `main_v0` is the bias vector `main_arg4` read as a one-row matrix. -/
theorem after0_v0 (W : Valuation τ sig (Elt Ideal)) (f : Fin 1024) :
    (StableHlo.after (hostOps0 (F := Ideal)) W (Proc.devRef .tc main_v0) : S1x1024.Idx → EReal) (ix2 (0 : Fin 1) f)
      = (W (Proc.devRef .tc main_arg4) : S1024.Idx → EReal) (ix1 f) := by
  have e : (StableHlo.after (hostOps0 (F := Ideal)) W (Proc.devRef .tc main_v0) : S1x1024.Idx → EReal)
      = shapeCast S1x1024 (W (Proc.devRef .tc main_arg4) : S1024.Idx → EReal) shapeCasts_S1024_S1x1024 := by
    show StableHlo.after (hostOps0 (F := Ideal)) W (Proc.devRef .tc main_v0) = _
    after_results
    rfl
  refine (congrFun e (ix2 (0 : Fin 1) f)).trans ?_
  exact shapeCast_apply _ _ (ix2 (0 : Fin 1) f) (ix1 f)
    (by rw [Shape.rowMajor_val_one, Shape.rowMajor_val_two]
        show f.val = 0 * 1024 + f.val
        omega)

/-- `main_v2` is `main_v1` with (batch, head) read as one of 32 pairs: pair `bh` is head `bh % 16` of batch `bh / 16`. -/
theorem after1_v2 (W : Valuation τ sig (Elt Ideal)) (bh : Fin 32) (s : Fin 2048) (d : Fin 64) :
    (StableHlo.after (hostOps1 (F := Ideal)) W (Proc.devRef .tc main_v2) : S32x2048x64.Idx → EReal) (ix3 bh s d)
      = (W (Proc.devRef .tc main_v1) : S2x16x2048x64.Idx → EReal)
          (ix4 (⟨bh.val / 16, by have := bh.isLt; omega⟩ : Fin 2) (⟨bh.val % 16, Nat.mod_lt _ (by decide)⟩ : Fin 16) s d) := by
  have e : (StableHlo.after (hostOps1 (F := Ideal)) W (Proc.devRef .tc main_v2) : S32x2048x64.Idx → EReal)
      = shapeCast S32x2048x64 (W (Proc.devRef .tc main_v1) : S2x16x2048x64.Idx → EReal) shapeCasts_S2x16x2048x64_S32x2048x64 := by
    show StableHlo.after (hostOps1 (F := Ideal)) W (Proc.devRef .tc main_v2) = _
    after_results
    rfl
  have hbh : bh.val < 32 := bh.isLt
  refine (congrFun e (ix3 bh s d)).trans ?_
  exact shapeCast_apply _ _ (ix3 bh s d)
    (ix4 (⟨bh.val / 16, by omega⟩ : Fin 2) (⟨bh.val % 16, Nat.mod_lt _ (by decide)⟩ : Fin 16) s d)
    (by rw [Shape.rowMajor_val_four, Shape.rowMajor_val_three]
        show ((bh.val / 16 * 16 + bh.val % 16) * 2048 + s.val) * 64 + d.val = (bh.val * 2048 + s.val) * 64 + d.val
        omega)

/-- `main_v3` is the bias vector `main_arg6` read as a one-row matrix. -/
theorem after1_v3 (W : Valuation τ sig (Elt Ideal)) (f : Fin 1024) :
    (StableHlo.after (hostOps1 (F := Ideal)) W (Proc.devRef .tc main_v3) : S1x1024.Idx → EReal) (ix2 (0 : Fin 1) f)
      = (W (Proc.devRef .tc main_arg6) : S1024.Idx → EReal) (ix1 f) := by
  have e : (StableHlo.after (hostOps1 (F := Ideal)) W (Proc.devRef .tc main_v3) : S1x1024.Idx → EReal)
      = shapeCast S1x1024 (W (Proc.devRef .tc main_arg6) : S1024.Idx → EReal) shapeCasts_S1024_S1x1024 := by
    show StableHlo.after (hostOps1 (F := Ideal)) W (Proc.devRef .tc main_v3) = _
    after_results
    rfl
  refine (congrFun e (ix2 (0 : Fin 1) f)).trans ?_
  exact shapeCast_apply _ _ (ix2 (0 : Fin 1) f) (ix1 f)
    (by rw [Shape.rowMajor_val_one, Shape.rowMajor_val_two]
        show f.val = 0 * 1024 + f.val
        omega)

/-- `main_v5` is `main_v4` with (batch, head) read as one of 32 pairs: pair `bh` is head `bh % 16` of batch `bh / 16`. -/
theorem after2_v5 (W : Valuation τ sig (Elt Ideal)) (bh : Fin 32) (s : Fin 2048) (d : Fin 64) :
    (StableHlo.after (hostOps2 (F := Ideal)) W (Proc.devRef .tc main_v5) : S32x2048x64.Idx → EReal) (ix3 bh s d)
      = (W (Proc.devRef .tc main_v4) : S2x16x2048x64.Idx → EReal)
          (ix4 (⟨bh.val / 16, by have := bh.isLt; omega⟩ : Fin 2) (⟨bh.val % 16, Nat.mod_lt _ (by decide)⟩ : Fin 16) s d) := by
  have e : (StableHlo.after (hostOps2 (F := Ideal)) W (Proc.devRef .tc main_v5) : S32x2048x64.Idx → EReal)
      = shapeCast S32x2048x64 (W (Proc.devRef .tc main_v4) : S2x16x2048x64.Idx → EReal) shapeCasts_S2x16x2048x64_S32x2048x64 := by
    show StableHlo.after (hostOps2 (F := Ideal)) W (Proc.devRef .tc main_v5) = _
    after_results
    rfl
  have hbh : bh.val < 32 := bh.isLt
  refine (congrFun e (ix3 bh s d)).trans ?_
  exact shapeCast_apply _ _ (ix3 bh s d)
    (ix4 (⟨bh.val / 16, by omega⟩ : Fin 2) (⟨bh.val % 16, Nat.mod_lt _ (by decide)⟩ : Fin 16) s d)
    (by rw [Shape.rowMajor_val_four, Shape.rowMajor_val_three]
        show ((bh.val / 16 * 16 + bh.val % 16) * 2048 + s.val) * 64 + d.val = (bh.val * 2048 + s.val) * 64 + d.val
        omega)

/-- `main_v6` is the bias vector `main_arg8` read as a one-row matrix. -/
theorem after2_v6 (W : Valuation τ sig (Elt Ideal)) (f : Fin 1024) :
    (StableHlo.after (hostOps2 (F := Ideal)) W (Proc.devRef .tc main_v6) : S1x1024.Idx → EReal) (ix2 (0 : Fin 1) f)
      = (W (Proc.devRef .tc main_arg8) : S1024.Idx → EReal) (ix1 f) := by
  have e : (StableHlo.after (hostOps2 (F := Ideal)) W (Proc.devRef .tc main_v6) : S1x1024.Idx → EReal)
      = shapeCast S1x1024 (W (Proc.devRef .tc main_arg8) : S1024.Idx → EReal) shapeCasts_S1024_S1x1024 := by
    show StableHlo.after (hostOps2 (F := Ideal)) W (Proc.devRef .tc main_v6) = _
    after_results
    rfl
  refine (congrFun e (ix2 (0 : Fin 1) f)).trans ?_
  exact shapeCast_apply _ _ (ix2 (0 : Fin 1) f) (ix1 f)
    (by rw [Shape.rowMajor_val_one, Shape.rowMajor_val_two]
        show f.val = 0 * 1024 + f.val
        omega)

/-- `main_v8` is `main_v7` with (batch, head) read as one of 32 pairs: pair `bh` is head `bh % 16` of batch `bh / 16`. -/
theorem after3_v8 (W : Valuation τ sig (Elt Ideal)) (bh : Fin 32) (s : Fin 2048) (d : Fin 64) :
    (StableHlo.after (hostOps3 (F := Ideal)) W (Proc.devRef .tc main_v8) : S32x2048x64.Idx → EReal) (ix3 bh s d)
      = (W (Proc.devRef .tc main_v7) : S2x16x2048x64.Idx → EReal)
          (ix4 (⟨bh.val / 16, by have := bh.isLt; omega⟩ : Fin 2) (⟨bh.val % 16, Nat.mod_lt _ (by decide)⟩ : Fin 16) s d) := by
  have e : (StableHlo.after (hostOps3 (F := Ideal)) W (Proc.devRef .tc main_v8) : S32x2048x64.Idx → EReal)
      = shapeCast S32x2048x64 (W (Proc.devRef .tc main_v7) : S2x16x2048x64.Idx → EReal) shapeCasts_S2x16x2048x64_S32x2048x64 := by
    show StableHlo.after (hostOps3 (F := Ideal)) W (Proc.devRef .tc main_v8) = _
    after_results
    rfl
  have hbh : bh.val < 32 := bh.isLt
  refine (congrFun e (ix3 bh s d)).trans ?_
  exact shapeCast_apply _ _ (ix3 bh s d)
    (ix4 (⟨bh.val / 16, by omega⟩ : Fin 2) (⟨bh.val % 16, Nat.mod_lt _ (by decide)⟩ : Fin 16) s d)
    (by rw [Shape.rowMajor_val_four, Shape.rowMajor_val_three]
        show ((bh.val / 16 * 16 + bh.val % 16) * 2048 + s.val) * 64 + d.val = (bh.val * 2048 + s.val) * 64 + d.val
        omega)

/-- `main_v10` is the output weight matrix transposed. -/
theorem after4_v10 (W : Valuation τ sig (Elt Ideal)) (e f : Fin 1024) :
    (StableHlo.after (hostOps4 (F := Ideal)) W (Proc.devRef .tc main_v10) : S1024x1024.Idx → EReal) (ix2 e f)
      = (W (Proc.devRef .tc main_arg9) : S1024x1024.Idx → EReal) (ix2 f e) := by
  have h : (StableHlo.after (hostOps4 (F := Ideal)) W (Proc.devRef .tc main_v10) : S1024x1024.Idx → EReal)
      = transpose S1024x1024 [1, 0] (W (Proc.devRef .tc main_arg9) : S1024x1024.Idx → EReal) transposes_S1024x1024_S1024x1024_1_0 := by
    show StableHlo.after (hostOps4 (F := Ideal)) W (Proc.devRef .tc main_v10) = _
    after_results
  refine (congrFun h (ix2 e f)).trans ?_
  exact transpose_apply _ _ _ (ix2 e f) (ix2 f e) (fun b => match b with | ⟨0, _⟩ => rfl | ⟨1, _⟩ => rfl)

/-- `main_v11` is the bias vector `main_arg10` read as a one-row matrix. -/
theorem after4_v11 (W : Valuation τ sig (Elt Ideal)) (f : Fin 1024) :
    (StableHlo.after (hostOps4 (F := Ideal)) W (Proc.devRef .tc main_v11) : S1x1024.Idx → EReal) (ix2 (0 : Fin 1) f)
      = (W (Proc.devRef .tc main_arg10) : S1024.Idx → EReal) (ix1 f) := by
  have e : (StableHlo.after (hostOps4 (F := Ideal)) W (Proc.devRef .tc main_v11) : S1x1024.Idx → EReal)
      = shapeCast S1x1024 (W (Proc.devRef .tc main_arg10) : S1024.Idx → EReal) shapeCasts_S1024_S1x1024 := by
    show StableHlo.after (hostOps4 (F := Ideal)) W (Proc.devRef .tc main_v11) = _
    after_results
    rfl
  refine (congrFun e (ix2 (0 : Fin 1) f)).trans ?_
  exact shapeCast_apply _ _ (ix2 (0 : Fin 1) f) (ix1 f)
    (by rw [Shape.rowMajor_val_one, Shape.rowMajor_val_two]
        show f.val = 0 * 1024 + f.val
        omega)

end Cert.KernelIdeal.HostReads

end
-- ==== Proof.SpecReal.lean ====
/-
  On real arguments the projections are real: every entry of `x Wᵀ + bias` is a real number when the entries of
  `x`, `W` and `bias` are, and reading (batch, head) as one of 32 pairs keeps that.
-/
import proofs.«130128_j25795573580066_2_alg».proof.Proof.SpecAttn
import proofs.«130128_j25795573580066_2_alg».proof.Proof.LibOnlineSoftmax

noncomputable section

namespace Attn

open scoped BigOperators

/-- A linear layer of real arrays has real entries: the coerced sum of products plus the coerced bias. -/
theorem proj_real (x : Fin 2 → Fin 2048 → Fin 1024 → EReal) (W : Fin 1024 → Fin 1024 → EReal) (bias : Fin 1024 → EReal)
    (hx : ∀ b s e, ∃ r : ℝ, x b s e = (r : EReal)) (hW : ∀ f e, ∃ r : ℝ, W f e = (r : EReal))
    (hb : ∀ f, ∃ r : ℝ, bias f = (r : EReal)) :
    ∀ b h s d, ∃ r : ℝ, Attn.proj x W bias b h s d = (r : EReal) := by
  choose xr hxr using hx
  choose Wr hWr using hW
  choose br hbr using hb
  intro b h s d
  refine ⟨(∑ e : Fin 1024, xr b s e * Wr (col h d) e) + br (col h d), ?_⟩
  unfold Attn.proj
  rw [EReal.coe_add, OnlineSoftmax.coe_sum, hbr]
  refine congrArg (· + (br (col h d) : EReal)) (Finset.sum_congr rfl fun e _ => ?_)
  rw [hxr, hWr, EReal.coe_mul]

/-- Reading (batch, head) as one of 32 pairs keeps every entry real. -/
theorem heads_real (p : Fin 2 → Fin 16 → Fin 2048 → Fin 64 → EReal) (hp : ∀ b h s d, ∃ r : ℝ, p b h s d = (r : EReal)) :
    ∀ bh s d, ∃ r : ℝ, Attn.heads p bh s d = (r : EReal) := by
  intro bh s d
  unfold Attn.heads
  exact hp _ _ _ _

end Attn

end
-- ==== Proof.Bridge.lean ====
/-
  The whole layer from its five regions.  The three projection regions leave `x Wᵀ + b` of the arguments, read per
  head; between the regions the program only re-lays arrays out (a bias vector as a one-row matrix, (batch, head) as
  one of 32 pairs, the output weights transposed); the attention region leaves the softmax attention of the three
  projected arrays, which are real because the arguments are; the last region leaves the output layer of the
  attention output.  Composed, the result array holds the specification's multi-head attention of the eleven
  arguments, index by index.
-/
import proofs.«130128_j25795573580066_2_alg».proof.Proof.BridgeKeep
import proofs.«130128_j25795573580066_2_alg».proof.Proof.ValProj0
import proofs.«130128_j25795573580066_2_alg».proof.Proof.ValProj1
import proofs.«130128_j25795573580066_2_alg».proof.Proof.ValProj2
import proofs.«130128_j25795573580066_2_alg».proof.Proof.ValAttend
import proofs.«130128_j25795573580066_2_alg».proof.Proof.ValOProj
import proofs.«130128_j25795573580066_2_alg».proof.Proof.HostReads
import proofs.«130128_j25795573580066_2_alg».proof.Proof.SpecReal

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx

section Stages
variable (m : (ℓ : Loc nD τ sig) → Buf (Elt Ideal) ℓ) (ρ : Dev nD → PrngReg) (c : Dev nD)

/-! ## The eleven arguments as the specification reads them -/

abbrev aQ : Fin 2 → Fin 2048 → Fin 1024 → EReal := fun b s e => (m ((c.tc : Thread nD τ).loc main_arg0) : S2x2048x1024.Idx → EReal) (ix3 b s e)
abbrev aK : Fin 2 → Fin 2048 → Fin 1024 → EReal := fun b s e => (m ((c.tc : Thread nD τ).loc main_arg1) : S2x2048x1024.Idx → EReal) (ix3 b s e)
abbrev aV : Fin 2 → Fin 2048 → Fin 1024 → EReal := fun b s e => (m ((c.tc : Thread nD τ).loc main_arg2) : S2x2048x1024.Idx → EReal) (ix3 b s e)
abbrev wQ : Fin 1024 → Fin 1024 → EReal := fun f e => (m ((c.tc : Thread nD τ).loc main_arg3) : S1024x1024.Idx → EReal) (ix2 f e)
abbrev bQ : Fin 1024 → EReal := fun f => (m ((c.tc : Thread nD τ).loc main_arg4) : S1024.Idx → EReal) (ix1 f)
abbrev wK : Fin 1024 → Fin 1024 → EReal := fun f e => (m ((c.tc : Thread nD τ).loc main_arg5) : S1024x1024.Idx → EReal) (ix2 f e)
abbrev bK : Fin 1024 → EReal := fun f => (m ((c.tc : Thread nD τ).loc main_arg6) : S1024.Idx → EReal) (ix1 f)
abbrev wV : Fin 1024 → Fin 1024 → EReal := fun f e => (m ((c.tc : Thread nD τ).loc main_arg7) : S1024x1024.Idx → EReal) (ix2 f e)
abbrev bV : Fin 1024 → EReal := fun f => (m ((c.tc : Thread nD τ).loc main_arg8) : S1024.Idx → EReal) (ix1 f)
abbrev wO : Fin 1024 → Fin 1024 → EReal := fun f e => (m ((c.tc : Thread nD τ).loc main_arg9) : S1024x1024.Idx → EReal) (ix2 f e)
abbrev bO : Fin 1024 → EReal := fun f => (m ((c.tc : Thread nD τ).loc main_arg10) : S1024.Idx → EReal) (ix1 f)

/-! ## The three projections -/

/-- Region 0 leaves the query projection of the arguments. -/
theorem q_val (b : Fin 2) (h : Fin 16) (s : Fin 2048) (d : Fin 64) :
    (Frame.W2 m ρ c (Proc.devRef .tc main_v1) : S2x16x2048x64.Idx → EReal) (ix4 b h s d)
      = Attn.proj (aQ m c) (wQ m c) (bQ m c) b h s d := by
  refine (congrFun (Frame.W2_arr m ρ c 3) (ix4 b h s d)).trans ?_
  refine (Value0.final0 (Frame.V1 m ρ) c b h s d).trans ?_
  have hx : (fun b s e => (Frame.V1 m ρ c main_arg0 : S2x2048x1024.Idx → EReal) (ix3 b s e)) = aQ m c :=
    funext fun b => funext fun s => funext fun e => congrFun (W1_arg m ρ c main_arg0 (by decide)) (ix3 b s e)
  have hW : (fun f e => (Frame.V1 m ρ c main_arg3 : S1024x1024.Idx → EReal) (ix2 f e)) = wQ m c :=
    funext fun f => funext fun e => congrFun (W1_arg m ρ c main_arg3 (by decide)) (ix2 f e)
  have hb : (fun f => (Frame.V1 m ρ c main_v0 : S1x1024.Idx → EReal) (ix2 0 f)) = bQ m c :=
    funext fun f => HostReads.after0_v0 (Frame.W0 m ρ c) f
  exact congrFun (congrFun (congrFun (congrFun (congr (congr (congrArg Attn.proj hx) hW) hb) b) h) s) d

/-- Region 1 leaves the key projection of the arguments. -/
theorem k_val (b : Fin 2) (h : Fin 16) (s : Fin 2048) (d : Fin 64) :
    (Frame.W4 m ρ c (Proc.devRef .tc main_v4) : S2x16x2048x64.Idx → EReal) (ix4 b h s d)
      = Attn.proj (aK m c) (wK m c) (bK m c) b h s d := by
  refine (congrFun (Frame.W4_arr m ρ c 3) (ix4 b h s d)).trans ?_
  refine (Value0.final1 (Frame.V3 m ρ) c b h s d).trans ?_
  have hx : (fun b s e => (Frame.V3 m ρ c main_arg1 : S2x2048x1024.Idx → EReal) (ix3 b s e)) = aK m c :=
    funext fun b => funext fun s => funext fun e => congrFun (W3_arg m ρ c main_arg1 (by decide)) (ix3 b s e)
  have hW : (fun f e => (Frame.V3 m ρ c main_arg5 : S1024x1024.Idx → EReal) (ix2 f e)) = wK m c :=
    funext fun f => funext fun e => congrFun (W3_arg m ρ c main_arg5 (by decide)) (ix2 f e)
  have hb : (fun f => (Frame.V3 m ρ c main_v3 : S1x1024.Idx → EReal) (ix2 0 f)) = bK m c :=
    funext fun f => (HostReads.after1_v3 (Frame.W2 m ρ c) f).trans (congrFun (W2_arg m ρ c main_arg6 (by decide)) (ix1 f))
  exact congrFun (congrFun (congrFun (congrFun (congr (congr (congrArg Attn.proj hx) hW) hb) b) h) s) d

/-- Region 2 leaves the value projection of the arguments. -/
theorem v_val (b : Fin 2) (h : Fin 16) (s : Fin 2048) (d : Fin 64) :
    (Frame.W6 m ρ c (Proc.devRef .tc main_v7) : S2x16x2048x64.Idx → EReal) (ix4 b h s d)
      = Attn.proj (aV m c) (wV m c) (bV m c) b h s d := by
  refine (congrFun (Frame.W6_arr m ρ c 3) (ix4 b h s d)).trans ?_
  refine (Value0.final2 (Frame.V5 m ρ) c b h s d).trans ?_
  have hx : (fun b s e => (Frame.V5 m ρ c main_arg2 : S2x2048x1024.Idx → EReal) (ix3 b s e)) = aV m c :=
    funext fun b => funext fun s => funext fun e => congrFun (W5_arg m ρ c main_arg2 (by decide)) (ix3 b s e)
  have hW : (fun f e => (Frame.V5 m ρ c main_arg7 : S1024x1024.Idx → EReal) (ix2 f e)) = wV m c :=
    funext fun f => funext fun e => congrFun (W5_arg m ρ c main_arg7 (by decide)) (ix2 f e)
  have hb : (fun f => (Frame.V5 m ρ c main_v6 : S1x1024.Idx → EReal) (ix2 0 f)) = bV m c :=
    funext fun f => (HostReads.after2_v6 (Frame.W4 m ρ c) f).trans (congrFun (W4_arg m ρ c main_arg8 (by decide)) (ix1 f))
  exact congrFun (congrFun (congrFun (congrFun (congr (congr (congrArg Attn.proj hx) hW) hb) b) h) s) d

/-! ## The attention region's three inputs: the projections with (batch, head) read as one of 32 pairs -/

theorem q7 (bh : Fin 32) (s : Fin 2048) (d : Fin 64) :
    (Frame.V7 m ρ c main_v2 : S32x2048x64.Idx → EReal) (ix3 bh s d) = Attn.heads (Attn.proj (aQ m c) (wQ m c) (bQ m c)) bh s d := by
  refine (congrFun (W7_v2 m ρ c) (ix3 bh s d)).trans ?_
  refine (HostReads.after1_v2 (Frame.W2 m ρ c) bh s d).trans ?_
  exact q_val m ρ c _ _ s d

theorem k7 (bh : Fin 32) (s : Fin 2048) (d : Fin 64) :
    (Frame.V7 m ρ c main_v5 : S32x2048x64.Idx → EReal) (ix3 bh s d) = Attn.heads (Attn.proj (aK m c) (wK m c) (bK m c)) bh s d := by
  refine (congrFun (W7_v5 m ρ c) (ix3 bh s d)).trans ?_
  refine (HostReads.after2_v5 (Frame.W4 m ρ c) bh s d).trans ?_
  exact k_val m ρ c _ _ s d

theorem v7 (bh : Fin 32) (s : Fin 2048) (d : Fin 64) :
    (Frame.V7 m ρ c main_v8 : S32x2048x64.Idx → EReal) (ix3 bh s d) = Attn.heads (Attn.proj (aV m c) (wV m c) (bV m c)) bh s d := by
  refine (HostReads.after3_v8 (Frame.W6 m ρ c) bh s d).trans ?_
  exact v_val m ρ c _ _ s d

/-! ## They are real when the arguments are -/

theorem q7_real (h0 : ∀ i, ∃ r : ℝ, m ((c.tc : Thread nD τ).loc main_arg0) i = (r : EReal)) (h3 : ∀ i, ∃ r : ℝ, m ((c.tc : Thread nD τ).loc main_arg3) i = (r : EReal)) (h4 : ∀ i, ∃ r : ℝ, m ((c.tc : Thread nD τ).loc main_arg4) i = (r : EReal)) :
    ∀ i, ∃ x : ℝ, (Frame.V7 m ρ c main_v2 : S32x2048x64.Idx → EReal) i = (x : EReal) := fun i => by
  obtain ⟨bh, s, d, rfl⟩ : ∃ (bh : Fin 32) (s : Fin 2048) (d : Fin 64), i = ix3 bh s d := ⟨i 0, i 1, i 2, @eq_ix3 32 2048 64 i⟩
  rw [q7 m ρ c bh s d]
  exact Attn.heads_real _ (Attn.proj_real (aQ m c) (wQ m c) (bQ m c) (fun b s e => h0 (ix3 b s e)) (fun f e => h3 (ix2 f e)) (fun f => h4 (ix1 f))) bh s d

theorem k7_real (h1 : ∀ i, ∃ r : ℝ, m ((c.tc : Thread nD τ).loc main_arg1) i = (r : EReal)) (h5 : ∀ i, ∃ r : ℝ, m ((c.tc : Thread nD τ).loc main_arg5) i = (r : EReal)) (h6 : ∀ i, ∃ r : ℝ, m ((c.tc : Thread nD τ).loc main_arg6) i = (r : EReal)) :
    ∀ i, ∃ x : ℝ, (Frame.V7 m ρ c main_v5 : S32x2048x64.Idx → EReal) i = (x : EReal) := fun i => by
  obtain ⟨bh, s, d, rfl⟩ : ∃ (bh : Fin 32) (s : Fin 2048) (d : Fin 64), i = ix3 bh s d := ⟨i 0, i 1, i 2, @eq_ix3 32 2048 64 i⟩
  rw [k7 m ρ c bh s d]
  exact Attn.heads_real _ (Attn.proj_real (aK m c) (wK m c) (bK m c) (fun b s e => h1 (ix3 b s e)) (fun f e => h5 (ix2 f e)) (fun f => h6 (ix1 f))) bh s d

theorem v7_real (h2 : ∀ i, ∃ r : ℝ, m ((c.tc : Thread nD τ).loc main_arg2) i = (r : EReal)) (h7 : ∀ i, ∃ r : ℝ, m ((c.tc : Thread nD τ).loc main_arg7) i = (r : EReal)) (h8 : ∀ i, ∃ r : ℝ, m ((c.tc : Thread nD τ).loc main_arg8) i = (r : EReal)) :
    ∀ i, ∃ x : ℝ, (Frame.V7 m ρ c main_v8 : S32x2048x64.Idx → EReal) i = (x : EReal) := fun i => by
  obtain ⟨bh, s, d, rfl⟩ : ∃ (bh : Fin 32) (s : Fin 2048) (d : Fin 64), i = ix3 bh s d := ⟨i 0, i 1, i 2, @eq_ix3 32 2048 64 i⟩
  rw [v7 m ρ c bh s d]
  exact Attn.heads_real _ (Attn.proj_real (aV m c) (wV m c) (bV m c) (fun b s e => h2 (ix3 b s e)) (fun f e => h7 (ix2 f e)) (fun f => h8 (ix1 f))) bh s d

/-! ## The attention output, and the last region's other two inputs -/

/-- At the last region's entry the attention output is the softmax attention of the three projections. -/
theorem attn_val (h0 : ∀ i, ∃ r : ℝ, m ((c.tc : Thread nD τ).loc main_arg0) i = (r : EReal)) (h1 : ∀ i, ∃ r : ℝ, m ((c.tc : Thread nD τ).loc main_arg1) i = (r : EReal)) (h2 : ∀ i, ∃ r : ℝ, m ((c.tc : Thread nD τ).loc main_arg2) i = (r : EReal)) (h3 : ∀ i, ∃ r : ℝ, m ((c.tc : Thread nD τ).loc main_arg3) i = (r : EReal)) (h4 : ∀ i, ∃ r : ℝ, m ((c.tc : Thread nD τ).loc main_arg4) i = (r : EReal)) (h5 : ∀ i, ∃ r : ℝ, m ((c.tc : Thread nD τ).loc main_arg5) i = (r : EReal)) (h6 : ∀ i, ∃ r : ℝ, m ((c.tc : Thread nD τ).loc main_arg6) i = (r : EReal)) (h7 : ∀ i, ∃ r : ℝ, m ((c.tc : Thread nD τ).loc main_arg7) i = (r : EReal)) (h8 : ∀ i, ∃ r : ℝ, m ((c.tc : Thread nD τ).loc main_arg8) i = (r : EReal))
    (bh : Fin 32) (s : Fin 2048) (d : Fin 64) :
    (Frame.V9 m ρ c main_v9 : S32x2048x64.Idx → EReal) (ix3 bh s d)
      = Attn.attend (Attn.heads (Attn.proj (aQ m c) (wQ m c) (bQ m c))) (Attn.heads (Attn.proj (aK m c) (wK m c) (bK m c)))
          (Attn.heads (Attn.proj (aV m c) (wV m c) (bV m c))) bh s d := by
  refine (congrFun (W9_v9 m ρ c) (ix3 bh s d)).trans ?_
  refine (congrFun (Frame.W8_arr m ρ c 3) (ix3 bh s d)).trans ?_
  refine (Value3.final3 (Frame.V7 m ρ) c (q7_real m ρ c h0 h3 h4) (k7_real m ρ c h1 h5 h6) (v7_real m ρ c h2 h7 h8) bh s d).trans ?_
  have hq : (fun bh s d => (Frame.V7 m ρ c main_v2 : S32x2048x64.Idx → EReal) (ix3 bh s d)) = Attn.heads (Attn.proj (aQ m c) (wQ m c) (bQ m c)) :=
    funext fun bh => funext fun s => funext fun d => q7 m ρ c bh s d
  have hk : (fun bh s d => (Frame.V7 m ρ c main_v5 : S32x2048x64.Idx → EReal) (ix3 bh s d)) = Attn.heads (Attn.proj (aK m c) (wK m c) (bK m c)) :=
    funext fun bh => funext fun s => funext fun d => k7 m ρ c bh s d
  have hv : (fun bh s d => (Frame.V7 m ρ c main_v8 : S32x2048x64.Idx → EReal) (ix3 bh s d)) = Attn.heads (Attn.proj (aV m c) (wV m c) (bV m c)) :=
    funext fun bh => funext fun s => funext fun d => v7 m ρ c bh s d
  exact congrFun (congrFun (congrFun (congr (congr (congrArg Attn.attend hq) hk) hv) bh) s) d

/-- The last region is given the output weights transposed, -/
theorem o_w (e f : Fin 1024) : (Frame.V9 m ρ c main_v10 : S1024x1024.Idx → EReal) (ix2 e f) = wO m c f e :=
  (HostReads.after4_v10 (Frame.W8 m ρ c) e f).trans (congrFun (W8_arg m ρ c main_arg9 (by decide)) (ix2 f e))

/-- and the output bias as a one-row matrix. -/
theorem o_b (f : Fin 1024) : (Frame.V9 m ρ c main_v11 : S1x1024.Idx → EReal) (ix2 0 f) = bO m c f :=
  (HostReads.after4_v11 (Frame.W8 m ρ c) f).trans (congrFun (W8_arg m ρ c main_arg10 (by decide)) (ix1 f))

end Stages

/-! ## The whole layer -/

/-- THE RESULT: on real arguments the result array holds, at batch `b`, row `s`, feature `f`, the specification's
    multi-head attention of the eleven arguments. -/
theorem result_eq (m : (ℓ : Loc nD τ sig) → Buf (Elt Ideal) ℓ) (ρ : Dev nD → PrngReg) (c : Dev nD)
    (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal))
    (h3 : ∀ i, ∃ r : ℝ, m ((c.tc : Thread nD τ).loc main_arg3) i = (r : EReal))
    (h4 : ∀ i, ∃ r : ℝ, m ((c.tc : Thread nD τ).loc main_arg4) i = (r : EReal))
    (h5 : ∀ i, ∃ r : ℝ, m ((c.tc : Thread nD τ).loc main_arg5) i = (r : EReal))
    (h6 : ∀ i, ∃ r : ℝ, m ((c.tc : Thread nD τ).loc main_arg6) i = (r : EReal))
    (h7 : ∀ i, ∃ r : ℝ, m ((c.tc : Thread nD τ).loc main_arg7) i = (r : EReal))
    (h8 : ∀ i, ∃ r : ℝ, m ((c.tc : Thread nD τ).loc main_arg8) i = (r : EReal))
    (h9 : ∀ i, ∃ r : ℝ, m ((c.tc : Thread nD τ).loc main_arg9) i = (r : EReal))
    (h10 : ∀ i, ∃ r : ℝ, m ((c.tc : Thread nD τ).loc main_arg10) i = (r : EReal))
    (b : Fin 2) (s : Fin 2048) (f : Fin 1024) :
    ((Frame.W10 (F := Ideal) m ρ c (Proc.devRef .tc main_v12)) : S2x2048x1024.Idx → EReal) (ix3 b s f)
      = Attn.mha (fun b s e => (m ((c.tc : Thread nD τ).loc main_arg0) : S2x2048x1024.Idx → EReal) (ix3 b s e)) (fun b s e => (m ((c.tc : Thread nD τ).loc main_arg1) : S2x2048x1024.Idx → EReal) (ix3 b s e)) (fun b s e => (m ((c.tc : Thread nD τ).loc main_arg2) : S2x2048x1024.Idx → EReal) (ix3 b s e))
          (fun f e => (m ((c.tc : Thread nD τ).loc main_arg3) : S1024x1024.Idx → EReal) (ix2 f e)) (fun f => (m ((c.tc : Thread nD τ).loc main_arg4) : S1024.Idx → EReal) (ix1 f))
          (fun f e => (m ((c.tc : Thread nD τ).loc main_arg5) : S1024x1024.Idx → EReal) (ix2 f e)) (fun f => (m ((c.tc : Thread nD τ).loc main_arg6) : S1024.Idx → EReal) (ix1 f))
          (fun f e => (m ((c.tc : Thread nD τ).loc main_arg7) : S1024x1024.Idx → EReal) (ix2 f e)) (fun f => (m ((c.tc : Thread nD τ).loc main_arg8) : S1024.Idx → EReal) (ix1 f))
          (fun f e => (m ((c.tc : Thread nD τ).loc main_arg9) : S1024x1024.Idx → EReal) (ix2 f e)) (fun f => (m ((c.tc : Thread nD τ).loc main_arg10) : S1024.Idx → EReal) (ix1 f)) b s f := by
  refine (congrFun (Frame.W10_result m ρ c) (ix3 b s f)).trans ?_
  refine (Value4.final4 (Frame.V9 m ρ) c b s f).trans ?_
  have hA : (fun bh s d => (Frame.V9 m ρ c main_v9 : S32x2048x64.Idx → EReal) (ix3 bh s d))
      = Attn.attend (Attn.heads (Attn.proj (aQ m c) (wQ m c) (bQ m c))) (Attn.heads (Attn.proj (aK m c) (wK m c) (bK m c)))
          (Attn.heads (Attn.proj (aV m c) (wV m c) (bV m c))) :=
    funext fun bh => funext fun s => funext fun d => attn_val m ρ c h0 h1 h2 h3 h4 h5 h6 h7 h8 bh s d
  have hW : (fun f e => (Frame.V9 m ρ c main_v10 : S1024x1024.Idx → EReal) (ix2 e f)) = wO m c :=
    funext fun f => funext fun e => o_w m ρ c e f
  have hB : (fun f => (Frame.V9 m ρ c main_v11 : S1x1024.Idx → EReal) (ix2 0 f)) = bO m c :=
    funext fun f => o_b m ρ c f
  exact congrFun (congrFun (congrFun (congr (congr (congrArg Attn.oproj hA) hW) hB) b) s) f

end Cert.KernelIdeal.Bridge

end
-- ==== Proof.RefIsSpec.lean ====
/-
  The reference computes the specification: read index by index, the printed jnp program's result is
  `Attn.mha` of its eleven arguments.  One lemma per stage of the mathematics: a linear layer, the
  split into heads, the scaled scores, the row maximum, the softmax-weighted average, the output layer.
-/
import proofs.«130128_j25795573580066_2_alg».proof.Proof.Gen.ReferenceIdeal.Read
import proofs.«130128_j25795573580066_2_alg».proof.Proof.SpecAttn

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ### The three float constants -/

/-- The word `0x42800000` denotes the real 64. -/
theorem ofBits_64 : Ideal.ofBits .f32 0x42800000#32 = ((64 : ℝ) : EReal) := by
  simp [Ideal.ofBits, Ideal.ieee, -EReal.coe_mul]; norm_num

/-- The word `0xFF800000` denotes `-∞`. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 by norm_num, Real.sqrt_sq (by norm_num)]

/-- The broadcast divisor of the scores is the real 8 at every index. -/
theorem divisor_apply (i : S2x16x2048x2048.Idx) : val_main_v20 (F := Ideal) i = ((8 : ℝ) : EReal) := by
  rw [val_main_v20_apply, val_main_v19_apply, val_main_cst_apply, Ideal.hostUnary_sqrt_def, Ideal.ofBits_def, ofBits_64, sqrt_64]

/-! ### Heads and pairs -/

/-- Head `h` of batch `b`, read through the pair `b * 16 + h`. -/
theorem heads_pair (p : Fin 2 → Fin 16 → Fin 2048 → Fin 64 → EReal) (b : Fin 2) (h : Fin 16) (s : Fin 2048) (d : Fin 64) :
    Attn.heads p (Attn.pair b h) s d = p b h s d := by
  unfold Attn.heads Attn.pair
  have hb : (⟨(b.val * 16 + h.val) / 16, by have := b.isLt; have := h.isLt; omega⟩ : Fin 2) = b :=
    Fin.ext (by have := h.isLt; show (b.val * 16 + h.val) / 16 = b.val; omega)
  have hh : (⟨(b.val * 16 + h.val) % 16, Nat.mod_lt _ (by decide)⟩ : Fin 16) = h :=
    Fin.ext (by have := h.isLt; show (b.val * 16 + h.val) % 16 = h.val; omega)
  simp only [hb, hh]

/-! ### A linear layer at an index -/

/-- `x Wᵀ + bias` at row `(b, s)`, feature `f`: the product read as a sum over the 1024 input features, the bias
    broadcast along the rows. -/
theorem linear_apply (x : (⟨S2x2048x1024, .f32⟩ : BufTy).Contents (Elt Ideal)) (W : (⟨S1024x1024, .f32⟩ : BufTy).Contents (Elt Ideal))
    (bias : (⟨S1024, .f32⟩ : BufTy).Contents (Elt Ideal))
    (y z : (⟨S2x2048x1024, .f32⟩ : BufTy).Contents (Elt Ideal))
    (hy : ∀ i, y i = ∑ k : Fin 1024, x (lidx_main_v0 i k) * W (ridx_main_v0 i k))
    (hz : ∀ i, z i = bias (idx_main_v1 (idx_main_v2 i)))
    (b : Fin 2) (s : Fin 2048) (f : Fin 1024) :
    FloatOps.addf (F := Ideal) (φ := .f32) (y (ix3 b s f)) (z (ix3 b s f))
      = (∑ e : Fin 1024, x (ix3 b s e) * W (ix2 f e)) + bias (ix1 f) := by
  have el : ∀ k : Fin 1024, lidx_main_v0 (ix3 b s f) k = ix3 b s k := fun k =>
    funext fun a => Fin.ext (by match a with | ⟨0, _⟩ => rfl | ⟨1, _⟩ => rfl | ⟨2, _⟩ => rfl)
  have er : ∀ k : Fin 1024, ridx_main_v0 (ix3 b s f) k = ix2 f k := fun k =>
    funext fun a => Fin.ext (by match a with | ⟨0, _⟩ => rfl | ⟨1, _⟩ => rfl)
  have eb : idx_main_v1 (idx_main_v2 (ix3 b s f)) = ix1 f :=
    funext fun a => Fin.ext (by match a with | ⟨0, _⟩ => rfl)
  rw [hy, hz, eb, Ideal.addf_def]
  simp only [el, er]

/-! ### The projections, split into heads -/

/-- Reshaping 1024 features to 16 heads of 64 and swapping the row and head axes: entry `(b, h, s, d)` is row
    `(b, s)`, feature `h * 64 + d`. -/
theorem split_idx (b : Fin 2) (h : Fin 16) (s : Fin 2048) (d : Fin 64) :
    idx_main_v4 (idx_main_v5 (ix4 b h s d)) = ix3 b s (Attn.col h d) := by
  have hb := b.isLt; have hh := h.isLt; have hs := s.isLt; have hd := d.isLt
  refine funext fun a => Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The query projection, per head. -/
theorem proj_q (x0 : (⟨S2x2048x1024, .f32⟩ : BufTy).Contents (Elt Ideal)) (x3 : (⟨S1024x1024, .f32⟩ : BufTy).Contents (Elt Ideal))
    (x4 : (⟨S1024, .f32⟩ : BufTy).Contents (Elt Ideal)) (b : Fin 2) (h : Fin 16) (s : Fin 2048) (d : Fin 64) :
    val_main_v5 (F := Ideal) x0 x3 x4 (ix4 b h s d)
      = Attn.proj (fun b s e => x0 (ix3 b s e)) (fun f e => x3 (ix2 f e)) (fun f => x4 (ix1 f)) b h s d := by
  rw [val_main_v5_apply, val_main_v4_apply, split_idx, val_main_v3_apply]
  exact linear_apply x0 x3 x4 _ _ (val_main_v0_apply x0 x3) (fun i => by rw [val_main_v2_apply, val_main_v1_apply]) b s (Attn.col h d)

/-- The key projection, per head. -/
theorem proj_k (x1 : (⟨S2x2048x1024, .f32⟩ : BufTy).Contents (Elt Ideal)) (x5 : (⟨S1024x1024, .f32⟩ : BufTy).Contents (Elt Ideal))
    (x6 : (⟨S1024, .f32⟩ : BufTy).Contents (Elt Ideal)) (b : Fin 2) (h : Fin 16) (s : Fin 2048) (d : Fin 64) :
    val_main_v11 (F := Ideal) x1 x5 x6 (ix4 b h s d)
      = Attn.proj (fun b s e => x1 (ix3 b s e)) (fun f e => x5 (ix2 f e)) (fun f => x6 (ix1 f)) b h s d := by
  rw [val_main_v11_apply, val_main_v10_apply, show idx_main_v10 (idx_main_v11 (ix4 b h s d)) = ix3 b s (Attn.col h d) from split_idx b h s d,
    val_main_v9_apply]
  exact linear_apply x1 x5 x6 _ _ (val_main_v6_apply x1 x5) (fun i => by rw [val_main_v8_apply, val_main_v7_apply]) b s (Attn.col h d)

/-- The value projection, per head. -/
theorem proj_v (x2 : (⟨S2x2048x1024, .f32⟩ : BufTy).Contents (Elt Ideal)) (x7 : (⟨S1024x1024, .f32⟩ : BufTy).Contents (Elt Ideal))
    (x8 : (⟨S1024, .f32⟩ : BufTy).Contents (Elt Ideal)) (b : Fin 2) (h : Fin 16) (s : Fin 2048) (d : Fin 64) :
    val_main_v17 (F := Ideal) x2 x7 x8 (ix4 b h s d)
      = Attn.proj (fun b s e => x2 (ix3 b s e)) (fun f e => x7 (ix2 f e)) (fun f => x8 (ix1 f)) b h s d := by
  rw [val_main_v17_apply, val_main_v16_apply, show idx_main_v16 (idx_main_v17 (ix4 b h s d)) = ix3 b s (Attn.col h d) from split_idx b h s d,
    val_main_v15_apply]
  exact linear_apply x2 x7 x8 _ _ (val_main_v12_apply x2 x7) (fun i => by rw [val_main_v14_apply, val_main_v13_apply]) b s (Attn.col h d)

/-! ### The scaled scores -/

/-- The dot product of query row `s` and key row `t` over the 64 columns of a head, divided by the square root of 64. -/
theorem score_apply (x0 x1 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (q k : Fin 2 → Fin 16 → Fin 2048 → Fin 64 → EReal)
    (hq : ∀ b h s d, val_main_v5 (F := Ideal) x0 x3 x4 (ix4 b h s d) = q b h s d)
    (hk : ∀ b h s d, val_main_v11 (F := Ideal) x1 x5 x6 (ix4 b h s d) = k b h s d)
    (b : Fin 2) (h : Fin 16) (s t : Fin 2048) :
    val_main_v21 (F := Ideal) x0 x1 x3 x4 x5 x6 (ix4 b h s t)
      = Attn.score (Attn.heads q) (Attn.heads k) (Attn.pair b h) s t := by
  have el : ∀ d : Fin 64, lidx_main_v18 (ix4 b h s t) d = ix4 b h s d := fun d =>
    funext fun a => Fin.ext (by match a with | ⟨0, _⟩ => rfl | ⟨1, _⟩ => rfl | ⟨2, _⟩ => rfl | ⟨3, _⟩ => rfl)
  have er : ∀ d : Fin 64, ridx_main_v18 (ix4 b h s t) d = ix4 b h t d := fun d =>
    funext fun a => Fin.ext (by match a with | ⟨0, _⟩ => rfl | ⟨1, _⟩ => rfl | ⟨2, _⟩ => rfl | ⟨3, _⟩ => rfl)
  rw [val_main_v21_apply, val_main_v18_apply, divisor_apply, Ideal.hostDivf_def, Ideal.div_coe (by norm_num : (8 : ℝ) ≠ 0)]
  unfold Attn.score
  simp only [el, er, hq, hk, heads_pair]

/-! ### The row maximum -/

/-- The largest score of a query row: the fold of `max` from `-∞` over the 2048 key rows, then once more against `-∞`. -/
theorem rowmax_apply (x0 x1 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (q k : Fin 32 → Fin 2048 → Fin 64 → EReal)
    (hs : ∀ b h s t, val_main_v21 (F := Ideal) x0 x1 x3 x4 x5 x6 (ix4 b h s t) = Attn.score q k (Attn.pair b h) s t)
    (b : Fin 2) (h : Fin 16) (s : Fin 2048) :
    val_main_v24 (F := Ideal) x0 x1 x3 x4 x5 x6 (ix3 b h s) = Attn.rowMax q k (Attn.pair b h) s := by
  have hr : S2x16x2048x2048.Reduces [3] S2x16x2048 := by decide
  rw [val_main_v24_apply, val_main_v23_apply, val_main_cst_1_apply, Ideal.ofBits_def, ofBits_neg_inf, Ideal.maximumf_def, max_bot_left]
  unfold val_main_v22
  rw [Host.reduce_eq_fold_single FloatOps.maximumf _ _ reducesTo_S2x16x2048x2048_S2x16x2048_d3 hr h_S_,
    val_main_cst_0_apply, Ideal.ofBits_def, ofBits_neg_inf]
  have hrow : (fun t : Fin 2048 => val_main_v21 (F := Ideal) x0 x1 x3 x4 x5 x6 (hr.lift (ix3 b h s) t))
      = fun t : Fin 2048 => Attn.score q k (Attn.pair b h) s t := funext fun t => by
    rw [show hr.lift (ix3 b h s) t = ix4 b h s t from
      funext fun a => Fin.ext (by match a with | ⟨0, _⟩ => rfl | ⟨1, _⟩ => rfl | ⟨2, _⟩ => rfl | ⟨3, _⟩ => rfl), hs]
  unfold Attn.rowMax
  show (Finset.univ : Finset (Fin 2048)).fold max (⊥ : EReal)
      (fun t : Fin 2048 => val_main_v21 (F := Ideal) x0 x1 x3 x4 x5 x6 (hr.lift (ix3 b h s) t)) = _
  rw [hrow]

/-! ### The softmax-weighted average of the value rows -/

/-- The weights `exp (score − max) / Σ exp (score − max)` of a query row, times the value rows, summed over the 2048 key rows. -/
theorem attend_apply (x0 x1 x2 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (q k v : Fin 32 → Fin 2048 → Fin 64 → EReal)
    (hs : ∀ b h s t, val_main_v21 (F := Ideal) x0 x1 x3 x4 x5 x6 (ix4 b h s t) = Attn.score q k (Attn.pair b h) s t)
    (hm : ∀ b h s, val_main_v24 (F := Ideal) x0 x1 x3 x4 x5 x6 (ix3 b h s) = Attn.rowMax q k (Attn.pair b h) s)
    (hv : ∀ b h t d, val_main_v17 (F := Ideal) x2 x7 x8 (ix4 b h t d) = v (Attn.pair b h) t d)
    (b : Fin 2) (h : Fin 16) (s : Fin 2048) (d : Fin 64) :
    val_main_v33 (F := Ideal) x0 x1 x2 x3 x4 x5 x6 x7 x8 (ix4 b h s d) = Attn.attend q k v (Attn.pair b h) s d := by
  have he : ∀ t : Fin 2048, val_main_v28 (F := Ideal) x0 x1 x3 x4 x5 x6 (ix4 b h s t)
      = Ideal.exp (Attn.score q k (Attn.pair b h) s t - Attn.rowMax q k (Attn.pair b h) s) := fun t => by
    rw [val_main_v28_apply, val_main_v27_apply, val_main_v26_apply, val_main_v25_apply,
      show idx_main_v25 (idx_main_v26 (ix4 b h s t)) = ix3 b h s from
        funext fun a => Fin.ext (by match a with | ⟨0, _⟩ => rfl | ⟨1, _⟩ => rfl | ⟨2, _⟩ => rfl),
      hs, hm, Ideal.hostUnary_exp_def, Ideal.subf_def]
  have hd : ∀ t : Fin 2048, val_main_v31 (F := Ideal) x0 x1 x3 x4 x5 x6 (ix4 b h s t)
      = ∑ t' : Fin 2048, Ideal.exp (Attn.score q k (Attn.pair b h) s t' - Attn.rowMax q k (Attn.pair b h) s) := fun t => by
    rw [val_main_v31_apply, val_main_v30_apply,
      show idx_main_v30 (idx_main_v31 (ix4 b h s t)) = ix3 b h s from
        funext fun a => Fin.ext (by match a with | ⟨0, _⟩ => rfl | ⟨1, _⟩ => rfl | ⟨2, _⟩ => rfl),
      val_main_v29_apply, val_main_cst_2_apply, Ideal.ofBits_def, Ideal.ofBits_zero_f32, zero_add]
    refine Finset.sum_congr rfl fun t' _ => ?_
    rw [show idx_main_v29 (ix3 b h s) t' = ix4 b h s t' from
      funext fun a => Fin.ext (by match a with | ⟨0, _⟩ => rfl | ⟨1, _⟩ => rfl | ⟨2, _⟩ => rfl | ⟨3, _⟩ => rfl), he]
  rw [val_main_v33_apply]
  unfold Attn.attend
  refine Finset.sum_congr rfl fun t _ => ?_
  rw [show lidx_main_v33 (ix4 b h s d) t = ix4 b h s t from
      funext fun a => Fin.ext (by match a with | ⟨0, _⟩ => rfl | ⟨1, _⟩ => rfl | ⟨2, _⟩ => rfl | ⟨3, _⟩ => rfl),
    show ridx_main_v33 (ix4 b h s d) t = ix4 b h t d from
      funext fun a => Fin.ext (by match a with | ⟨0, _⟩ => rfl | ⟨1, _⟩ => rfl | ⟨2, _⟩ => rfl | ⟨3, _⟩ => rfl),
    val_main_v32_apply, he, hd, hv, Ideal.hostDivf_def]

/-! ### The output layer -/

/-- Swapping the head and row axes back and laying the 16 heads side by side: feature `e` of row `(b, s)` is
    column `e % 64` of head `e / 64`. -/
theorem merge_idx (b : Fin 2) (s : Fin 2048) (e : Fin 1024) :
    idx_main_v34 (idx_main_v35 (ix3 b s e))
      = ix4 b (⟨e.val / 64, by have := e.isLt; omega⟩ : Fin 16) s (⟨e.val % 64, Nat.mod_lt _ (by decide)⟩ : Fin 64) := by
  have hb := b.isLt; have hs := s.isLt; have he := e.isLt
  refine funext fun a => Fin.ext ?_
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The output layer over the heads laid side by side. -/
theorem oproj_apply (x0 x1 x2 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) (a : Fin 32 → Fin 2048 → Fin 64 → EReal)
    (ha : ∀ b h s d, val_main_v33 (F := Ideal) x0 x1 x2 x3 x4 x5 x6 x7 x8 (ix4 b h s d) = a (Attn.pair b h) s d)
    (b : Fin 2) (s : Fin 2048) (f : Fin 1024) :
    val_main_v39 (F := Ideal) x0 x1 x2 x3 x4 x5 x6 x7 x8 x9 x10 (ix3 b s f)
      = Attn.oproj a (fun f e => x9 (ix2 f e)) (fun f => x10 (ix1 f)) b s f := by
  rw [val_main_v39_apply,
    linear_apply (val_main_v35 (F := Ideal) x0 x1 x2 x3 x4 x5 x6 x7 x8) x9 x10 _ _ (val_main_v36_apply x0 x1 x2 x3 x4 x5 x6 x7 x8 x9)
      (fun i => by rw [val_main_v38_apply, val_main_v37_apply]) b s f]
  unfold Attn.oproj
  refine congrArg (· + x10 (ix1 f)) (Finset.sum_congr rfl fun e _ => ?_)
  rw [val_main_v35_apply, val_main_v34_apply, merge_idx, ha]

/-! ### The whole reference -/

/-- The reference's result at `(b, s, f)` is the specification of its eleven arguments there. -/
theorem ref_is_mha (x0 x1 x2 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) (b : Fin 2) (s : Fin 2048) (f : Fin 1024) :
    Read.val_main_v39 x0 x1 x2 x3 x4 x5 x6 x7 x8 x9 x10 (ix3 b s f)
      = Attn.mha (fun b s e => x0 (ix3 b s e)) (fun b s e => x1 (ix3 b s e)) (fun b s e => x2 (ix3 b s e)) (fun f e => x3 (ix2 f e)) (fun f => x4 (ix1 f))
          (fun f e => x5 (ix2 f e)) (fun f => x6 (ix1 f)) (fun f e => x7 (ix2 f e)) (fun f => x8 (ix1 f)) (fun f e => x9 (ix2 f e)) (fun f => x10 (ix1 f)) b s f := by
  unfold Attn.mha
  have hs := score_apply x0 x1 x3 x4 x5 x6 _ _ (proj_q x0 x3 x4) (proj_k x1 x5 x6)
  exact oproj_apply x0 x1 x2 x3 x4 x5 x6 x7 x8 x9 x10 _
    (attend_apply x0 x1 x2 x3 x4 x5 x6 x7 x8 _ _ _ hs (rowmax_apply x0 x1 x3 x4 x5 x6 _ _ hs)
      (fun b h t d => by rw [proj_v, heads_pair])) b s f

end Cert.ReferenceIdeal.RefValue

end
-- ==== Proof.FiniteArgs.lean ====
/-
  From the precondition to the arguments' entries: when every argument's absolute values are below
  `+∞` (the printed predicate `finite_inputs` is all ones), every entry of every argument is a real number.
-/
import proofs.«130128_j25795573580066_2_alg».proof.Defs
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem

/-- The scalar shape has one index. -/
instance : Subsingleton (Cert.Pre_finite_inputs.S_).Idx := ⟨fun a b => funext fun d => d.elim0⟩

/-- The word `0x7F800000` denotes `+∞`. -/
theorem ofBits_pos_inf : Ideal.ofBits .f32 0x7F800000#32 = (⊤ : EReal) := by
  simp [Ideal.ofBits, Ideal.ieee]

/-- An extended real whose absolute value `max x (-x)` is below `+∞` is a real number. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < (⊤ : EReal) := by
    by_contra hn
    have : Ideal.cmp .olt (max x (-x)) (⊤ : EReal) = 0#1 := by
      show BitVec.ofBool (decide (max x (-x) < (⊤ : EReal))) = 0#1
      rw [decide_eq_false hn]; rfl
    rw [this] at h
    exact absurd h (by decide)
  induction x using EReal.rec with
  | bot => exact absurd hlt (by simp)
  | top => exact absurd hlt (by simp)
  | coe r => exact ⟨r, rfl⟩

/-- `jnp.all (|x| < +∞)` being one, every entry of `x` is a real number. -/
theorem all_real {s : Shape} {axes : List (Fin s.rank)} (x : FVec Ideal s .f32)
    (bc : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
        (cmpf .olt (Host.absf x) (broadcastInDim s ![] bc (constant (F := Ideal) Cert.Pre_finite_inputs.S_ .f32 0x7F800000#32)))
        (constantI Cert.Pre_finite_inputs.S_ 1 1#1) hr hu ValueIdx.ix0 = 1#1) (i : s.Idx) :
    ∃ r : ℝ, x i = (r : EReal) :=
  real_of_abs_lt (x i) (Host.reduce_andi_all _ _ hr hu ValueIdx.ix0 e i)

/-- Under the precondition every entry of each of the eleven arguments is a real number. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal))
    ∧ (∀ i, ∃ r : ℝ, m ((c.tc : Thread _ _).loc Cert.KernelIdeal.main_arg1) i = (r : EReal))
    ∧ (∀ i, ∃ r : ℝ, m ((c.tc : Thread _ _).loc Cert.KernelIdeal.main_arg2) i = (r : EReal))
    ∧ (∀ i, ∃ r : ℝ, m ((c.tc : Thread _ _).loc Cert.KernelIdeal.main_arg3) i = (r : EReal))
    ∧ (∀ i, ∃ r : ℝ, m ((c.tc : Thread _ _).loc Cert.KernelIdeal.main_arg4) i = (r : EReal))
    ∧ (∀ i, ∃ r : ℝ, m ((c.tc : Thread _ _).loc Cert.KernelIdeal.main_arg5) i = (r : EReal))
    ∧ (∀ i, ∃ r : ℝ, m ((c.tc : Thread _ _).loc Cert.KernelIdeal.main_arg6) i = (r : EReal))
    ∧ (∀ i, ∃ r : ℝ, m ((c.tc : Thread _ _).loc Cert.KernelIdeal.main_arg7) i = (r : EReal))
    ∧ (∀ i, ∃ r : ℝ, m ((c.tc : Thread _ _).loc Cert.KernelIdeal.main_arg8) i = (r : EReal))
    ∧ (∀ i, ∃ r : ℝ, m ((c.tc : Thread _ _).loc Cert.KernelIdeal.main_arg9) i = (r : EReal))
    ∧ (∀ i, ∃ r : ℝ, m ((c.tc : Thread _ _).loc Cert.KernelIdeal.main_arg10) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h9, e10⟩ := IntOp.andi_eq_one.1 h0
  obtain ⟨h8, e9⟩ := IntOp.andi_eq_one.1 h9
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real _ _ _ _ e0, all_real _ _ _ _ e1, all_real _ _ _ _ e2, all_real _ _ _ _ e3, all_real _ _ _ _ e4,
    all_real _ _ _ _ e5, all_real _ _ _ _ e6, all_real _ _ _ _ e7, all_real _ _ _ _ e8, all_real _ _ _ _ e9,
    all_real _ _ _ _ e10⟩

end Cert.KernelIdeal.Finite

end
-- ==== Proof.lean ====
/-
  Multi-head attention: the Pallas kernel program (three projection kernels that also split the heads, a
  flash-style attention kernel with a running softmax over four key blocks, and an output projection
  accumulated head by head) against the plain reference (einsum projections, softmax(QKᵀ/√64)·V, output layer).

  The three frames.  The two kernel programs are five kernel regions among five stretches of host reshapes and
  one transpose; each region's proof data and body obligation are proved region by region and put together by
  the library's theorem for a run of several regions (`Frame.frame`).  The reference is a straight-line host
  program; its frame is its run with the result dropped.

  The ideal pass rewrote nothing, so there is nothing to preserve.

  The values.  On the extended reals the reference is, index by index, the function `Attn.mha` of the eleven
  arguments — no hypothesis needed: dividing by √64 is multiplying by 1/8, and sums and products commute.  The
  kernel program's result is the same function: each projection region leaves `x Wᵀ + b` read per head; the
  attention region leaves, when every entry of its three inputs is a real number — which the precondition gives,
  a projection of real arrays being real —, the softmax-weighted average: rescaling by `exp (m − m')` at every
  key block and dividing by the running sum at the end is the quotient `Σ exp (s − M)·v / Σ exp (s − M)`, which does
  not depend on the shift `M`; the last region adds the sixteen heads' products and the bias, a regrouping of one
  sum over 1024 features.
-/
import proofs.«130128_j25795573580066_2_alg».proof.Defs
import proofs.«130128_j25795573580066_2_alg».proof.Proof.Gen.Kernel
import proofs.«130128_j25795573580066_2_alg».proof.Proof.Gen.KernelIdeal
import proofs.«130128_j25795573580066_2_alg».proof.Proof.Gen.ReferenceIdeal
import proofs.«130128_j25795573580066_2_alg».proof.Proof.Gen.ReferenceIdeal.Run
import proofs.«130128_j25795573580066_2_alg».proof.Proof.Gen.ReferenceIdeal.Read
import proofs.«130128_j25795573580066_2_alg».proof.Proof.Gen.Pre_finite_inputs
import proofs.«130128_j25795573580066_2_alg».proof.Proof.KAssembly
import proofs.«130128_j25795573580066_2_alg».proof.Proof.Assembly
import proofs.«130128_j25795573580066_2_alg».proof.Proof.Bridge
import proofs.«130128_j25795573580066_2_alg».proof.Proof.RefIsSpec
import proofs.«130128_j25795573580066_2_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs and leaves its arguments unchanged. -/
theorem frame_k : Cert.frame_Kernel := fun m ρ _ => Cert.Kernel.Frame.frame m ρ

/-- So does the idealized kernel program. -/
theorem frame_ki : Cert.frame_KernelIdeal := fun m ρ _ => Cert.KernelIdeal.Frame.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both idealized programs end with the result array at
    `Attn.mha` of the arguments, index by index. -/
theorem algebraic : Cert.algebraic_KernelIdeal_ReferenceIdeal := by
  intro m ρ m' ρ' hpre hagree
  refine ⟨fun c => Cert.KernelIdeal.Frame.W10 (F := Ideal) m ρ c (Proc.devRef .tc Cert.KernelIdeal.main_v12), ?_, ?_⟩
  · exact (θ_run Cert.KernelIdeal.defs _ _).mono (fun r h c =>
      ⟨h c _ (Cert.KernelIdeal.Frame.mem_uc Cert.KernelIdeal.main_v12 (by decide)),
        (h c _ (Cert.KernelIdeal.Frame.mem_uc Cert.KernelIdeal.main_arg0 (by decide))).trans (Cert.KernelIdeal.Frame.W10_keep_all m ρ c Cert.KernelIdeal.main_arg0 (by decide)),
        (h c _ (Cert.KernelIdeal.Frame.mem_uc Cert.KernelIdeal.main_arg1 (by decide))).trans (Cert.KernelIdeal.Frame.W10_keep_all m ρ c Cert.KernelIdeal.main_arg1 (by decide)),
        (h c _ (Cert.KernelIdeal.Frame.mem_uc Cert.KernelIdeal.main_arg2 (by decide))).trans (Cert.KernelIdeal.Frame.W10_keep_all m ρ c Cert.KernelIdeal.main_arg2 (by decide)),
        (h c _ (Cert.KernelIdeal.Frame.mem_uc Cert.KernelIdeal.main_arg3 (by decide))).trans (Cert.KernelIdeal.Frame.W10_keep_all m ρ c Cert.KernelIdeal.main_arg3 (by decide)),
        (h c _ (Cert.KernelIdeal.Frame.mem_uc Cert.KernelIdeal.main_arg4 (by decide))).trans (Cert.KernelIdeal.Frame.W10_keep_all m ρ c Cert.KernelIdeal.main_arg4 (by decide)),
        (h c _ (Cert.KernelIdeal.Frame.mem_uc Cert.KernelIdeal.main_arg5 (by decide))).trans (Cert.KernelIdeal.Frame.W10_keep_all m ρ c Cert.KernelIdeal.main_arg5 (by decide)),
        (h c _ (Cert.KernelIdeal.Frame.mem_uc Cert.KernelIdeal.main_arg6 (by decide))).trans (Cert.KernelIdeal.Frame.W10_keep_all m ρ c Cert.KernelIdeal.main_arg6 (by decide)),
        (h c _ (Cert.KernelIdeal.Frame.mem_uc Cert.KernelIdeal.main_arg7 (by decide))).trans (Cert.KernelIdeal.Frame.W10_keep_all m ρ c Cert.KernelIdeal.main_arg7 (by decide)),
        (h c _ (Cert.KernelIdeal.Frame.mem_uc Cert.KernelIdeal.main_arg8 (by decide))).trans (Cert.KernelIdeal.Frame.W10_keep_all m ρ c Cert.KernelIdeal.main_arg8 (by decide)),
        (h c _ (Cert.KernelIdeal.Frame.mem_uc Cert.KernelIdeal.main_arg9 (by decide))).trans (Cert.KernelIdeal.Frame.W10_keep_all m ρ c Cert.KernelIdeal.main_arg9 (by decide)),
        (h c _ (Cert.KernelIdeal.Frame.mem_uc Cert.KernelIdeal.main_arg10 (by decide))).trans (Cert.KernelIdeal.Frame.W10_keep_all m ρ c Cert.KernelIdeal.main_arg10 (by decide))⟩)
      (Cert.KernelIdeal.Frame.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨r0, r1, r2, r3, r4, r5, r6, r7, r8, r9, r10⟩ := Cert.KernelIdeal.Finite.args_real m hpre c
    obtain ⟨e0, e1, e2, e3, e4, e5, e6, e7, e8, e9, e10⟩ := hagree c
    rw [Cert.ReferenceIdeal.Read.val_main_v39_eq, e0, e1, e2, e3, e4, e5, e6, e7, e8, e9, e10]
    funext i
    rw [eq_ix3 i]
    exact (Cert.ReferenceIdeal.RefValue.ref_is_mha _ _ _ _ _ _ _ _ _ _ _ (i 0) (i 1) (i 2)).trans
      (Cert.KernelIdeal.Bridge.result_eq m ρ c r0 r1 r2 r3 r4 r5 r6 r7 r8 r9 r10 (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
